-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S2048x128 : Shape := ⟨2, ![2048, 128]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S2048x128 : S_.BroadcastsInDim S2048x128 (![] : Fin 0 → Fin S2048x128.rank)
  reducesTo_S2048x128_S_d0_1 : S2048x128.ReducesTo [0, 1] S_

variable [Facts]

def fn_part1 {F : FTy → Type} [FloatOps F] (main_v13 : IVec S_ 1) (main_v16 : IVec S2048x128 1) : IVec S_ 1 :=
  let main_c_5 : IVec S_ 1 := constantI S_ 1 1#1
  let main_v17 : IVec S_ 1 := (fun x v => Host.reduce IntOp.andi x v reducesTo_S2048x128_S_d0_1 h_S_) main_v16 main_c_5
  let main_v18 : IVec S_ 1 := andi main_v13 main_v17
  main_v18

def fn {F : FTy → Type} [FloatOps F] (main_arg0 : FVec F S8x2048x2048 .f32) (main_arg1 : FVec F S2048x128 .f32) (main_arg2 : FVec F S2048x128 .f32) (main_arg3 : FVec F S2048x128 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S2048x128 .f32 := Host.absf main_arg2
  let main_cst_2 : FVec F S_ .f32 := constant S_ .f32 0x7F800000#32
  let main_v10 : FVec F S2048x128 .f32 := broadcastInDim S2048x128 ![] bcast_S_S2048x128 main_cst_2
  let main_v11 : IVec S2048x128 1 := cmpf .olt main_v9 main_v10
  let main_c_3 : IVec S_ 1 := constantI S_ 1 1#1
  let main_v12 : IVec S_ 1 := (fun x v => Host.reduce IntOp.andi x v reducesTo_S2048x128_S_d0_1 h_S_) main_v11 main_c_3
  let main_v13 : IVec S_ 1 := andi main_v8 main_v12
  let main_v14 : FVec F S2048x128 .f32 := Host.absf main_arg3
  let main_cst_4 : FVec F S_ .f32 := constant S_ .f32 0x7F800000#32
  let main_v15 : FVec F S2048x128 .f32 := broadcastInDim S2048x128 ![] bcast_S_S2048x128 main_cst_4
  let main_v16 : IVec S2048x128 1 := cmpf .olt main_v14 main_v15
  fn_part1 (F := F) main_v13 main_v16
-- ==== Kernel.lean ====
abbrev S8x2048x2048 : Shape := ⟨3, ![8, 2048, 2048]⟩
abbrev S2048x128 : Shape := ⟨2, ![2048, 128]⟩
abbrev S16384x2048 : Shape := ⟨2, ![16384, 2048]⟩
abbrev S16384x128 : Shape := ⟨2, ![16384, 128]⟩
abbrev S1024x2048 : Shape := ⟨2, ![1024, 2048]⟩
abbrev S1024x128 : Shape := ⟨2, ![1024, 128]⟩
abbrev S8x2048x128 : Shape := ⟨3, ![8, 2048, 128]⟩
abbrev S1x512x128 : Shape := ⟨3, ![1, 512, 128]⟩
abbrev S512x1 : Shape := ⟨2, ![512, 1]⟩
abbrev S512x128 : Shape := ⟨2, ![512, 128]⟩
abbrev S128x512 : Shape := ⟨2, ![128, 512]⟩
abbrev S512x512 : Shape := ⟨2, ![512, 512]⟩
abbrev S512 : Shape := ⟨1, ![512]⟩

abbrev nBuf : Space → Nat
  | .hbm => 15
  | .vmem => 22
  | .smem => 0
  | _ => 0

abbrev bufTy : (tb : Table) → Fin (tcTables nBuf tb) → BufTy
  | .hbm, ⟨0, _⟩ => ⟨S8x2048x2048, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S16384x2048, .f32⟩
  | .hbm, ⟨5, _⟩ => ⟨S2048x128, .bf16⟩
  | .hbm, ⟨6, _⟩ => ⟨S2048x128, .bf16⟩
  | .hbm, ⟨7, _⟩ => ⟨S2048x128, .bf16⟩
  | .hbm, ⟨8, _⟩ => ⟨S16384x128, .bf16⟩
  | .hbm, ⟨9, _⟩ => ⟨S16384x128, .bf16⟩
  | .hbm, ⟨10, _⟩ => ⟨S16384x128, .bf16⟩
  | .hbm, ⟨11, _⟩ => ⟨S8x2048x128, .bf16⟩
  | .hbm, ⟨12, _⟩ => ⟨S8x2048x128, .bf16⟩
  | .hbm, ⟨13, _⟩ => ⟨S8x2048x128, .bf16⟩
  | .hbm, ⟨14, _⟩ => ⟨S8x2048x128, .f32⟩
  | .local _ .vmem, ⟨0, _⟩ => ⟨S1024x2048, .f32⟩
  | .local _ .vmem, ⟨1, _⟩ => ⟨S1024x2048, .f32⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1x512x128, .bf16⟩
  | .local _ .vmem, ⟨12, _⟩ => ⟨S1x512x128, .bf16⟩
  | .local _ .vmem, ⟨13, _⟩ => ⟨S1x512x128, .bf16⟩
  | .local _ .vmem, ⟨14, _⟩ => ⟨S1x512x128, .bf16⟩
  | .local _ .vmem, ⟨15, _⟩ => ⟨S1x512x128, .bf16⟩
  | .local _ .vmem, ⟨16, _⟩ => ⟨S1x512x128, .bf16⟩
  | .local _ .vmem, ⟨17, _⟩ => ⟨S1x512x128, .f32⟩
  | .local _ .vmem, ⟨18, _⟩ => ⟨S1x512x128, .f32⟩
  | .local _ .vmem, ⟨19, _⟩ => ⟨S512x1, .f32⟩
  | .local _ .vmem, ⟨20, _⟩ => ⟨S512x1, .f32⟩
  | .local _ .vmem, ⟨21, _⟩ => ⟨S512x128, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![8, 4, 4], ![false, false, false]⟩

def k1_cond3 (i : grid1.Coords) : BitVec 1 :=
  let arg2 : BitVec 32 := BitVec.ofNat 32 (i 2).val
  let arg1 : BitVec 32 := BitVec.ofNat 32 (i 1).val
  let v6 : BitVec 1 := Scalar.cmpi .eq arg2 arg1
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S8x2048x2048_S16384x2048 : S8x2048x2048.ShapeCasts S16384x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  shapeCasts_S16384x128_S8x2048x128 : S16384x128.ShapeCasts S8x2048x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  transposes_S512x128_p1_0_S128x512 : S512x128.Transposes [1, 0] S128x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x128 : S512x1.Broadcasts S512x128
  shapeCasts_S512x128_S1x512x128 : S512x128.ShapeCasts S1x512x128
  dot_S1024x2048_S2048x128_S1024x128_1_0_0_1_n_n_wf : DotDims.WF S1024x2048 S2048x128 S1024x128 [1] [0] [0] [1] [] []
  dot_S512x128_S128x512_S512x512_1_0_0_1_n_n_wf : DotDims.WF S512x128 S128x512 S512x512 [1] [0] [0] [1] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S2048x128.size a
  hwx0_1 : ∀ i : grid0.Coords, EltTy.bits .bf16 = 32 ∨ (Rect.block (s := S2048x128) S2048x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S2048x128.size a
  hwx0_2 : ∀ i : grid0.Coords, EltTy.bits .bf16 = 32 ∨ (Rect.block (s := S2048x128) S2048x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S2048x128.size a
  hwx0_3 : ∀ i : grid0.Coords, EltTy.bits .bf16 = 32 ∨ (Rect.block (s := S2048x128) S2048x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S16384x128.size a
  hwx0_4 : ∀ i : grid0.Coords, EltTy.bits .bf16 = 32 ∨ (Rect.block (s := S16384x128) S1024x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S16384x128.size a
  hwx0_5 : ∀ i : grid0.Coords, EltTy.bits .bf16 = 32 ∨ (Rect.block (s := S16384x128) S1024x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S16384x128.size a
  hwx0_6 : ∀ i : grid0.Coords, EltTy.bits .bf16 = 32 ∨ (Rect.block (s := S16384x128) S1024x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S8x2048x128.size a
  hwx1_0 : ∀ i : grid1.Coords, EltTy.bits .bf16 = 32 ∨ (Rect.block (s := S8x2048x128) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x128.size a ≤ S8x2048x128.size a
  hwx1_1 : ∀ i : grid1.Coords, EltTy.bits .bf16 = 32 ∨ (Rect.block (s := S8x2048x128) S1x512x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x128.size a ≤ S8x2048x128.size a
  hwx1_2 : ∀ i : grid1.Coords, EltTy.bits .bf16 = 32 ∨ (Rect.block (s := S8x2048x128) S1x512x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S8x2048x128.size a
  hwx1_3 : ∀ i : grid1.Coords, EltTy.bits .f32 = 32 ∨ (Rect.block (s := S8x2048x128) S1x512x128.size (cc1_transform_3 i) (hinb1_3 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1024x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1024x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v5) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S8x2048x2048 : Shape := ⟨3, ![8, 2048, 2048]⟩
abbrev S2048x128 : Shape := ⟨2, ![2048, 128]⟩
abbrev S8x2048x128 : Shape := ⟨3, ![8, 2048, 128]⟩
abbrev S_ : Shape := ⟨0, ![]⟩
abbrev S2048x2048 : Shape := ⟨2, ![2048, 2048]⟩
abbrev S8x2048 : Shape := ⟨2, ![8, 2048]⟩
abbrev S8x2048x1 : Shape := ⟨3, ![8, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S8x2048x128, .f32⟩
  | .hbm, ⟨5, _⟩ => ⟨S8x2048x128, .f32⟩
  | .hbm, ⟨6, _⟩ => ⟨S8x2048x128, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x128, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x2048_S2048x128_S8x2048x128_2_0_01_1_n_n_wf : DotDims.WF S8x2048x2048 S2048x128 S8x2048x128 [2] [0] [0, 1] [1] [] []
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def dot_S8x2048x2048_S2048x128_S8x2048x128_2_0_01_1_n_n : DotDims S8x2048x2048 S2048x128 S8x2048x128 where
  lhsContracting := [2]
  rhsContracting := [0]
  lhsNonContracting := [0, 1]
  rhsNonContracting := [1]
  lhsBatch := []
  rhsBatch := []
  wf := dot_S8x2048x2048_S2048x128_S8x2048x128_2_0_01_1_n_n_wf
def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.KRegion0.lean ====
/-
  The projection region of the kernel program (its first custom call), stated at the buffer contents
  the region is entered with.

  Each of the sixteen grid points loads one 1024×2048 row block of the activations and the three
  2048×128 weight matrices whole, and stores three 1024×128 blocks: the three matrix products of
  the (rounded) activation block with the weights, rounded again. This file records, for any float
  instance, what every window's staging buffer holds after the body (the inputs their blocks, the
  outputs the three payloads of the blocks), proves the body's triple on whole staging buffers, and
  derives the pipeline's body obligation from it.
-/
import proofs.«165543_j62113817035141_2_alg».proof.Proof.Gen.Kernel.Launch
import proofs.«165543_j62113817035141_2_alg».proof.Proof.Gen.Kernel.Skeleton
import proofs.«165543_j62113817035141_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when the region is entered
variable (V : (c : Dev nD) → (b : Ref sig .tc) → Buf (Elt F) ((c : Thread nD τ).loc b))

/-! ## Blocks of the windows' arrays -/

/-- The block of window w's array (as the region finds it) that grid point t works on. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- Zero offsets on both axes, as a constant function. -/
theorem zero2 : (![0, 0] : Fin 2 → Nat) = fun _ => 0 := funext fun a => by fin_cases a <;> rfl

/-- The whole 1024×128 staging buffer as a rectangle: where each of the three stores lands. -/
abbrev full1024x128 : Rect S1024x128 :=
  Rect.unit (s := S1024x128) ![0, 0] S1024x128.size inb_S1024x128_S1024x128_0_0
/-- The whole 1024×2048 staging buffer as a rectangle: where the activation block is loaded from. -/
abbrev full1024x2048 : Rect S1024x2048 :=
  Rect.unit (s := S1024x2048) ![0, 0] S1024x2048.size inb_S1024x2048_S1024x2048_0_0
/-- The whole 2048×128 staging buffer as a rectangle: where each weight matrix is loaded from. -/
abbrev full2048x128 : Rect S2048x128 :=
  Rect.unit (s := S2048x128) ![0, 0] S2048x128.size inb_S2048x128_S2048x128_0_0

/-! ## What the body leaves in the three output buffers -/

/-- The first output buffer after the body: one store of the product with the first weight matrix. -/
def out0_4 (x : Vec F S1024x2048 .f32) (w : Vec F S2048x128 .bf16) : Vec F S1024x128 .bf16 :=
  View.canon [⟨full1024x128, k0_pay2 (View.ld x full1024x2048) (View.ld w full2048x128)⟩]
/-- The second output buffer after the body: the product with the second weight matrix. -/
def out0_5 (x : Vec F S1024x2048 .f32) (w : Vec F S2048x128 .bf16) : Vec F S1024x128 .bf16 :=
  View.canon [⟨full1024x128, k0_pay3 (View.ld x full1024x2048) (View.ld w full2048x128)⟩]
/-- The third output buffer after the body: the product with the third weight matrix. -/
def out0_6 (x : Vec F S1024x2048 .f32) (w : Vec F S2048x128 .bf16) : Vec F S1024x128 .bf16 :=
  View.canon [⟨full1024x128, k0_pay4 (View.ld x full1024x2048) (View.ld w full2048x128)⟩]

/-- One store through the whole buffer covers it. -/
theorem cover_full (p : Vec F S1024x128 .bf16) (y : S1024x128.Idx) :
    ∃ pc ∈ ([⟨full1024x128, p⟩] : List (View.Piece (Elt F) S1024x128 .bf16)), y ∈ pc.1.set :=
  ⟨_, List.mem_singleton_self _, View.mem_set_unit_zero zero2 inb_S1024x128_S1024x128_0_0 y⟩

/-! ## The body's triple -/

set_option maxHeartbeats 4000000 in
/-- The kernel body on whole staging buffers — the four inputs at read contents, the three outputs
    at anything — runs to the continuation with the inputs as they were and each output at its
    product payload: the printed function is its skeleton, which is run operation by operation. -/
theorem sound_kernel0 (c : Dev nD) (E : Set ℕ) (i : grid0.Coords)
    (arg1 : Memref sig .tc .vmem S1024x2048 .f32) (harg1 : arg1.IsWhole)
    (arg2 : Memref sig .tc .vmem S2048x128 .bf16) (harg2 : arg2.IsWhole)
    (arg3 : Memref sig .tc .vmem S2048x128 .bf16) (harg3 : arg3.IsWhole)
    (arg4 : Memref sig .tc .vmem S2048x128 .bf16) (harg4 : arg4.IsWhole)
    (arg5 : Memref sig .tc .vmem S1024x128 .bf16) (harg5 : arg5.IsWhole)
    (arg6 : Memref sig .tc .vmem S1024x128 .bf16) (harg6 : arg6.IsWhole)
    (arg7 : Memref sig .tc .vmem S1024x128 .bf16) (harg7 : arg7.IsWhole)
    (x : Vec F S1024x2048 .f32) (w1 w2 w3 : Vec F S2048x128 .bf16) (K : PUnit → sProp 𝕄) :
    iprop(owns (c : Thread nD τ) arg1 fullShare x ∗ owns (c : Thread nD τ) arg2 fullShare w1
        ∗ owns (c : Thread nD τ) arg3 fullShare w2 ∗ owns (c : Thread nD τ) arg4 fullShare w3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x ∗ owns (c : Thread nD τ) arg2 fullShare w1
            ∗ owns (c : Thread nD τ) arg3 fullShare w2 ∗ owns (c : Thread nD τ) arg4 fullShare w3
            ∗ owns (c : Thread nD τ) arg5 fullShare (out0_4 x w1)
            ∗ owns (c : Thread nD τ) arg6 fullShare (out0_5 x w2)
            ∗ owns (c : Thread nD τ) arg7 fullShare (out0_6 x w3)) -∗ K ⟨⟩))
      ⊢ wp frame (wpE (defs₀ (F := F)) Variants.none c none) E
          (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f1, %hf1, H1⟩, ⟨%f2, %hf2, H2⟩, ⟨%f3, %hf3, H3⟩, ⟨%f4, %hf4, H4⟩,
    ⟨%d5, %f5, -, H5⟩, ⟨%d6, %f6, -, H6⟩, ⟨%d7, %f7, -, H7⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_full _)
  isplitl [H6]
  · iexists _; isplitr
    swap; · iexact H6
    ipureintro
    exact View.read_writes_eq_canon _ _ _ (cover_full _)
  iexists _; isplitr
  swap; · iexact H7
  ipureintro
  exact View.read_writes_eq_canon _ _ _ (cover_full _)

/-! ## The pipeline's proof data -/

/-- The proof data of the projection pipeline on core c: the arrays as the region finds them; after
    the body at point t each input buffer at its block and each output buffer at the product payload
    of the activation block and its weight matrix; the invariant that of a body touching nothing but
    its windows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) := by dsimp only [dat0]
theorem after0_5 (c : Dev nD) (t : Fin cfg0.N) :
    (dat0 V c).after 5 t = out0_5 (iblk0 V c 0 t) (iblk0 V c 2 t) := by dsimp only [dat0]
theorem after0_6 (c : Dev nD) (t : Fin cfg0.N) :
    (dat0 V c).after 6 t = out0_6 (iblk0 V c 0 t) (iblk0 V c 3 t) := by dsimp only [dat0]

/-! ## What the input buffers hold when the body is called -/

/-- An input window's current staging buffer holds its block at every point, fetched there or not
    (where it is not fetched the block index has not moved and the body left the block in place). -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-! ## The body obligation, at a generic point -/

/-- What the body is called with at point t: the invariant, the core's debts, and each window's
    current staging buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What the body returns: the same, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the input buffers hold their blocks, so the body's triple applies; the
    invariant and the debts pass through unread. -/
theorem sound_body0 (c : Dev nD) (t : Fin cfg0.N) :
    bodyPre0 V c t ⊢ wp frame (wpE (defs₀ (F := F)) Variants.none c none) Set.univ (bodyAt0 t)
      (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) :
    BodyObligation (dat0 (F := F) V c) (defs₀ (F := F)) Variants.none () Set.univ := fun t => by
  rw [bigSep_W0, bigSep_W0]
  exact sound_body0 V c t

end Cert.Kernel.R0

end
-- ==== Proof.KR1Shared.lean ====
/-
  The attention region (the second kernel launch): what its runs share.

  A grid point is a triple (batch, query tile, key tile), the key tile moving fastest. The body has three
  guarded blocks: the running maximum, total and weighted sum are reset when the key tile is the first; they
  are updated from the query and key/value blocks when the key tile is not after the query tile; the output
  block is the weighted sum over the total when the key tile IS the query tile. The three conditions are
  stated here as the body computes them and decided over the 128 points in closed form, with the points at
  which the output window is idle or written back.
-/
import proofs.«165543_j62113817035141_2_alg».proof.Proof.Gen.Kernel.Launch
import proofs.«165543_j62113817035141_2_alg».proof.Proof.Gen.Kernel.Skeleton
import proofs.«165543_j62113817035141_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (an unfetched
    window's block index has not moved). -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end

/-! ## The three conditions -/

/-- The key tile is the first. -/
abbrev c1 (i : grid1.Coords) : Prop := (Scalar.cmpi .ne (Scalar.extui (Scalar.cmpi .eq (BitVec.ofNat 32 (i 2).val) 0#32)) 0#32) = 1#1
/-- The key tile is not after the query tile. -/
abbrev c2 (i : grid1.Coords) : Prop := (Scalar.cmpi .ne (Scalar.extui (Scalar.cmpi .sle (BitVec.ofNat 32 (i 2).val) (BitVec.ofNat 32 (i 1).val))) 0#32) = 1#1
/-- The key tile is the query tile. -/
abbrev c3 (i : grid1.Coords) : Prop := k1_cond3 i = 1#1

theorem hc1 : ∀ t : Fin cfg1.N, c1 (grid1.coords t) ↔ t.val % 4 = 0 :=
  (by decide +kernel : ∀ t : Fin grid1.N, c1 (grid1.coords t) ↔ t.val % 4 = 0)
theorem hc2 : ∀ t : Fin cfg1.N, c2 (grid1.coords t) ↔ t.val % 4 ≤ t.val / 4 % 4 :=
  (by decide +kernel : ∀ t : Fin grid1.N, c2 (grid1.coords t) ↔ t.val % 4 ≤ t.val / 4 % 4)
theorem hc3 : ∀ t : Fin cfg1.N, c3 (grid1.coords t) ↔ t.val % 4 = t.val / 4 % 4 :=
  (by decide +kernel : ∀ t : Fin grid1.N, c3 (grid1.coords t) ↔ t.val % 4 = t.val / 4 % 4)

/-! ## Where the windows are idle, and where the output is written back -/

theorem live0 : ∀ i, cfg1.idle 0 i = false := fun _ => rfl
theorem live1 : ∀ i, cfg1.idle 1 i = false := fun _ => rfl
theorem live2 : ∀ i, cfg1.idle 2 i = false := fun _ => rfl
theorem idle3 : ∀ t : Fin cfg1.N, cfg1.idle 3 (grid1.coords t) = true ↔ ¬ t.val % 4 = t.val / 4 % 4 :=
  (by decide +kernel : ∀ t : Fin grid1.N, cfg1.idle 3 (grid1.coords t) = true ↔ ¬ t.val % 4 = t.val / 4 % 4)
theorem flush3 : ∀ t : Fin cfg1.N, (cfg1.win 3).flush t = true ↔ t.val % 4 = 3 := flush1_3

/-! ## The memrefs the body is called with -/

abbrev ms0 (t : Fin cfg1.N) : Memref sig .tc .vmem S1x512x128 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x512x128 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x512x128 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x512x128 .f32 := win1_3.stage (cfg1.slots t 3)
abbrev hs3 (t : Fin cfg1.N) : (ms3 t).IsWhole := hstage1_3 ((cfg1.slots t 3).cast nbuf1_3)
/-- The running maximum, the running total and the running weighted sum: whole scoped buffers of the kernel's own. -/
abbrev scM : Memref sig .tc .vmem S512x1 .f32 := Memref.whole cc1_scratch0
abbrev scL : Memref sig .tc .vmem S512x1 .f32 := Memref.whole cc1_scratch1
abbrev scA : Memref sig .tc .vmem S512x128 .f32 := Memref.whole cc1_scratch2
/-- Views through which contents are stated. -/
abbrev VO : View sig .tc .vmem S1x512x128 .f32 := (Memref.whole cc1_stg3_0 : Memref sig .tc .vmem S1x512x128 .f32).view
abbrev VM : View sig .tc .vmem S512x1 .f32 := scM.view
abbrev VL : View sig .tc .vmem S512x1 .f32 := scL.view
abbrev VA : View sig .tc .vmem S512x128 .f32 := scA.view

/-- The scoped buffers the attention region never touches (the projection region's staging buffers), each whole at
    some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The region's plain invariant: those untouched buffers, the three scratch buffers as memrefs owned at some
    contents, and the generator register at some state. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; simp only [scM, scL, scA, owns_whole]; try rfl

end Cert.Kernel.R1

end
-- ==== Proof.KR1RunA.lean ====
/-
  The attention body at a point whose key tile is the first AND the query tile (query tile 0): the reset, the
  update and the output block all run.
-/
import proofs.«165543_j62113817035141_2_alg».proof.Proof.KR1Shared
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces this case's stores leave in each buffer it stores into, with the proof that the body, started from the
    three input blocks (and whatever else the case reads) at given contents, runs to the end leaving the inputs as they
    were, every buffer it does not store into as it was, and every buffer it stores into with its pieces written. -/
noncomputable def runA (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (h1 : c1 i) (h2 : c2 i) (h3 : c3 i)
    (xq xk xv : Vec F S1x512x128 .bf16) :
    Σ' (LO : List (View.Piece (Elt F) S1x512x128 .f32)) (LM LL : List (View.Piece (Elt F) S512x1 .f32)), { LA : List (View.Piece (Elt F) S512x128 .f32) //
      ∀ (E : Set ℕ) (K : PUnit → sProp 𝕄),
        iprop(owns (c : Thread nD τ) arg3 fullShare xq ∗ owns (c : Thread nD τ) arg4 fullShare xk ∗ owns (c : Thread nD τ) arg5 fullShare xv ∗ (∃ d, owns (c : Thread nD τ) arg6 fullShare d)
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare xq ∗ owns (c : Thread nD τ) arg4 fullShare xk ∗ owns (c : Thread nD τ) arg5 fullShare xv ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1__flash_causal_kernel i arg3 harg3 arg4 harg4 arg5 harg5 arg6 harg6 arg7 harg7 arg8 harg8 arg9 harg9) K } := by
  refine ⟨?_, ?_, ?_, ?_, fun E K => ?run⟩
  case run =>
    haveI : Fact (c1 i) := ⟨h1⟩
    haveI : Fact (c2 i) := ⟨h2⟩
    haveI : Fact (c3 i) := ⟨h3⟩
    simp only [cc1__flash_causal_kernel_eq_skeleton]; unfold cc1__flash_causal_kernel_skel
    simp only [k1_part1_eq_skeleton]
    unfold owns
    iintro ⟨⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
    obtain rfl := harg3.eq_unread hf3; obtain rfl := harg4.eq_unread hf4; obtain rfl := harg5.eq_unread hf5
    sl_exec (disch := first | exact h1 | exact h2 | exact h3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    iexists _; iexact H9

end Cert.Kernel.R1

end
-- ==== Proof.KR1RunB.lean ====
/-
  The attention body at a point whose key tile is the first and before the query tile: the reset and the update run;
  the output block is untouched.
-/
import proofs.«165543_j62113817035141_2_alg».proof.Proof.KR1Shared
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces this case's stores leave in each buffer it stores into, with the proof that the body, started from the
    three input blocks (and whatever else the case reads) at given contents, runs to the end leaving the inputs as they
    were, every buffer it does not store into as it was, and every buffer it stores into with its pieces written. -/
noncomputable def runB (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (h1 : c1 i) (h2 : c2 i) (h3 : ¬c3 i)
    (xq xk xv : Vec F S1x512x128 .bf16) :
    Σ' (LM LL : List (View.Piece (Elt F) S512x1 .f32)), { LA : List (View.Piece (Elt F) S512x128 .f32) //
      ∀ (xo : Vec F S1x512x128 .f32) (E : Set ℕ) (K : PUnit → sProp 𝕄),
        iprop(owns (c : Thread nD τ) arg3 fullShare xq ∗ owns (c : Thread nD τ) arg4 fullShare xk ∗ owns (c : Thread nD τ) arg5 fullShare xv ∗ owns (c : Thread nD τ) arg6 fullShare xo
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare xq ∗ owns (c : Thread nD τ) arg4 fullShare xk ∗ owns (c : Thread nD τ) arg5 fullShare xv ∗ owns (c : Thread nD τ) arg6 fullShare xo
                ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1__flash_causal_kernel i arg3 harg3 arg4 harg4 arg5 harg5 arg6 harg6 arg7 harg7 arg8 harg8 arg9 harg9) K } := by
  refine ⟨?_, ?_, ?_, fun xo E K => ?run⟩
  case run =>
    haveI : Fact (c1 i) := ⟨h1⟩
    haveI : Fact (c2 i) := ⟨h2⟩
    haveI : Fact (¬c3 i) := ⟨h3⟩
    simp only [cc1__flash_causal_kernel_eq_skeleton]; unfold cc1__flash_causal_kernel_skel
    simp only [k1_part1_eq_skeleton]
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg3.eq_unread hf3; obtain rfl := harg4.eq_unread hf4; obtain rfl := harg5.eq_unread hf5
    obtain rfl := harg6.eq_unread hf6
    sl_exec (disch := first | exact h1 | exact h2 | exact h3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

end Cert.Kernel.R1

end
-- ==== Proof.KR1RunC.lean ====
/-
  The attention body at a point whose key tile is after the first and before the query tile: only the update
  block runs. The running maximum, total and weighted sum are each stored once; the output block is untouched.
-/
import proofs.«165543_j62113817035141_2_alg».proof.Proof.KR1Shared
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the update leaves in the three running buffers, with the proof that the body, started from the
    blocks and the running buffers at given contents, runs to the end leaving the blocks and the output buffer as
    they were and each running buffer with its pieces written. -/
noncomputable def runC (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (h1 : ¬c1 i) (h2 : c2 i) (h3 : ¬c3 i)
    (xq xk xv : Vec F S1x512x128 .bf16) (xm xl : Vec F S512x1 .f32) (xa : Vec F S512x128 .f32) :
    Σ' (LM LL : List (View.Piece (Elt F) S512x1 .f32)), { LA : List (View.Piece (Elt F) S512x128 .f32) //
      ∀ (xo : Vec F S1x512x128 .f32) (E : Set ℕ) (K : PUnit → sProp 𝕄),
        iprop(owns (c : Thread nD τ) arg3 fullShare xq ∗ owns (c : Thread nD τ) arg4 fullShare xk ∗ owns (c : Thread nD τ) arg5 fullShare xv ∗ owns (c : Thread nD τ) arg6 fullShare xo
            ∗ owns (c : Thread nD τ) arg7 fullShare xm ∗ owns (c : Thread nD τ) arg8 fullShare xl ∗ owns (c : Thread nD τ) arg9 fullShare xa
            ∗ (iprop(owns (c : Thread nD τ) arg3 fullShare xq ∗ owns (c : Thread nD τ) arg4 fullShare xk ∗ owns (c : Thread nD τ) arg5 fullShare xv ∗ owns (c : Thread nD τ) arg6 fullShare xo
                ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1__flash_causal_kernel i arg3 harg3 arg4 harg4 arg5 harg5 arg6 harg6 arg7 harg7 arg8 harg8 arg9 harg9) K } := by
  refine ⟨?_, ?_, ?_, fun xo E K => ?run⟩
  case run =>
    haveI : Fact (¬c1 i) := ⟨h1⟩
    haveI : Fact (c2 i) := ⟨h2⟩
    haveI : Fact (¬c3 i) := ⟨h3⟩
    simp only [cc1__flash_causal_kernel_eq_skeleton]; unfold cc1__flash_causal_kernel_skel
    simp only [k1_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5
    obtain rfl := harg6.eq_unread hf6; obtain rfl := harg7.eq_unread hf7; obtain rfl := harg8.eq_unread hf8
    obtain rfl := harg9.eq_unread hf9
    sl_exec (disch := first | exact h1 | exact h2 | exact h3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

end Cert.Kernel.R1

end
-- ==== Proof.KR1RunD.lean ====
/-
  The attention body at a point whose key tile is the query tile, after the first: the update and the output block run.
-/
import proofs.«165543_j62113817035141_2_alg».proof.Proof.KR1Shared
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces this case's stores leave in each buffer it stores into, with the proof that the body, started from the
    three input blocks (and whatever else the case reads) at given contents, runs to the end leaving the inputs as they
    were, every buffer it does not store into as it was, and every buffer it stores into with its pieces written. -/
noncomputable def runD (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (h1 : ¬c1 i) (h2 : c2 i) (h3 : c3 i)
    (xq xk xv : Vec F S1x512x128 .bf16) (xm xl : Vec F S512x1 .f32) (xa : Vec F S512x128 .f32) :
    Σ' (LO : List (View.Piece (Elt F) S1x512x128 .f32)) (LM LL : List (View.Piece (Elt F) S512x1 .f32)), { LA : List (View.Piece (Elt F) S512x128 .f32) //
      ∀ (E : Set ℕ) (K : PUnit → sProp 𝕄),
        iprop(owns (c : Thread nD τ) arg3 fullShare xq ∗ owns (c : Thread nD τ) arg4 fullShare xk ∗ owns (c : Thread nD τ) arg5 fullShare xv ∗ (∃ d, owns (c : Thread nD τ) arg6 fullShare d)
            ∗ owns (c : Thread nD τ) arg7 fullShare xm ∗ owns (c : Thread nD τ) arg8 fullShare xl ∗ owns (c : Thread nD τ) arg9 fullShare xa
            ∗ (iprop(owns (c : Thread nD τ) arg3 fullShare xq ∗ owns (c : Thread nD τ) arg4 fullShare xk ∗ owns (c : Thread nD τ) arg5 fullShare xv ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1__flash_causal_kernel i arg3 harg3 arg4 harg4 arg5 harg5 arg6 harg6 arg7 harg7 arg8 harg8 arg9 harg9) K } := by
  refine ⟨?_, ?_, ?_, ?_, fun E K => ?run⟩
  case run =>
    haveI : Fact (¬c1 i) := ⟨h1⟩
    haveI : Fact (c2 i) := ⟨h2⟩
    haveI : Fact (c3 i) := ⟨h3⟩
    simp only [cc1__flash_causal_kernel_eq_skeleton]; unfold cc1__flash_causal_kernel_skel
    simp only [k1_part1_eq_skeleton]
    unfold owns
    iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5
    obtain rfl := harg7.eq_unread hf7; obtain rfl := harg8.eq_unread hf8; obtain rfl := harg9.eq_unread hf9
    sl_exec (disch := first | exact h1 | exact h2 | exact h3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    iexists _; iexact H9

end Cert.Kernel.R1

end
-- ==== Proof.KR1RunE.lean ====
/-
  The attention body at a point whose key tile is after the query tile: nothing runs; every buffer is as it was.
-/
import proofs.«165543_j62113817035141_2_alg».proof.Proof.KR1Shared
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces this case's stores leave in each buffer it stores into, with the proof that the body, started from the
    three input blocks (and whatever else the case reads) at given contents, runs to the end leaving the inputs as they
    were, every buffer it does not store into as it was, and every buffer it stores into with its pieces written. -/
noncomputable def runE (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (h1 : ¬c1 i) (h2 : ¬c2 i) (h3 : ¬c3 i)
    (xq xk xv : Vec F S1x512x128 .bf16) (xm xl : Vec F S512x1 .f32) (xa : Vec F S512x128 .f32) :
    PLift (
      ∀ (xo : Vec F S1x512x128 .f32) (E : Set ℕ) (K : PUnit → sProp 𝕄),
        iprop(owns (c : Thread nD τ) arg3 fullShare xq ∗ owns (c : Thread nD τ) arg4 fullShare xk ∗ owns (c : Thread nD τ) arg5 fullShare xv ∗ owns (c : Thread nD τ) arg6 fullShare xo
            ∗ owns (c : Thread nD τ) arg7 fullShare xm ∗ owns (c : Thread nD τ) arg8 fullShare xl ∗ owns (c : Thread nD τ) arg9 fullShare xa
            ∗ (iprop(owns (c : Thread nD τ) arg3 fullShare xq ∗ owns (c : Thread nD τ) arg4 fullShare xk ∗ owns (c : Thread nD τ) arg5 fullShare xv ∗ owns (c : Thread nD τ) arg6 fullShare xo
                ∗ owns (c : Thread nD τ) arg7 fullShare xm ∗ owns (c : Thread nD τ) arg8 fullShare xl ∗ owns (c : Thread nD τ) arg9 fullShare xa) -∗ K ⟨⟩))
          ⊢ wp frame (wpE (defs₀ (F := F)) Variants.none c none) E (cc1__flash_causal_kernel i arg3 harg3 arg4 harg4 arg5 harg5 arg6 harg6 arg7 harg7 arg8 harg8 arg9 harg9) K ) := by
  refine ⟨fun xo E K => ?run⟩
  case run =>
    haveI : Fact (¬c1 i) := ⟨h1⟩
    haveI : Fact (¬c2 i) := ⟨h2⟩
    haveI : Fact (¬c3 i) := ⟨h3⟩
    simp only [cc1__flash_causal_kernel_eq_skeleton]; unfold cc1__flash_causal_kernel_skel
    simp only [k1_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5
    obtain rfl := harg6.eq_unread hf6
    obtain rfl := harg7.eq_unread hf7; obtain rfl := harg8.eq_unread hf8; obtain rfl := harg9.eq_unread hf9
    sl_exec (disch := first | exact h1 | exact h2 | exact h3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    iexists _; isplitr; · ipureintro; exact harg9.read_unread _
    iexact H9

end Cert.Kernel.R1

end
-- ==== Proof.KR1State.lean ====
/-
  The attention region: what the running buffers and the output block hold after each grid point, the region's
  proof data, and its body obligation.

  After a point the three running buffers hold: at a first key tile, the reset values updated once; at a later key
  tile not after the query tile, the previous point's values updated; after the query tile, the previous point's
  values unchanged. The output block's staging buffer holds the quotient stored at the point whose key tile is the
  query tile and keeps it through the later key tiles of that query tile, until it is written back at the last.
-/
import proofs.«165543_j62113817035141_2_alg».proof.Proof.KR1RunA
import proofs.«165543_j62113817035141_2_alg».proof.Proof.KR1RunB
import proofs.«165543_j62113817035141_2_alg».proof.Proof.KR1RunC
import proofs.«165543_j62113817035141_2_alg».proof.Proof.KR1RunD
import proofs.«165543_j62113817035141_2_alg».proof.Proof.KR1RunE
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The contents carried from point to point: running maximum, running total, running weighted sum, output block. -/
structure St (F : FTy → Type) [FloatOps F] where
  m : Vec F S512x1 .f32
  l : Vec F S512x1 .f32
  a : Vec F S512x128 .f32
  o : Vec F S1x512x128 .f32

/-! ## The conditions exclude one another as the grid allows -/

theorem c2_of_c1 : ∀ t : Fin cfg1.N, c1 (grid1.coords t) → c2 (grid1.coords t) :=
  (by decide +kernel : ∀ t : Fin grid1.N, c1 (grid1.coords t) → c2 (grid1.coords t))
theorem c2_of_c3 : ∀ t : Fin cfg1.N, c3 (grid1.coords t) → c2 (grid1.coords t) :=
  (by decide +kernel : ∀ t : Fin grid1.N, c3 (grid1.coords t) → c2 (grid1.coords t))

section
variable (V : (c : Dev nD) → (b : Ref sig .tc) → Buf (Elt F) ((c : Thread nD τ).loc b))
variable (c : Dev nD) (t : Fin cfg1.N)

/-- The five cases' runs at point t, on the memrefs the pipeline calls the body with and the point's input blocks. -/
abbrev rA (h1 : c1 (grid1.coords t)) (h3 : c3 (grid1.coords t)) :=
  runA (F := F) c (grid1.coords t) (ms0 t) (hs0 t) (ms1 t) (hs1 t) (ms2 t) (hs2 t) (ms3 t) (hs3 t) scM (Memref.isWhole_whole _) scL (Memref.isWhole_whole _) scA (Memref.isWhole_whole _) h1 (c2_of_c1 t h1) h3 (iblk V c 0 t) (iblk V c 1 t) (iblk V c 2 t)
abbrev rB (h1 : c1 (grid1.coords t)) (h3 : ¬c3 (grid1.coords t)) :=
  runB (F := F) c (grid1.coords t) (ms0 t) (hs0 t) (ms1 t) (hs1 t) (ms2 t) (hs2 t) (ms3 t) (hs3 t) scM (Memref.isWhole_whole _) scL (Memref.isWhole_whole _) scA (Memref.isWhole_whole _) h1 (c2_of_c1 t h1) h3 (iblk V c 0 t) (iblk V c 1 t) (iblk V c 2 t)
abbrev rC (h1 : ¬c1 (grid1.coords t)) (h2 : c2 (grid1.coords t)) (h3 : ¬c3 (grid1.coords t)) (p : St F) :=
  runC (F := F) c (grid1.coords t) (ms0 t) (hs0 t) (ms1 t) (hs1 t) (ms2 t) (hs2 t) (ms3 t) (hs3 t) scM (Memref.isWhole_whole _) scL (Memref.isWhole_whole _) scA (Memref.isWhole_whole _) h1 h2 h3 (iblk V c 0 t) (iblk V c 1 t) (iblk V c 2 t) p.m p.l p.a
abbrev rD (h1 : ¬c1 (grid1.coords t)) (h2 : c2 (grid1.coords t)) (h3 : c3 (grid1.coords t)) (p : St F) :=
  runD (F := F) c (grid1.coords t) (ms0 t) (hs0 t) (ms1 t) (hs1 t) (ms2 t) (hs2 t) (ms3 t) (hs3 t) scM (Memref.isWhole_whole _) scL (Memref.isWhole_whole _) scA (Memref.isWhole_whole _) h1 h2 h3 (iblk V c 0 t) (iblk V c 1 t) (iblk V c 2 t) p.m p.l p.a

/-- One point's effect on the carried contents. -/
def stepAt (p : St F) : St F :=
  if h1 : c1 (grid1.coords t) then
    if h3 : c3 (grid1.coords t) then
      ⟨VM.read (Elt F) (VM.writes (Elt F) VM.junk (rA V c t h1 h3).2.1), VL.read (Elt F) (VL.writes (Elt F) VL.junk (rA V c t h1 h3).2.2.1), VA.read (Elt F) (VA.writes (Elt F) VA.junk (rA V c t h1 h3).2.2.2.1), VO.read (Elt F) (VO.writes (Elt F) VO.junk (rA V c t h1 h3).1)⟩
    else
      ⟨VM.read (Elt F) (VM.writes (Elt F) VM.junk (rB V c t h1 h3).1), VL.read (Elt F) (VL.writes (Elt F) VL.junk (rB V c t h1 h3).2.1), VA.read (Elt F) (VA.writes (Elt F) VA.junk (rB V c t h1 h3).2.2.1), p.o⟩
  else if h2 : c2 (grid1.coords t) then
    if h3 : c3 (grid1.coords t) then
      ⟨VM.read (Elt F) (VM.writes (Elt F) VM.junk (rD V c t h1 h2 h3 p).2.1), VL.read (Elt F) (VL.writes (Elt F) VL.junk (rD V c t h1 h2 h3 p).2.2.1), VA.read (Elt F) (VA.writes (Elt F) VA.junk (rD V c t h1 h2 h3 p).2.2.2.1), VO.read (Elt F) (VO.writes (Elt F) VO.junk (rD V c t h1 h2 h3 p).1)⟩
    else
      ⟨VM.read (Elt F) (VM.writes (Elt F) VM.junk (rC V c t h1 h2 h3 p).1), VL.read (Elt F) (VL.writes (Elt F) VL.junk (rC V c t h1 h2 h3 p).2.1), VA.read (Elt F) (VA.writes (Elt F) VA.junk (rC V c t h1 h2 h3 p).2.2.1), p.o⟩
  else p

theorem stepAt_A (p : St F) (h1 : c1 (grid1.coords t)) (h3 : c3 (grid1.coords t)) :
    stepAt V c t p = ⟨VM.read (Elt F) (VM.writes (Elt F) VM.junk (rA V c t h1 h3).2.1), VL.read (Elt F) (VL.writes (Elt F) VL.junk (rA V c t h1 h3).2.2.1), VA.read (Elt F) (VA.writes (Elt F) VA.junk (rA V c t h1 h3).2.2.2.1), VO.read (Elt F) (VO.writes (Elt F) VO.junk (rA V c t h1 h3).1)⟩ := by
  unfold stepAt; rw [dif_pos h1, dif_pos h3]
theorem stepAt_B (p : St F) (h1 : c1 (grid1.coords t)) (h3 : ¬c3 (grid1.coords t)) :
    stepAt V c t p = ⟨VM.read (Elt F) (VM.writes (Elt F) VM.junk (rB V c t h1 h3).1), VL.read (Elt F) (VL.writes (Elt F) VL.junk (rB V c t h1 h3).2.1), VA.read (Elt F) (VA.writes (Elt F) VA.junk (rB V c t h1 h3).2.2.1), p.o⟩ := by
  unfold stepAt; rw [dif_pos h1, dif_neg h3]
theorem stepAt_C (p : St F) (h1 : ¬c1 (grid1.coords t)) (h2 : c2 (grid1.coords t)) (h3 : ¬c3 (grid1.coords t)) :
    stepAt V c t p = ⟨VM.read (Elt F) (VM.writes (Elt F) VM.junk (rC V c t h1 h2 h3 p).1), VL.read (Elt F) (VL.writes (Elt F) VL.junk (rC V c t h1 h2 h3 p).2.1), VA.read (Elt F) (VA.writes (Elt F) VA.junk (rC V c t h1 h2 h3 p).2.2.1), p.o⟩ := by
  unfold stepAt; rw [dif_neg h1, dif_pos h2, dif_neg h3]
theorem stepAt_D (p : St F) (h1 : ¬c1 (grid1.coords t)) (h2 : c2 (grid1.coords t)) (h3 : c3 (grid1.coords t)) :
    stepAt V c t p = ⟨VM.read (Elt F) (VM.writes (Elt F) VM.junk (rD V c t h1 h2 h3 p).2.1), VL.read (Elt F) (VL.writes (Elt F) VL.junk (rD V c t h1 h2 h3 p).2.2.1), VA.read (Elt F) (VA.writes (Elt F) VA.junk (rD V c t h1 h2 h3 p).2.2.2.1), VO.read (Elt F) (VO.writes (Elt F) VO.junk (rD V c t h1 h2 h3 p).1)⟩ := by
  unfold stepAt; rw [dif_neg h1, dif_pos h2, dif_pos h3]
theorem stepAt_E (p : St F) (h1 : ¬c1 (grid1.coords t)) (h2 : ¬c2 (grid1.coords t)) :
    stepAt V c t p = p := by
  unfold stepAt; rw [dif_neg h1, dif_neg h2]

end

section
variable (V : (c : Dev nD) → (b : Ref sig .tc) → Buf (Elt F) ((c : Thread nD τ).loc b))

/-- Contents nothing reads: what precedes the first point. -/
def st0 : St F := ⟨VM.read (Elt F) VM.junk, VL.read (Elt F) VL.junk, VA.read (Elt F) VA.junk, VO.read (Elt F) VO.junk⟩

/-- The carried contents after point n. -/
def st (c : Dev nD) : (n : ℕ) → n < cfg1.N → St F
  | 0, h => stepAt V c ⟨0, h⟩ st0
  | n + 1, h => stepAt V c ⟨n + 1, h⟩ (st c n (Nat.lt_of_succ_lt h))

theorem st_succ (c : Dev nD) (n : ℕ) (h : n + 1 < cfg1.N) : st V c (n + 1) h = stepAt V c ⟨n + 1, h⟩ (st V c n (Nat.lt_of_succ_lt h)) := rfl

/-- After a point that is not the first: one step from the point before. -/
theorem st_pos (c : Dev nD) (t : Fin cfg1.N) (ht : t.val ≠ 0) :
    st V c t.val t.isLt = stepAt V c t (st V c (t.val - 1) (Nat.lt_of_le_of_lt (Nat.sub_le _ _) t.isLt)) := by
  obtain ⟨n, hn⟩ := t
  cases n with
  | zero => exact absurd rfl ht
  | succ n => rfl

/-- At the first point: one step from contents nothing reads. -/
theorem st_zero (c : Dev nD) (t : Fin cfg1.N) (ht : t.val = 0) : st V c t.val t.isLt = stepAt V c t st0 := by
  obtain ⟨n, hn⟩ := t
  cases n with
  | zero => rfl
  | succ n => exact absurd ht (Nat.succ_ne_zero n)

end

end Cert.Kernel.R1

end
-- ==== Proof.KR1Cover.lean ====
/-
  The attention region: in every case, the stores into a buffer tile it, so what the buffer holds afterwards does not
  depend on what it held before.
-/
import proofs.«165543_j62113817035141_2_alg».proof.Proof.KR1State
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

theorem covA_O (c : Dev nD) (t : Fin cfg1.N) (h1 : c1 (grid1.coords t)) (h3 : c3 (grid1.coords t)) (y : S1x512x128.Idx) :
    ∃ pc ∈ (rA V c t h1 h3).1, y ∈ pc.1.set :=
  View.cover_of_tiledL (rA V c t h1 h3).1 S1x512x128.size (by sl_kernel_rfl) y

theorem covA_M (c : Dev nD) (t : Fin cfg1.N) (h1 : c1 (grid1.coords t)) (h3 : c3 (grid1.coords t)) (y : S512x1.Idx) :
    ∃ pc ∈ (rA V c t h1 h3).2.1, y ∈ pc.1.set :=
  View.cover_of_tiledL (rA V c t h1 h3).2.1 S512x1.size (by sl_kernel_rfl) y

theorem covA_L (c : Dev nD) (t : Fin cfg1.N) (h1 : c1 (grid1.coords t)) (h3 : c3 (grid1.coords t)) (y : S512x1.Idx) :
    ∃ pc ∈ (rA V c t h1 h3).2.2.1, y ∈ pc.1.set :=
  View.cover_of_tiledL (rA V c t h1 h3).2.2.1 S512x1.size (by sl_kernel_rfl) y

theorem covA_A (c : Dev nD) (t : Fin cfg1.N) (h1 : c1 (grid1.coords t)) (h3 : c3 (grid1.coords t)) (y : S512x128.Idx) :
    ∃ pc ∈ (rA V c t h1 h3).2.2.2.1, y ∈ pc.1.set :=
  View.cover_of_tiledL (rA V c t h1 h3).2.2.2.1 S512x128.size (by sl_kernel_rfl) y

theorem covB_M (c : Dev nD) (t : Fin cfg1.N) (h1 : c1 (grid1.coords t)) (h3 : ¬c3 (grid1.coords t)) (y : S512x1.Idx) :
    ∃ pc ∈ (rB V c t h1 h3).1, y ∈ pc.1.set :=
  View.cover_of_tiledL (rB V c t h1 h3).1 S512x1.size (by sl_kernel_rfl) y

theorem covB_L (c : Dev nD) (t : Fin cfg1.N) (h1 : c1 (grid1.coords t)) (h3 : ¬c3 (grid1.coords t)) (y : S512x1.Idx) :
    ∃ pc ∈ (rB V c t h1 h3).2.1, y ∈ pc.1.set :=
  View.cover_of_tiledL (rB V c t h1 h3).2.1 S512x1.size (by sl_kernel_rfl) y

theorem covB_A (c : Dev nD) (t : Fin cfg1.N) (h1 : c1 (grid1.coords t)) (h3 : ¬c3 (grid1.coords t)) (y : S512x128.Idx) :
    ∃ pc ∈ (rB V c t h1 h3).2.2.1, y ∈ pc.1.set :=
  View.cover_of_tiledL (rB V c t h1 h3).2.2.1 S512x128.size (by sl_kernel_rfl) y

theorem covC_M (c : Dev nD) (t : Fin cfg1.N) (h1 : ¬c1 (grid1.coords t)) (h2 : c2 (grid1.coords t)) (h3 : ¬c3 (grid1.coords t)) (p : St F) (y : S512x1.Idx) :
    ∃ pc ∈ (rC V c t h1 h2 h3 p).1, y ∈ pc.1.set :=
  View.cover_of_tiledL (rC V c t h1 h2 h3 p).1 S512x1.size (by sl_kernel_rfl) y

theorem covC_L (c : Dev nD) (t : Fin cfg1.N) (h1 : ¬c1 (grid1.coords t)) (h2 : c2 (grid1.coords t)) (h3 : ¬c3 (grid1.coords t)) (p : St F) (y : S512x1.Idx) :
    ∃ pc ∈ (rC V c t h1 h2 h3 p).2.1, y ∈ pc.1.set :=
  View.cover_of_tiledL (rC V c t h1 h2 h3 p).2.1 S512x1.size (by sl_kernel_rfl) y

theorem covC_A (c : Dev nD) (t : Fin cfg1.N) (h1 : ¬c1 (grid1.coords t)) (h2 : c2 (grid1.coords t)) (h3 : ¬c3 (grid1.coords t)) (p : St F) (y : S512x128.Idx) :
    ∃ pc ∈ (rC V c t h1 h2 h3 p).2.2.1, y ∈ pc.1.set :=
  View.cover_of_tiledL (rC V c t h1 h2 h3 p).2.2.1 S512x128.size (by sl_kernel_rfl) y

theorem covD_O (c : Dev nD) (t : Fin cfg1.N) (h1 : ¬c1 (grid1.coords t)) (h2 : c2 (grid1.coords t)) (h3 : c3 (grid1.coords t)) (p : St F) (y : S1x512x128.Idx) :
    ∃ pc ∈ (rD V c t h1 h2 h3 p).1, y ∈ pc.1.set :=
  View.cover_of_tiledL (rD V c t h1 h2 h3 p).1 S1x512x128.size (by sl_kernel_rfl) y

theorem covD_M (c : Dev nD) (t : Fin cfg1.N) (h1 : ¬c1 (grid1.coords t)) (h2 : c2 (grid1.coords t)) (h3 : c3 (grid1.coords t)) (p : St F) (y : S512x1.Idx) :
    ∃ pc ∈ (rD V c t h1 h2 h3 p).2.1, y ∈ pc.1.set :=
  View.cover_of_tiledL (rD V c t h1 h2 h3 p).2.1 S512x1.size (by sl_kernel_rfl) y

theorem covD_L (c : Dev nD) (t : Fin cfg1.N) (h1 : ¬c1 (grid1.coords t)) (h2 : c2 (grid1.coords t)) (h3 : c3 (grid1.coords t)) (p : St F) (y : S512x1.Idx) :
    ∃ pc ∈ (rD V c t h1 h2 h3 p).2.2.1, y ∈ pc.1.set :=
  View.cover_of_tiledL (rD V c t h1 h2 h3 p).2.2.1 S512x1.size (by sl_kernel_rfl) y

theorem covD_A (c : Dev nD) (t : Fin cfg1.N) (h1 : ¬c1 (grid1.coords t)) (h2 : c2 (grid1.coords t)) (h3 : c3 (grid1.coords t)) (p : St F) (y : S512x128.Idx) :
    ∃ pc ∈ (rD V c t h1 h2 h3 p).2.2.2.1, y ∈ pc.1.set :=
  View.cover_of_tiledL (rD V c t h1 h2 h3 p).2.2.2.1 S512x128.size (by sl_kernel_rfl) y

end

end Cert.Kernel.R1

end
-- ==== Proof.KR1Dat.lean ====
/-
  The attention region's proof data and body obligation.

  The invariant between points: the buffers the region never touches at some contents, the three running buffers at
  what the point before left (at anything before the first point), the generator register at some state. The body
  obligation is a case split on the three conditions; in each case the case's run applies, the running buffers come
  back at the case's stores read back, and the output buffer comes back stored (key tile = query tile) or as found.
-/
import proofs.«165543_j62113817035141_2_alg».proof.Proof.KR1Cover
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The invariant -/

/-- The plain invariant, opened: the untouched buffers, the running buffers at anything, the generator register. -/
theorem PhiA_split (c : Dev nD) : (Pipeline.ΦA spec1 c : sProp 𝕄)
    ⊢ iprop(others (F := F) c ∗ (∃ d, owns (c : Thread nD τ) scM fullShare d) ∗ (∃ d, owns (c : Thread nD τ) scL fullShare d) ∗ (∃ d, owns (c : Thread nD τ) scA fullShare d) ∗ (∃ r, prngReg c r)) := by
  rw [PhiA_eq]; unfold others
  iintro ⟨⟨O1, O2, O3, O4, O5, O6, O7, O8, O9, O10, O11, HM, HL, HA⟩, Hg⟩
  isplitl [O1 O2 O3 O4 O5 O6 O7 O8 O9 O10 O11]
  ·
      isplitl [O1]; · iexact O1
      isplitl [O2]; · iexact O2
      isplitl [O3]; · iexact O3
      isplitl [O4]; · iexact O4
      isplitl [O5]; · iexact O5
      isplitl [O6]; · iexact O6
      isplitl [O7]; · iexact O7
      isplitl [O8]; · iexact O8
      isplitl [O9]; · iexact O9
      isplitl [O10]; · iexact O10
      iexact O11
  isplitl [HM]; · iexact HM
  isplitl [HL]; · iexact HL
  isplitl [HA]; · iexact HA
  iexact Hg

/-- and closed again. -/
theorem PhiA_join (c : Dev nD) : iprop(others (F := F) c ∗ (∃ d, owns (c : Thread nD τ) scM fullShare d) ∗ (∃ d, owns (c : Thread nD τ) scL fullShare d) ∗ (∃ d, owns (c : Thread nD τ) scA fullShare d) ∗ (∃ r, prngReg c r))
    ⊢ (Pipeline.ΦA spec1 c : sProp 𝕄) := by
  rw [PhiA_eq]; unfold others
  iintro ⟨⟨O1, O2, O3, O4, O5, O6, O7, O8, O9, O10, O11⟩, HM, HL, HA, Hg⟩
  isplitl [O1 O2 O3 O4 O5 O6 O7 O8 O9 O10 O11 HM HL HA]
  ·
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [O11]; · iexact O11
    isplitl [HM]; · iexact HM
    isplitl [HL]; · iexact HL
    iexact HA
  iexact Hg

/-- The invariant before position n: the plain one before the first point; afterwards the running buffers at what
    the point before left. -/
def PhiS (c : Dev nD) : (n : ℕ) → n ≤ cfg1.N → sProp 𝕄
  | 0, _ => Pipeline.ΦA spec1 c
  | n + 1, hn => iprop(others (F := F) c ∗ owns (c : Thread nD τ) scM fullShare (st V c n hn).m ∗ owns (c : Thread nD τ) scL fullShare (st V c n hn).l ∗ owns (c : Thread nD τ) scA fullShare (st V c n hn).a ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others (F := F) c ∗ owns (c : Thread nD τ) scM fullShare (st V c n hn).m ∗ owns (c : Thread nD τ) scL fullShare (st V c n hn).l ∗ owns (c : Thread nD τ) scA fullShare (st V c n hn).a ∗ (∃ r, prngReg c r)) := rfl

theorem PhiS_pos (c : Dev nD) (n : ℕ) (h : n ≤ cfg1.N) (hz : n ≠ 0) :
    PhiS V c n h = iprop(others (F := F) c ∗ owns (c : Thread nD τ) scM fullShare (st V c (n - 1) (by omega)).m ∗ owns (c : Thread nD τ) scL fullShare (st V c (n - 1) (by omega)).l ∗ owns (c : Thread nD τ) scA fullShare (st V c (n - 1) (by omega)).a ∗ (∃ r, prngReg c r)) := by
  cases n with
  | zero => exact absurd rfl hz
  | succ n => rfl

/-- At every position the invariant gives the running buffers at SOME contents. -/
theorem PhiS_any (c : Dev nD) (n : ℕ) (h : n ≤ cfg1.N) : PhiS V c n h
    ⊢ iprop(others (F := F) c ∗ (∃ d, owns (c : Thread nD τ) scM fullShare d) ∗ (∃ d, owns (c : Thread nD τ) scL fullShare d) ∗ (∃ d, owns (c : Thread nD τ) scA fullShare d) ∗ (∃ r, prngReg c r)) := by
  cases n with
  | zero => exact PhiA_split c
  | succ n =>
    rw [PhiS_succ]
    iintro ⟨HO, HM, HL, HA, Hg⟩
    isplitl [HO]; · iexact HO
    isplitl [HM]; · iexists _; iexact HM
    isplitl [HL]; · iexists _; iexact HL
    isplitl [HA]; · iexists _; iexact HA
    iexact Hg

/-! ## The proof data -/

def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (st V c t.val t.isLt).o
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk V c 0 t := by dsimp only [dat1]
theorem after1_1 (c : Dev nD) (t : Fin cfg1.N) : (dat1 V c).after 1 t = iblk V c 1 t := by dsimp only [dat1]
theorem after1_2 (c : Dev nD) (t : Fin cfg1.N) : (dat1 V c).after 2 t = iblk V c 2 t := by dsimp only [dat1]
theorem after1_3 (c : Dev nD) (t : Fin cfg1.N) : (dat1 V c).after 3 t = (st V c t.val t.isLt).o := by dsimp only [dat1]

theorem before1_0 (c : Dev nD) (t : Fin cfg1.N) (d) : (dat1 V c).before 0 t d = iblk V c 0 t :=
  before0_of V (dat1 V c) (A_eq1 V c 0) (after1_0 V c) t d
theorem before1_1 (c : Dev nD) (t : Fin cfg1.N) (d) : (dat1 V c).before 1 t d = iblk V c 1 t :=
  before1_of V (dat1 V c) (A_eq1 V c 1) (after1_1 V c) t d
theorem before1_2 (c : Dev nD) (t : Fin cfg1.N) (d) : (dat1 V c).before 2 t d = iblk V c 2 t :=
  before2_of V (dat1 V c) (A_eq1 V c 2) (after1_2 V c) t d

end

end Cert.Kernel.R1

end
-- ==== Proof.KR1Body.lean ====
/-
  The attention region's body obligation, and what the invariant is at the region's two ends.
-/
import proofs.«165543_j62113817035141_2_alg».proof.Proof.KR1Dat
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The output buffer through the key tiles after the query tile -/

theorem idle3_false (t : Fin cfg1.N) (h : t.val % 4 = t.val / 4 % 4) : cfg1.idle 3 (grid1.coords t) = false :=
  Bool.eq_false_iff.mpr fun hi => ((idle3 t).mp hi) h
theorem idle3_true (t : Fin cfg1.N) (h : ¬ t.val % 4 = t.val / 4 % 4) : cfg1.idle 3 (grid1.coords t) = true := (idle3 t).mpr h
theorem flush3_false (t : Fin cfg1.N) (h : ¬ t.val % 4 = 3) : (cfg1.win 3).flush t = false :=
  Bool.eq_false_iff.mpr fun hf => h ((flush3 t).mp hf)

/-- After a point whose key tile is after the query tile the carried contents are the point before's. -/
theorem st_after (c : Dev nD) (t : Fin cfg1.N) (h : t.val / 4 % 4 < t.val % 4) :
    st V c t.val t.isLt = st V c (t.val - 1) (Nat.lt_of_le_of_lt (Nat.sub_le _ _) t.isLt) := by
  rw [st_pos V c t (by omega)]
  exact stepAt_E V c t _ (fun h1 => by have := (hc1 t).mp h1; omega) (fun h2 => by have := (hc2 t).mp h2; omega)

/-- At a point whose key tile is after the query tile the output block's staging buffer holds what was stored at
    the point whose key tile was the query tile: nothing has touched it since. -/
theorem before3_kept (c : Dev nD) : ∀ (n : ℕ) (h : n < cfg1.N) (d), n / 4 % 4 < n % 4 →
    (dat1 V c).before 3 ⟨n, h⟩ d = (st V c n h).o := by
  intro n
  induction n using Nat.strong_induction_on with
  | _ n ih =>
    intro h d hlt
    have hn0 : n ≠ 0 := by omega
    have hfl : (cfg1.win 3).flush ⟨n - 1, Nat.lt_of_le_of_lt (Nat.sub_le _ _) h⟩ = false :=
      flush3_false _ (by show ¬ (n - 1) % 4 = 3; omega)
    rw [Dat.before_of_pos (dat1 V c) 3 ⟨n, h⟩ hn0 ((cfg1.win 3).fetch_out rfl _), hfl, if_neg Bool.false_ne_true]
    rw [st_after V c ⟨n, h⟩ hlt]
    unfold Dat.left
    by_cases hq : (n - 1) % 4 = (n - 1) / 4 % 4
    · rw [idle3_false ⟨n - 1, _⟩ hq]
      show (dat1 V c).kept 3 ⟨n - 1, _⟩ d = _
      unfold Dat.kept
      rw [Dat.before_out_kept.fill_of_clip_none' 3 _ (fun _ => rfl) d ((dat1 V c).after 3 _), Window.fill_cut, after1_3]
    · rw [idle3_true ⟨n - 1, _⟩ hq]
      show (dat1 V c).before 3 ⟨n - 1, _⟩ d = _
      exact ih (n - 1) (by omega) _ d (by omega)

/-! ## The body obligation -/

def bodyPre (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d)))

def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The carried contents after a point are one step from SOME earlier contents. -/
theorem st_step (c : Dev nD) (t : Fin cfg1.N) : ∃ p, st V c t.val t.isLt = stepAt V c t p := by
  by_cases hz : t.val = 0
  · exact ⟨_, st_zero V c t hz⟩
  · exact ⟨_, st_pos V c t hz⟩

set_option maxHeartbeats 4000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms0 t) fullShare ((dat1 V c).after 0 t) from by
      unfold Dat.leavesExact; rw [live0 _], after1_0]
  rw [show (dat1 V c).leavesExact 1 t = owns (c : Thread nD τ) (ms1 t) fullShare ((dat1 V c).after 1 t) from by
      unfold Dat.leavesExact; rw [live1 _], after1_1]
  rw [show (dat1 V c).leavesExact 2 t = owns (c : Thread nD τ) (ms2 t) fullShare ((dat1 V c).after 2 t) from by
      unfold Dat.leavesExact; rw [live2 _], after1_2]
  rw [Phi_castSucc V c t]
  by_cases h1 : c1 (grid1.coords t)
  · by_cases h3 : c3 (grid1.coords t)
    · -- the first key tile is the query tile: reset, update, output
      rw [show (dat1 V c).leavesExact 3 t = owns (c : Thread nD τ) (ms3 t) fullShare ((dat1 V c).after 3 t) from by
        unfold Dat.leavesExact; rw [idle3_false t ((hc3 t).mp h3)], after1_3]
      obtain ⟨p, hp⟩ := st_step V c t
      rw [hp, stepAt_A V c t p h1 h3]; dsimp only
      iintro ⟨HΦ, Ho, ⟨%d0, H0⟩, ⟨%d1, H1⟩, ⟨%d2, H2⟩, ⟨%d3, H3⟩⟩
      ihave HΦ' := (PhiS_any V c _ _) $$ HΦ
      icases HΦ' with ⟨HO, HM, HL, HA, Hg⟩
      iapply ((rA V c t h1 h3).2.2.2.2 Set.univ _)
      isplitl [H0]; · iexact H0
      isplitl [H1]; · iexact H1
      isplitl [H2]; · iexact H2
      isplitl [H3]; · iexists _; iexact H3
      isplitl [HM]; · iexact HM
      isplitl [HL]; · iexact HL
      isplitl [HA]; · iexact HA
      iintro ⟨H0, H1, H2, ⟨%e3, H3⟩, ⟨%e7, HM⟩, ⟨%e8, HL⟩, ⟨%e9, HA⟩⟩
      isplitl [HO HM HL HA Hg]
      · isplitl [HO]; · iexact HO
        isplitl [HM]
        · unfold owns; iexists _; isplitr
          swap; · iexact HM
          ipureintro; exact View.read_writes_of_cover _ _ _ _ _ (covA_M V c t h1 h3)
        isplitl [HL]
        · unfold owns; iexists _; isplitr
          swap; · iexact HL
          ipureintro; exact View.read_writes_of_cover _ _ _ _ _ (covA_L V c t h1 h3)
        isplitl [HA]
        · unfold owns; iexists _; isplitr
          swap; · iexact HA
          ipureintro; exact View.read_writes_of_cover _ _ _ _ _ (covA_A V c t h1 h3)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (covA_O V c t h1 h3)
    · -- the first key tile, before the query tile: reset, update
      have hnf : ¬ t.val % 4 = 3 := fun h => by have := (hc1 t).mp h1; omega
      rw [Dat.leavesExact_idle (dat1 V c) 3 t (idle3_true t fun h => h3 ((hc3 t).mpr h)) (flush3_false t hnf)]
      obtain ⟨p, hp⟩ := st_step V c t
      rw [hp, stepAt_B V c t p h1 h3]; dsimp only
      iintro ⟨HΦ, Ho, ⟨%d0, H0⟩, ⟨%d1, H1⟩, ⟨%d2, H2⟩, ⟨%d3, H3⟩⟩
      ihave HΦ' := (PhiS_any V c _ _) $$ HΦ
      icases HΦ' with ⟨HO, HM, HL, HA, Hg⟩
      iapply ((rB V c t h1 h3).2.2.2 _ Set.univ _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, ⟨%e7, HM⟩, ⟨%e8, HL⟩, ⟨%e9, HA⟩⟩
      isplitl [HO HM HL HA Hg]
      · isplitl [HO]; · iexact HO
        isplitl [HM]
        · unfold owns; iexists _; isplitr
          swap; · iexact HM
          ipureintro; exact View.read_writes_of_cover _ _ _ _ _ (covB_M V c t h1 h3)
        isplitl [HL]
        · unfold owns; iexists _; isplitr
          swap; · iexact HL
          ipureintro; exact View.read_writes_of_cover _ _ _ _ _ (covB_L V c t h1 h3)
        isplitl [HA]
        · unfold owns; iexists _; isplitr
          swap; · iexact HA
          ipureintro; exact View.read_writes_of_cover _ _ _ _ _ (covB_A V c t h1 h3)
        iexact Hg
      isplitl [Ho]; · iexact Ho
      isplitl [H0]; · iexact H0
      isplitl [H1]; · iexact H1
      isplitl [H2]; · iexact H2
      iexists _; iexact H3
  · have hz : t.val ≠ 0 := fun h => h1 ((hc1 t).mpr (by rw [h]))
    rw [PhiS_pos V c _ _ hz]
    by_cases h2 : c2 (grid1.coords t)
    · by_cases h3 : c3 (grid1.coords t)
      · -- a later key tile that is the query tile: update, output
        rw [show (dat1 V c).leavesExact 3 t = owns (c : Thread nD τ) (ms3 t) fullShare ((dat1 V c).after 3 t) from by
          unfold Dat.leavesExact; rw [idle3_false t ((hc3 t).mp h3)], after1_3]
        rw [st_pos V c t hz, stepAt_D V c t _ h1 h2 h3]; dsimp only
        iintro ⟨⟨HO, HM, HL, HA, Hg⟩, Ho, ⟨%d0, H0⟩, ⟨%d1, H1⟩, ⟨%d2, H2⟩, ⟨%d3, H3⟩⟩
        iapply ((rD V c t h1 h2 h3 _).2.2.2.2 Set.univ _)
        isplitl [H0]; · iexact H0
        isplitl [H1]; · iexact H1
        isplitl [H2]; · iexact H2
        isplitl [H3]; · iexists _; iexact H3
        isplitl [HM]; · iexact HM
        isplitl [HL]; · iexact HL
        isplitl [HA]; · iexact HA
        iintro ⟨H0, H1, H2, ⟨%e3, H3⟩, ⟨%e7, HM⟩, ⟨%e8, HL⟩, ⟨%e9, HA⟩⟩
        isplitl [HO HM HL HA Hg]
        · isplitl [HO]; · iexact HO
          isplitl [HM]
          · unfold owns; iexists _; isplitr
            swap; · iexact HM
            ipureintro; exact View.read_writes_of_cover _ _ _ _ _ (covD_M V c t h1 h2 h3 _)
          isplitl [HL]
          · unfold owns; iexists _; isplitr
            swap; · iexact HL
            ipureintro; exact View.read_writes_of_cover _ _ _ _ _ (covD_L V c t h1 h2 h3 _)
          isplitl [HA]
          · unfold owns; iexists _; isplitr
            swap; · iexact HA
            ipureintro; exact View.read_writes_of_cover _ _ _ _ _ (covD_A V c t h1 h2 h3 _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (covD_O V c t h1 h2 h3 _)
      · -- a later key tile before the query tile: update
        have hnf : ¬ t.val % 4 = 3 := fun h => by
          have a := (hc2 t).mp h2; have b : ¬ t.val % 4 = t.val / 4 % 4 := fun e => h3 ((hc3 t).mpr e); omega
        rw [Dat.leavesExact_idle (dat1 V c) 3 t (idle3_true t fun h => h3 ((hc3 t).mpr h)) (flush3_false t hnf)]
        rw [st_pos V c t hz, stepAt_C V c t _ h1 h2 h3]; dsimp only
        iintro ⟨⟨HO, HM, HL, HA, Hg⟩, Ho, ⟨%d0, H0⟩, ⟨%d1, H1⟩, ⟨%d2, H2⟩, ⟨%d3, H3⟩⟩
        iapply ((rC V c t h1 h2 h3 _).2.2.2 _ Set.univ _)
        isplitl [H0]; · iexact H0
        isplitl [H1]; · iexact H1
        isplitl [H2]; · iexact H2
        isplitl [H3]; · iexact H3
        isplitl [HM]; · iexact HM
        isplitl [HL]; · iexact HL
        isplitl [HA]; · iexact HA
        iintro ⟨H0, H1, H2, H3, ⟨%e7, HM⟩, ⟨%e8, HL⟩, ⟨%e9, HA⟩⟩
        isplitl [HO HM HL HA Hg]
        · isplitl [HO]; · iexact HO
          isplitl [HM]
          · unfold owns; iexists _; isplitr
            swap; · iexact HM
            ipureintro; exact View.read_writes_of_cover _ _ _ _ _ (covC_M V c t h1 h2 h3 _)
          isplitl [HL]
          · unfold owns; iexists _; isplitr
            swap; · iexact HL
            ipureintro; exact View.read_writes_of_cover _ _ _ _ _ (covC_L V c t h1 h2 h3 _)
          isplitl [HA]
          · unfold owns; iexists _; isplitr
            swap; · iexact HA
            ipureintro; exact View.read_writes_of_cover _ _ _ _ _ (covC_A V c t h1 h2 h3 _)
          iexact Hg
        isplitl [Ho]; · iexact Ho
        isplitl [H0]; · iexact H0
        isplitl [H1]; · iexact H1
        isplitl [H2]; · iexact H2
        iexists _; iexact H3
    · -- a key tile after the query tile: nothing runs
      have h3 : ¬c3 (grid1.coords t) := fun h => h2 (c2_of_c3 t h)
      have hlt : t.val / 4 % 4 < t.val % 4 := by
        have a : ¬ t.val % 4 ≤ t.val / 4 % 4 := fun e => h2 ((hc2 t).mpr e); omega
      rw [st_pos V c t hz, stepAt_E V c t _ h1 h2]
      by_cases hf : t.val % 4 = 3
      · rw [show (dat1 V c).leavesExact 3 t = owns (c : Thread nD τ) (ms3 t) fullShare ((dat1 V c).after 3 t) from by
          unfold Dat.leavesExact; rw [idle3_true t (by omega), (flush3 t).mpr hf], after1_3]
        simp only [before3_kept V c t.val t.isLt _ hlt]
        rw [st_after V c t hlt]
        iintro ⟨⟨HO, HM, HL, HA, Hg⟩, Ho, ⟨%d0, H0⟩, ⟨%d1, H1⟩, ⟨%d2, H2⟩, ⟨%d3, H3⟩⟩
        iapply ((runE (F := F) c (grid1.coords t) (ms0 t) (hs0 t) (ms1 t) (hs1 t) (ms2 t) (hs2 t) (ms3 t) (hs3 t) scM (Memref.isWhole_whole _) scL (Memref.isWhole_whole _) scA (Memref.isWhole_whole _) h1 h2 h3 (iblk V c 0 t) (iblk V c 1 t) (iblk V c 2 t) _ _ _).down _ Set.univ _)
        isplitl [H0]; · iexact H0
        isplitl [H1]; · iexact H1
        isplitl [H2]; · iexact H2
        isplitl [H3]; · iexact H3
        isplitl [HM]; · iexact HM
        isplitl [HL]; · iexact HL
        isplitl [HA]; · iexact HA
        iintro ⟨H0, H1, H2, H3, HM, HL, HA⟩
        isplitl [HO HM HL HA Hg]
        · isplitl [HO]; · iexact HO
          isplitl [HM]; · iexact HM
          isplitl [HL]; · iexact HL
          isplitl [HA]; · iexact HA
          iexact Hg
        isplitl [Ho]; · iexact Ho
        isplitl [H0]; · iexact H0
        isplitl [H1]; · iexact H1
        isplitl [H2]; · iexact H2
        iexact H3
      · rw [Dat.leavesExact_idle (dat1 V c) 3 t (idle3_true t (by omega)) (flush3_false t hf)]
        iintro ⟨⟨HO, HM, HL, HA, Hg⟩, Ho, ⟨%d0, H0⟩, ⟨%d1, H1⟩, ⟨%d2, H2⟩, ⟨%d3, H3⟩⟩
        iapply ((runE (F := F) c (grid1.coords t) (ms0 t) (hs0 t) (ms1 t) (hs1 t) (ms2 t) (hs2 t) (ms3 t) (hs3 t) scM (Memref.isWhole_whole _) scL (Memref.isWhole_whole _) scA (Memref.isWhole_whole _) h1 h2 h3 (iblk V c 0 t) (iblk V c 1 t) (iblk V c 2 t) _ _ _).down _ Set.univ _)
        isplitl [H0]; · iexact H0
        isplitl [H1]; · iexact H1
        isplitl [H2]; · iexact H2
        isplitl [H3]; · iexact H3
        isplitl [HM]; · iexact HM
        isplitl [HL]; · iexact HL
        isplitl [HA]; · iexact HA
        iintro ⟨H0, H1, H2, H3, HM, HL, HA⟩
        isplitl [HO HM HL HA Hg]
        · isplitl [HO]; · iexact HO
          isplitl [HM]; · iexact HM
          isplitl [HL]; · iexact HL
          isplitl [HA]; · iexact HA
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body V c t

/-! ## The invariant at the region's two ends -/

theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl]
  exact (PhiS_any V c _ _).trans (PhiA_join c)

end

end Cert.Kernel.R1

end
-- ==== Proof.KRun.lean ====
/-
  The whole run of the program: four segments — the reshape and the three weight conversions, the projection region,
  the three reshapes, the attention region — from the launch to the return.

  The buffers' contents at each boundary are a fold from the launch memory: a host stretch applies its operations; a
  region leaves its windows' arrays at what its write-backs wrote and every other buffer as it was. Every weakly fair
  execution terminates, and the final memory is the last boundary's contents: the arguments as launched, the result
  at what the attention region's write-backs left.
-/
import proofs.«165543_j62113817035141_2_alg».proof.Proof.KRegion0
import proofs.«165543_j62113817035141_2_alg».proof.Proof.KR1Body
import proofs.«165543_j62113817035141_2_alg».proof.Proof.Gen.Kernel.Regions
import Idealize.ShloMosaic.Lib.Pipeline.RegionsLoop
import Idealize.ShloMosaic.Lib.Pipeline.FrameSuffix

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit. -/
def W2 (c : Dev nD) : Valuation τ sig (Elt F) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (R1.dat1 (V3 m ρ) c).arrAt w cfg1.N
theorem W4_arr (c : Dev nD) (w : Fin cfg1.W) :
    W4 m ρ c (Proc.devRef .tc (Pipeline.arrRef spec1 w)) = (R1.dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (R1.dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer that no host operation writes and no region stages reaches the end as launched. -/
theorem W4_untouched (c : Dev nD) (r : Ref sig .tc) (h0 : r ∉ hostOps0_W) (h1 : r ∉ hostOps1_W)
    (hw0 : ∀ w, Pipeline.arrRef spec0 w ≠ r) (hw1 : ∀ w, Pipeline.arrRef spec1 w ≠ r) :
    W4 m ρ c (Proc.devRef .tc r) = m ((c : Thread nD τ).loc r) :=
  calc W4 m ρ c (Proc.devRef .tc r)
    _ = W3 m ρ c (Proc.devRef .tc r) := W4_of_ne m ρ c r hw1
    _ = W2 m ρ c (Proc.devRef .tc r) := StableHlo.after_of_writes_sub hostOps1 _ hostOps1_writes h1
    _ = W1 m ρ c (Proc.devRef .tc r) := W2_of_ne m ρ c r hw0
    _ = W0 m ρ c (Proc.devRef .tc r) := StableHlo.after_of_writes_sub hostOps0 _ hostOps0_writes h0
    _ = m ((c : Thread nD τ).loc r) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => R1.dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region: entered from every unscoped buffer at the first host stretch's results, left with its three
    outputs at what its write-backs wrote. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at the second host stretch's results, left with the
    result at what its write-backs wrote. The running buffers enter the invariant at anything and are forgotten at the
    end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := R1.hin1 (V3 m ρ) c
    unfold Pipeline.ΦA at h
    rw [show (pdats m ρ 1 c).Φ 0 = (R1.dat1 (V3 m ρ) c).Φ 0 from rfl]
    iintro ⟨Hp, -, Hr⟩
    iapply h
    isplitl [Hr]; · iexact Hr
    iexact Hp
  hout c := by
    rw [Pipeline.ownSems0_none]
    have h := R1.hout1 (V3 m ρ) c
    unfold Pipeline.ΦA at h
    rw [show (pdats m ρ 1 c).Φ (Fin.last _) = (R1.dat1 (V3 m ρ) c).Φ (Fin.last cfg1.N) from rfl]
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution terminates, faulting nowhere, in a memory that holds every unscoped buffer at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every execution terminates and the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_untouched m ρ c main_arg0 (by decide) (by decide) (by decide) (by decide)),
     (h c _ (mem_uc main_arg1 (by decide))).trans (W4_untouched m ρ c main_arg1 (by decide) (by decide) (by decide) (by decide)),
     (h c _ (mem_uc main_arg2 (by decide))).trans (W4_untouched m ρ c main_arg2 (by decide) (by decide) (by decide) (by decide)),
     (h c _ (mem_uc main_arg3 (by decide))).trans (W4_untouched m ρ c main_arg3 (by decide) (by decide) (by decide) (by decide))⟩)
    (run_all m ρ)

/-- The same run with the result named: what the attention region's write-backs leave in the result array. -/
theorem run_value : θ_run defs (onTc (τ := τ) (main (F := F))) ⟨m, fun _ => 0, ρ⟩ (fun r => ∀ c : Dev nD,
      r.2.mem ((c.tc : Thread nD τ).loc main_v8) = (R1.dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v8 (by decide))).trans (W4_arr m ρ c 3),
     (h c _ (mem_uc main_arg0 (by decide))).trans (W4_untouched m ρ c main_arg0 (by decide) (by decide) (by decide) (by decide)),
     (h c _ (mem_uc main_arg1 (by decide))).trans (W4_untouched m ρ c main_arg1 (by decide) (by decide) (by decide) (by decide)),
     (h c _ (mem_uc main_arg2 (by decide))).trans (W4_untouched m ρ c main_arg2 (by decide) (by decide) (by decide) (by decide)),
     (h c _ (mem_uc main_arg3 (by decide))).trans (W4_untouched m ρ c main_arg3 (by decide) (by decide) (by decide) (by decide))⟩)
    (run_all m ρ)

end Cert.Kernel.Run

end
-- ==== Proof.Region0.lean ====
/-
  The projection region of the kernel program (its first custom call), stated at the buffer contents
  the region is entered with.

  Each of the sixteen grid points loads one 1024×2048 row block of the activations and the three
  2048×128 weight matrices whole, and stores three 1024×128 blocks: the three matrix products of
  the (rounded) activation block with the weights, rounded again. This file records, for any float
  instance, what every window's staging buffer holds after the body (the inputs their blocks, the
  outputs the three payloads of the blocks), proves the body's triple on whole staging buffers, and
  derives the pipeline's body obligation from it.
-/
import proofs.«165543_j62113817035141_2_alg».proof.Proof.Gen.KernelIdeal.Launch
import proofs.«165543_j62113817035141_2_alg».proof.Proof.Gen.KernelIdeal.Skeleton
import proofs.«165543_j62113817035141_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents of each core when the region is entered
variable (V : (c : Dev nD) → (b : Ref sig .tc) → Buf (Elt F) ((c : Thread nD τ).loc b))

/-! ## Blocks of the windows' arrays -/

/-- The block of window w's array (as the region finds it) that grid point t works on. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- Zero offsets on both axes, as a constant function. -/
theorem zero2 : (![0, 0] : Fin 2 → Nat) = fun _ => 0 := funext fun a => by fin_cases a <;> rfl

/-- The whole 1024×128 staging buffer as a rectangle: where each of the three stores lands. -/
abbrev full1024x128 : Rect S1024x128 :=
  Rect.unit (s := S1024x128) ![0, 0] S1024x128.size inb_S1024x128_S1024x128_0_0
/-- The whole 1024×2048 staging buffer as a rectangle: where the activation block is loaded from. -/
abbrev full1024x2048 : Rect S1024x2048 :=
  Rect.unit (s := S1024x2048) ![0, 0] S1024x2048.size inb_S1024x2048_S1024x2048_0_0
/-- The whole 2048×128 staging buffer as a rectangle: where each weight matrix is loaded from. -/
abbrev full2048x128 : Rect S2048x128 :=
  Rect.unit (s := S2048x128) ![0, 0] S2048x128.size inb_S2048x128_S2048x128_0_0

/-! ## What the body leaves in the three output buffers -/

/-- The first output buffer after the body: one store of the product with the first weight matrix. -/
def out0_4 (x : Vec F S1024x2048 .f32) (w : Vec F S2048x128 .bf16) : Vec F S1024x128 .bf16 :=
  View.canon [⟨full1024x128, k0_pay2 (View.ld x full1024x2048) (View.ld w full2048x128)⟩]
/-- The second output buffer after the body: the product with the second weight matrix. -/
def out0_5 (x : Vec F S1024x2048 .f32) (w : Vec F S2048x128 .bf16) : Vec F S1024x128 .bf16 :=
  View.canon [⟨full1024x128, k0_pay3 (View.ld x full1024x2048) (View.ld w full2048x128)⟩]
/-- The third output buffer after the body: the product with the third weight matrix. -/
def out0_6 (x : Vec F S1024x2048 .f32) (w : Vec F S2048x128 .bf16) : Vec F S1024x128 .bf16 :=
  View.canon [⟨full1024x128, k0_pay4 (View.ld x full1024x2048) (View.ld w full2048x128)⟩]

/-- One store through the whole buffer covers it. -/
theorem cover_full (p : Vec F S1024x128 .bf16) (y : S1024x128.Idx) :
    ∃ pc ∈ ([⟨full1024x128, p⟩] : List (View.Piece (Elt F) S1024x128 .bf16)), y ∈ pc.1.set :=
  ⟨_, List.mem_singleton_self _, View.mem_set_unit_zero zero2 inb_S1024x128_S1024x128_0_0 y⟩

/-! ## The body's triple -/

set_option maxHeartbeats 4000000 in
/-- The kernel body on whole staging buffers — the four inputs at read contents, the three outputs
    at anything — runs to the continuation with the inputs as they were and each output at its
    product payload: the printed function is its skeleton, which is run operation by operation. -/
theorem sound_kernel0 (c : Dev nD) (E : Set ℕ) (i : grid0.Coords)
    (arg1 : Memref sig .tc .vmem S1024x2048 .f32) (harg1 : arg1.IsWhole)
    (arg2 : Memref sig .tc .vmem S2048x128 .bf16) (harg2 : arg2.IsWhole)
    (arg3 : Memref sig .tc .vmem S2048x128 .bf16) (harg3 : arg3.IsWhole)
    (arg4 : Memref sig .tc .vmem S2048x128 .bf16) (harg4 : arg4.IsWhole)
    (arg5 : Memref sig .tc .vmem S1024x128 .bf16) (harg5 : arg5.IsWhole)
    (arg6 : Memref sig .tc .vmem S1024x128 .bf16) (harg6 : arg6.IsWhole)
    (arg7 : Memref sig .tc .vmem S1024x128 .bf16) (harg7 : arg7.IsWhole)
    (x : Vec F S1024x2048 .f32) (w1 w2 w3 : Vec F S2048x128 .bf16) (K : PUnit → sProp 𝕄) :
    iprop(owns (c : Thread nD τ) arg1 fullShare x ∗ owns (c : Thread nD τ) arg2 fullShare w1
        ∗ owns (c : Thread nD τ) arg3 fullShare w2 ∗ owns (c : Thread nD τ) arg4 fullShare w3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x ∗ owns (c : Thread nD τ) arg2 fullShare w1
            ∗ owns (c : Thread nD τ) arg3 fullShare w2 ∗ owns (c : Thread nD τ) arg4 fullShare w3
            ∗ owns (c : Thread nD τ) arg5 fullShare (out0_4 x w1)
            ∗ owns (c : Thread nD τ) arg6 fullShare (out0_5 x w2)
            ∗ owns (c : Thread nD τ) arg7 fullShare (out0_6 x w3)) -∗ K ⟨⟩))
      ⊢ wp frame (wpE (defs₀ (F := F)) Variants.none c none) E
          (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f1, %hf1, H1⟩, ⟨%f2, %hf2, H2⟩, ⟨%f3, %hf3, H3⟩, ⟨%f4, %hf4, H4⟩,
    ⟨%d5, %f5, -, H5⟩, ⟨%d6, %f6, -, H6⟩, ⟨%d7, %f7, -, H7⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_full _)
  isplitl [H6]
  · iexists _; isplitr
    swap; · iexact H6
    ipureintro
    exact View.read_writes_eq_canon _ _ _ (cover_full _)
  iexists _; isplitr
  swap; · iexact H7
  ipureintro
  exact View.read_writes_eq_canon _ _ _ (cover_full _)

/-! ## The pipeline's proof data -/

/-- The proof data of the projection pipeline on core c: the arrays as the region finds them; after
    the body at point t each input buffer at its block and each output buffer at the product payload
    of the activation block and its weight matrix; the invariant that of a body touching nothing but
    its windows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) := by dsimp only [dat0]
theorem after0_5 (c : Dev nD) (t : Fin cfg0.N) :
    (dat0 V c).after 5 t = out0_5 (iblk0 V c 0 t) (iblk0 V c 2 t) := by dsimp only [dat0]
theorem after0_6 (c : Dev nD) (t : Fin cfg0.N) :
    (dat0 V c).after 6 t = out0_6 (iblk0 V c 0 t) (iblk0 V c 3 t) := by dsimp only [dat0]

/-! ## What the input buffers hold when the body is called -/

/-- An input window's current staging buffer holds its block at every point, fetched there or not
    (where it is not fetched the block index has not moved and the body left the block in place). -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-! ## The body obligation, at a generic point -/

/-- What the body is called with at point t: the invariant, the core's debts, and each window's
    current staging buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What the body returns: the same, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the input buffers hold their blocks, so the body's triple applies; the
    invariant and the debts pass through unread. -/
theorem sound_body0 (c : Dev nD) (t : Fin cfg0.N) :
    bodyPre0 V c t ⊢ wp frame (wpE (defs₀ (F := F)) Variants.none c none) Set.univ (bodyAt0 t)
      (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) :
    BodyObligation (dat0 (F := F) V c) (defs₀ (F := F)) Variants.none () Set.univ := fun t => by
  rw [bigSep_W0, bigSep_W0]
  exact sound_body0 V c t

end Cert.KernelIdeal.R0

end
-- ==== Proof.R1Shared.lean ====
/-
  The attention region (the second kernel launch): what its runs share.

  A grid point is a triple (batch, query tile, key tile), the key tile moving fastest. The body has three
  guarded blocks: the running maximum, total and weighted sum are reset when the key tile is the first; they
  are updated from the query and key/value blocks when the key tile is not after the query tile; the output
  block is the weighted sum over the total when the key tile IS the query tile. The three conditions are
  stated here as the body computes them and decided over the 128 points in closed form, with the points at
  which the output window is idle or written back.
-/
import proofs.«165543_j62113817035141_2_alg».proof.Proof.Gen.KernelIdeal.Launch
import proofs.«165543_j62113817035141_2_alg».proof.Proof.Gen.KernelIdeal.Skeleton
import proofs.«165543_j62113817035141_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (an unfetched
    window's block index has not moved). -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end

/-! ## The three conditions -/

/-- The key tile is the first. -/
abbrev c1 (i : grid1.Coords) : Prop := (Scalar.cmpi .ne (Scalar.extui (Scalar.cmpi .eq (BitVec.ofNat 32 (i 2).val) 0#32)) 0#32) = 1#1
/-- The key tile is not after the query tile. -/
abbrev c2 (i : grid1.Coords) : Prop := (Scalar.cmpi .ne (Scalar.extui (Scalar.cmpi .sle (BitVec.ofNat 32 (i 2).val) (BitVec.ofNat 32 (i 1).val))) 0#32) = 1#1
/-- The key tile is the query tile. -/
abbrev c3 (i : grid1.Coords) : Prop := k1_cond3 i = 1#1

theorem hc1 : ∀ t : Fin cfg1.N, c1 (grid1.coords t) ↔ t.val % 4 = 0 :=
  (by decide +kernel : ∀ t : Fin grid1.N, c1 (grid1.coords t) ↔ t.val % 4 = 0)
theorem hc2 : ∀ t : Fin cfg1.N, c2 (grid1.coords t) ↔ t.val % 4 ≤ t.val / 4 % 4 :=
  (by decide +kernel : ∀ t : Fin grid1.N, c2 (grid1.coords t) ↔ t.val % 4 ≤ t.val / 4 % 4)
theorem hc3 : ∀ t : Fin cfg1.N, c3 (grid1.coords t) ↔ t.val % 4 = t.val / 4 % 4 :=
  (by decide +kernel : ∀ t : Fin grid1.N, c3 (grid1.coords t) ↔ t.val % 4 = t.val / 4 % 4)

/-! ## Where the windows are idle, and where the output is written back -/

theorem live0 : ∀ i, cfg1.idle 0 i = false := fun _ => rfl
theorem live1 : ∀ i, cfg1.idle 1 i = false := fun _ => rfl
theorem live2 : ∀ i, cfg1.idle 2 i = false := fun _ => rfl
theorem idle3 : ∀ t : Fin cfg1.N, cfg1.idle 3 (grid1.coords t) = true ↔ ¬ t.val % 4 = t.val / 4 % 4 :=
  (by decide +kernel : ∀ t : Fin grid1.N, cfg1.idle 3 (grid1.coords t) = true ↔ ¬ t.val % 4 = t.val / 4 % 4)
theorem flush3 : ∀ t : Fin cfg1.N, (cfg1.win 3).flush t = true ↔ t.val % 4 = 3 := flush1_3

/-! ## The memrefs the body is called with -/

abbrev ms0 (t : Fin cfg1.N) : Memref sig .tc .vmem S1x512x128 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x512x128 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x512x128 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x512x128 .f32 := win1_3.stage (cfg1.slots t 3)
abbrev hs3 (t : Fin cfg1.N) : (ms3 t).IsWhole := hstage1_3 ((cfg1.slots t 3).cast nbuf1_3)
/-- The running maximum, the running total and the running weighted sum: whole scoped buffers of the kernel's own. -/
abbrev scM : Memref sig .tc .vmem S512x1 .f32 := Memref.whole cc1_scratch0
abbrev scL : Memref sig .tc .vmem S512x1 .f32 := Memref.whole cc1_scratch1
abbrev scA : Memref sig .tc .vmem S512x128 .f32 := Memref.whole cc1_scratch2
/-- Views through which contents are stated. -/
abbrev VO : View sig .tc .vmem S1x512x128 .f32 := (Memref.whole cc1_stg3_0 : Memref sig .tc .vmem S1x512x128 .f32).view
abbrev VM : View sig .tc .vmem S512x1 .f32 := scM.view
abbrev VL : View sig .tc .vmem S512x1 .f32 := scL.view
abbrev VA : View sig .tc .vmem S512x128 .f32 := scA.view

/-- The scoped buffers the attention region never touches (the projection region's staging buffers), each whole at
    some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The region's plain invariant: those untouched buffers, the three scratch buffers as memrefs owned at some
    contents, and the generator register at some state. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; simp only [scM, scL, scA, owns_whole]; try rfl

end Cert.KernelIdeal.R1

end
-- ==== Proof.R1RunA.lean ====
/-
  The attention body at a point whose key tile is the first AND the query tile (query tile 0): the reset, the
  update and the output block all run.
-/
import proofs.«165543_j62113817035141_2_alg».proof.Proof.R1Shared

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The pieces this case's stores leave in each buffer it stores into, with the proof that the body, started from the
    three input blocks (and whatever else the case reads) at given contents, runs to the end leaving the inputs as they
    were, every buffer it does not store into as it was, and every buffer it stores into with its pieces written. -/
noncomputable def runA (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (h1 : c1 i) (h2 : c2 i) (h3 : c3 i)
    (xq xk xv : Vec F S1x512x128 .bf16) :
    Σ' (LO : List (View.Piece (Elt F) S1x512x128 .f32)) (LM LL : List (View.Piece (Elt F) S512x1 .f32)), { LA : List (View.Piece (Elt F) S512x128 .f32) //
      ∀ (E : Set ℕ) (K : PUnit → sProp 𝕄),
        iprop(owns (c : Thread nD τ) arg3 fullShare xq ∗ owns (c : Thread nD τ) arg4 fullShare xk ∗ owns (c : Thread nD τ) arg5 fullShare xv ∗ (∃ d, owns (c : Thread nD τ) arg6 fullShare d)
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare xq ∗ owns (c : Thread nD τ) arg4 fullShare xk ∗ owns (c : Thread nD τ) arg5 fullShare xv ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1__flash_causal_kernel i arg3 harg3 arg4 harg4 arg5 harg5 arg6 harg6 arg7 harg7 arg8 harg8 arg9 harg9) K } := by
  refine ⟨?_, ?_, ?_, ?_, fun E K => ?run⟩
  case run =>
    haveI : Fact (c1 i) := ⟨h1⟩
    haveI : Fact (c2 i) := ⟨h2⟩
    haveI : Fact (c3 i) := ⟨h3⟩
    simp only [cc1__flash_causal_kernel_eq_skeleton]; unfold cc1__flash_causal_kernel_skel
    simp only [k1_part1_eq_skeleton]
    unfold owns
    iintro ⟨⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
    obtain rfl := harg3.eq_unread hf3; obtain rfl := harg4.eq_unread hf4; obtain rfl := harg5.eq_unread hf5
    sl_exec (disch := first | exact h1 | exact h2 | exact h3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    iexists _; iexact H9

end Cert.KernelIdeal.R1

end
-- ==== Proof.R1RunB.lean ====
/-
  The attention body at a point whose key tile is the first and before the query tile: the reset and the update run;
  the output block is untouched.
-/
import proofs.«165543_j62113817035141_2_alg».proof.Proof.R1Shared

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The pieces this case's stores leave in each buffer it stores into, with the proof that the body, started from the
    three input blocks (and whatever else the case reads) at given contents, runs to the end leaving the inputs as they
    were, every buffer it does not store into as it was, and every buffer it stores into with its pieces written. -/
noncomputable def runB (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (h1 : c1 i) (h2 : c2 i) (h3 : ¬c3 i)
    (xq xk xv : Vec F S1x512x128 .bf16) :
    Σ' (LM LL : List (View.Piece (Elt F) S512x1 .f32)), { LA : List (View.Piece (Elt F) S512x128 .f32) //
      ∀ (xo : Vec F S1x512x128 .f32) (E : Set ℕ) (K : PUnit → sProp 𝕄),
        iprop(owns (c : Thread nD τ) arg3 fullShare xq ∗ owns (c : Thread nD τ) arg4 fullShare xk ∗ owns (c : Thread nD τ) arg5 fullShare xv ∗ owns (c : Thread nD τ) arg6 fullShare xo
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare xq ∗ owns (c : Thread nD τ) arg4 fullShare xk ∗ owns (c : Thread nD τ) arg5 fullShare xv ∗ owns (c : Thread nD τ) arg6 fullShare xo
                ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1__flash_causal_kernel i arg3 harg3 arg4 harg4 arg5 harg5 arg6 harg6 arg7 harg7 arg8 harg8 arg9 harg9) K } := by
  refine ⟨?_, ?_, ?_, fun xo E K => ?run⟩
  case run =>
    haveI : Fact (c1 i) := ⟨h1⟩
    haveI : Fact (c2 i) := ⟨h2⟩
    haveI : Fact (¬c3 i) := ⟨h3⟩
    simp only [cc1__flash_causal_kernel_eq_skeleton]; unfold cc1__flash_causal_kernel_skel
    simp only [k1_part1_eq_skeleton]
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg3.eq_unread hf3; obtain rfl := harg4.eq_unread hf4; obtain rfl := harg5.eq_unread hf5
    obtain rfl := harg6.eq_unread hf6
    sl_exec (disch := first | exact h1 | exact h2 | exact h3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

end Cert.KernelIdeal.R1

end
-- ==== Proof.R1RunC.lean ====
/-
  The attention body at a point whose key tile is after the first and before the query tile: only the update
  block runs. The running maximum, total and weighted sum are each stored once; the output block is untouched.
-/
import proofs.«165543_j62113817035141_2_alg».proof.Proof.R1Shared

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The pieces the update leaves in the three running buffers, with the proof that the body, started from the
    blocks and the running buffers at given contents, runs to the end leaving the blocks and the output buffer as
    they were and each running buffer with its pieces written. -/
noncomputable def runC (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (h1 : ¬c1 i) (h2 : c2 i) (h3 : ¬c3 i)
    (xq xk xv : Vec F S1x512x128 .bf16) (xm xl : Vec F S512x1 .f32) (xa : Vec F S512x128 .f32) :
    Σ' (LM LL : List (View.Piece (Elt F) S512x1 .f32)), { LA : List (View.Piece (Elt F) S512x128 .f32) //
      ∀ (xo : Vec F S1x512x128 .f32) (E : Set ℕ) (K : PUnit → sProp 𝕄),
        iprop(owns (c : Thread nD τ) arg3 fullShare xq ∗ owns (c : Thread nD τ) arg4 fullShare xk ∗ owns (c : Thread nD τ) arg5 fullShare xv ∗ owns (c : Thread nD τ) arg6 fullShare xo
            ∗ owns (c : Thread nD τ) arg7 fullShare xm ∗ owns (c : Thread nD τ) arg8 fullShare xl ∗ owns (c : Thread nD τ) arg9 fullShare xa
            ∗ (iprop(owns (c : Thread nD τ) arg3 fullShare xq ∗ owns (c : Thread nD τ) arg4 fullShare xk ∗ owns (c : Thread nD τ) arg5 fullShare xv ∗ owns (c : Thread nD τ) arg6 fullShare xo
                ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1__flash_causal_kernel i arg3 harg3 arg4 harg4 arg5 harg5 arg6 harg6 arg7 harg7 arg8 harg8 arg9 harg9) K } := by
  refine ⟨?_, ?_, ?_, fun xo E K => ?run⟩
  case run =>
    haveI : Fact (¬c1 i) := ⟨h1⟩
    haveI : Fact (c2 i) := ⟨h2⟩
    haveI : Fact (¬c3 i) := ⟨h3⟩
    simp only [cc1__flash_causal_kernel_eq_skeleton]; unfold cc1__flash_causal_kernel_skel
    simp only [k1_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5
    obtain rfl := harg6.eq_unread hf6; obtain rfl := harg7.eq_unread hf7; obtain rfl := harg8.eq_unread hf8
    obtain rfl := harg9.eq_unread hf9
    sl_exec (disch := first | exact h1 | exact h2 | exact h3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

end Cert.KernelIdeal.R1

end
-- ==== Proof.R1RunD.lean ====
/-
  The attention body at a point whose key tile is the query tile, after the first: the update and the output block run.
-/
import proofs.«165543_j62113817035141_2_alg».proof.Proof.R1Shared

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The pieces this case's stores leave in each buffer it stores into, with the proof that the body, started from the
    three input blocks (and whatever else the case reads) at given contents, runs to the end leaving the inputs as they
    were, every buffer it does not store into as it was, and every buffer it stores into with its pieces written. -/
noncomputable def runD (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (h1 : ¬c1 i) (h2 : c2 i) (h3 : c3 i)
    (xq xk xv : Vec F S1x512x128 .bf16) (xm xl : Vec F S512x1 .f32) (xa : Vec F S512x128 .f32) :
    Σ' (LO : List (View.Piece (Elt F) S1x512x128 .f32)) (LM LL : List (View.Piece (Elt F) S512x1 .f32)), { LA : List (View.Piece (Elt F) S512x128 .f32) //
      ∀ (E : Set ℕ) (K : PUnit → sProp 𝕄),
        iprop(owns (c : Thread nD τ) arg3 fullShare xq ∗ owns (c : Thread nD τ) arg4 fullShare xk ∗ owns (c : Thread nD τ) arg5 fullShare xv ∗ (∃ d, owns (c : Thread nD τ) arg6 fullShare d)
            ∗ owns (c : Thread nD τ) arg7 fullShare xm ∗ owns (c : Thread nD τ) arg8 fullShare xl ∗ owns (c : Thread nD τ) arg9 fullShare xa
            ∗ (iprop(owns (c : Thread nD τ) arg3 fullShare xq ∗ owns (c : Thread nD τ) arg4 fullShare xk ∗ owns (c : Thread nD τ) arg5 fullShare xv ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1__flash_causal_kernel i arg3 harg3 arg4 harg4 arg5 harg5 arg6 harg6 arg7 harg7 arg8 harg8 arg9 harg9) K } := by
  refine ⟨?_, ?_, ?_, ?_, fun E K => ?run⟩
  case run =>
    haveI : Fact (¬c1 i) := ⟨h1⟩
    haveI : Fact (c2 i) := ⟨h2⟩
    haveI : Fact (c3 i) := ⟨h3⟩
    simp only [cc1__flash_causal_kernel_eq_skeleton]; unfold cc1__flash_causal_kernel_skel
    simp only [k1_part1_eq_skeleton]
    unfold owns
    iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5
    obtain rfl := harg7.eq_unread hf7; obtain rfl := harg8.eq_unread hf8; obtain rfl := harg9.eq_unread hf9
    sl_exec (disch := first | exact h1 | exact h2 | exact h3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    iexists _; iexact H9

end Cert.KernelIdeal.R1

end
-- ==== Proof.R1RunE.lean ====
/-
  The attention body at a point whose key tile is after the query tile: nothing runs; every buffer is as it was.
-/
import proofs.«165543_j62113817035141_2_alg».proof.Proof.R1Shared

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- The pieces this case's stores leave in each buffer it stores into, with the proof that the body, started from the
    three input blocks (and whatever else the case reads) at given contents, runs to the end leaving the inputs as they
    were, every buffer it does not store into as it was, and every buffer it stores into with its pieces written. -/
noncomputable def runE (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole) (h1 : ¬c1 i) (h2 : ¬c2 i) (h3 : ¬c3 i)
    (xq xk xv : Vec F S1x512x128 .bf16) (xm xl : Vec F S512x1 .f32) (xa : Vec F S512x128 .f32) :
    PLift (
      ∀ (xo : Vec F S1x512x128 .f32) (E : Set ℕ) (K : PUnit → sProp 𝕄),
        iprop(owns (c : Thread nD τ) arg3 fullShare xq ∗ owns (c : Thread nD τ) arg4 fullShare xk ∗ owns (c : Thread nD τ) arg5 fullShare xv ∗ owns (c : Thread nD τ) arg6 fullShare xo
            ∗ owns (c : Thread nD τ) arg7 fullShare xm ∗ owns (c : Thread nD τ) arg8 fullShare xl ∗ owns (c : Thread nD τ) arg9 fullShare xa
            ∗ (iprop(owns (c : Thread nD τ) arg3 fullShare xq ∗ owns (c : Thread nD τ) arg4 fullShare xk ∗ owns (c : Thread nD τ) arg5 fullShare xv ∗ owns (c : Thread nD τ) arg6 fullShare xo
                ∗ owns (c : Thread nD τ) arg7 fullShare xm ∗ owns (c : Thread nD τ) arg8 fullShare xl ∗ owns (c : Thread nD τ) arg9 fullShare xa) -∗ K ⟨⟩))
          ⊢ wp frame (wpE (defs₀ (F := F)) Variants.none c none) E (cc1__flash_causal_kernel i arg3 harg3 arg4 harg4 arg5 harg5 arg6 harg6 arg7 harg7 arg8 harg8 arg9 harg9) K ) := by
  refine ⟨fun xo E K => ?run⟩
  case run =>
    haveI : Fact (¬c1 i) := ⟨h1⟩
    haveI : Fact (¬c2 i) := ⟨h2⟩
    haveI : Fact (¬c3 i) := ⟨h3⟩
    simp only [cc1__flash_causal_kernel_eq_skeleton]; unfold cc1__flash_causal_kernel_skel
    simp only [k1_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5
    obtain rfl := harg6.eq_unread hf6
    obtain rfl := harg7.eq_unread hf7; obtain rfl := harg8.eq_unread hf8; obtain rfl := harg9.eq_unread hf9
    sl_exec (disch := first | exact h1 | exact h2 | exact h3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    iexists _; isplitr; · ipureintro; exact harg9.read_unread _
    iexact H9

end Cert.KernelIdeal.R1

end
-- ==== Proof.R1State.lean ====
/-
  The attention region: what the running buffers and the output block hold after each grid point, the region's
  proof data, and its body obligation.

  After a point the three running buffers hold: at a first key tile, the reset values updated once; at a later key
  tile not after the query tile, the previous point's values updated; after the query tile, the previous point's
  values unchanged. The output block's staging buffer holds the quotient stored at the point whose key tile is the
  query tile and keeps it through the later key tiles of that query tile, until it is written back at the last.
-/
import proofs.«165543_j62113817035141_2_alg».proof.Proof.R1RunA
import proofs.«165543_j62113817035141_2_alg».proof.Proof.R1RunB
import proofs.«165543_j62113817035141_2_alg».proof.Proof.R1RunC
import proofs.«165543_j62113817035141_2_alg».proof.Proof.R1RunD
import proofs.«165543_j62113817035141_2_alg».proof.Proof.R1RunE

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The contents carried from point to point: running maximum, running total, running weighted sum, output block. -/
structure St (F : FTy → Type) [FloatOps F] where
  m : Vec F S512x1 .f32
  l : Vec F S512x1 .f32
  a : Vec F S512x128 .f32
  o : Vec F S1x512x128 .f32

/-! ## The conditions exclude one another as the grid allows -/

theorem c2_of_c1 : ∀ t : Fin cfg1.N, c1 (grid1.coords t) → c2 (grid1.coords t) :=
  (by decide +kernel : ∀ t : Fin grid1.N, c1 (grid1.coords t) → c2 (grid1.coords t))
theorem c2_of_c3 : ∀ t : Fin cfg1.N, c3 (grid1.coords t) → c2 (grid1.coords t) :=
  (by decide +kernel : ∀ t : Fin grid1.N, c3 (grid1.coords t) → c2 (grid1.coords t))

section
variable (V : (c : Dev nD) → (b : Ref sig .tc) → Buf (Elt F) ((c : Thread nD τ).loc b))
variable (c : Dev nD) (t : Fin cfg1.N)

/-- The five cases' runs at point t, on the memrefs the pipeline calls the body with and the point's input blocks. -/
abbrev rA (h1 : c1 (grid1.coords t)) (h3 : c3 (grid1.coords t)) :=
  runA (F := F) c (grid1.coords t) (ms0 t) (hs0 t) (ms1 t) (hs1 t) (ms2 t) (hs2 t) (ms3 t) (hs3 t) scM (Memref.isWhole_whole _) scL (Memref.isWhole_whole _) scA (Memref.isWhole_whole _) h1 (c2_of_c1 t h1) h3 (iblk V c 0 t) (iblk V c 1 t) (iblk V c 2 t)
abbrev rB (h1 : c1 (grid1.coords t)) (h3 : ¬c3 (grid1.coords t)) :=
  runB (F := F) c (grid1.coords t) (ms0 t) (hs0 t) (ms1 t) (hs1 t) (ms2 t) (hs2 t) (ms3 t) (hs3 t) scM (Memref.isWhole_whole _) scL (Memref.isWhole_whole _) scA (Memref.isWhole_whole _) h1 (c2_of_c1 t h1) h3 (iblk V c 0 t) (iblk V c 1 t) (iblk V c 2 t)
abbrev rC (h1 : ¬c1 (grid1.coords t)) (h2 : c2 (grid1.coords t)) (h3 : ¬c3 (grid1.coords t)) (p : St F) :=
  runC (F := F) c (grid1.coords t) (ms0 t) (hs0 t) (ms1 t) (hs1 t) (ms2 t) (hs2 t) (ms3 t) (hs3 t) scM (Memref.isWhole_whole _) scL (Memref.isWhole_whole _) scA (Memref.isWhole_whole _) h1 h2 h3 (iblk V c 0 t) (iblk V c 1 t) (iblk V c 2 t) p.m p.l p.a
abbrev rD (h1 : ¬c1 (grid1.coords t)) (h2 : c2 (grid1.coords t)) (h3 : c3 (grid1.coords t)) (p : St F) :=
  runD (F := F) c (grid1.coords t) (ms0 t) (hs0 t) (ms1 t) (hs1 t) (ms2 t) (hs2 t) (ms3 t) (hs3 t) scM (Memref.isWhole_whole _) scL (Memref.isWhole_whole _) scA (Memref.isWhole_whole _) h1 h2 h3 (iblk V c 0 t) (iblk V c 1 t) (iblk V c 2 t) p.m p.l p.a

/-- One point's effect on the carried contents. -/
def stepAt (p : St F) : St F :=
  if h1 : c1 (grid1.coords t) then
    if h3 : c3 (grid1.coords t) then
      ⟨VM.read (Elt F) (VM.writes (Elt F) VM.junk (rA V c t h1 h3).2.1), VL.read (Elt F) (VL.writes (Elt F) VL.junk (rA V c t h1 h3).2.2.1), VA.read (Elt F) (VA.writes (Elt F) VA.junk (rA V c t h1 h3).2.2.2.1), VO.read (Elt F) (VO.writes (Elt F) VO.junk (rA V c t h1 h3).1)⟩
    else
      ⟨VM.read (Elt F) (VM.writes (Elt F) VM.junk (rB V c t h1 h3).1), VL.read (Elt F) (VL.writes (Elt F) VL.junk (rB V c t h1 h3).2.1), VA.read (Elt F) (VA.writes (Elt F) VA.junk (rB V c t h1 h3).2.2.1), p.o⟩
  else if h2 : c2 (grid1.coords t) then
    if h3 : c3 (grid1.coords t) then
      ⟨VM.read (Elt F) (VM.writes (Elt F) VM.junk (rD V c t h1 h2 h3 p).2.1), VL.read (Elt F) (VL.writes (Elt F) VL.junk (rD V c t h1 h2 h3 p).2.2.1), VA.read (Elt F) (VA.writes (Elt F) VA.junk (rD V c t h1 h2 h3 p).2.2.2.1), VO.read (Elt F) (VO.writes (Elt F) VO.junk (rD V c t h1 h2 h3 p).1)⟩
    else
      ⟨VM.read (Elt F) (VM.writes (Elt F) VM.junk (rC V c t h1 h2 h3 p).1), VL.read (Elt F) (VL.writes (Elt F) VL.junk (rC V c t h1 h2 h3 p).2.1), VA.read (Elt F) (VA.writes (Elt F) VA.junk (rC V c t h1 h2 h3 p).2.2.1), p.o⟩
  else p

theorem stepAt_A (p : St F) (h1 : c1 (grid1.coords t)) (h3 : c3 (grid1.coords t)) :
    stepAt V c t p = ⟨VM.read (Elt F) (VM.writes (Elt F) VM.junk (rA V c t h1 h3).2.1), VL.read (Elt F) (VL.writes (Elt F) VL.junk (rA V c t h1 h3).2.2.1), VA.read (Elt F) (VA.writes (Elt F) VA.junk (rA V c t h1 h3).2.2.2.1), VO.read (Elt F) (VO.writes (Elt F) VO.junk (rA V c t h1 h3).1)⟩ := by
  unfold stepAt; rw [dif_pos h1, dif_pos h3]
theorem stepAt_B (p : St F) (h1 : c1 (grid1.coords t)) (h3 : ¬c3 (grid1.coords t)) :
    stepAt V c t p = ⟨VM.read (Elt F) (VM.writes (Elt F) VM.junk (rB V c t h1 h3).1), VL.read (Elt F) (VL.writes (Elt F) VL.junk (rB V c t h1 h3).2.1), VA.read (Elt F) (VA.writes (Elt F) VA.junk (rB V c t h1 h3).2.2.1), p.o⟩ := by
  unfold stepAt; rw [dif_pos h1, dif_neg h3]
theorem stepAt_C (p : St F) (h1 : ¬c1 (grid1.coords t)) (h2 : c2 (grid1.coords t)) (h3 : ¬c3 (grid1.coords t)) :
    stepAt V c t p = ⟨VM.read (Elt F) (VM.writes (Elt F) VM.junk (rC V c t h1 h2 h3 p).1), VL.read (Elt F) (VL.writes (Elt F) VL.junk (rC V c t h1 h2 h3 p).2.1), VA.read (Elt F) (VA.writes (Elt F) VA.junk (rC V c t h1 h2 h3 p).2.2.1), p.o⟩ := by
  unfold stepAt; rw [dif_neg h1, dif_pos h2, dif_neg h3]
theorem stepAt_D (p : St F) (h1 : ¬c1 (grid1.coords t)) (h2 : c2 (grid1.coords t)) (h3 : c3 (grid1.coords t)) :
    stepAt V c t p = ⟨VM.read (Elt F) (VM.writes (Elt F) VM.junk (rD V c t h1 h2 h3 p).2.1), VL.read (Elt F) (VL.writes (Elt F) VL.junk (rD V c t h1 h2 h3 p).2.2.1), VA.read (Elt F) (VA.writes (Elt F) VA.junk (rD V c t h1 h2 h3 p).2.2.2.1), VO.read (Elt F) (VO.writes (Elt F) VO.junk (rD V c t h1 h2 h3 p).1)⟩ := by
  unfold stepAt; rw [dif_neg h1, dif_pos h2, dif_pos h3]
theorem stepAt_E (p : St F) (h1 : ¬c1 (grid1.coords t)) (h2 : ¬c2 (grid1.coords t)) :
    stepAt V c t p = p := by
  unfold stepAt; rw [dif_neg h1, dif_neg h2]

end

section
variable (V : (c : Dev nD) → (b : Ref sig .tc) → Buf (Elt F) ((c : Thread nD τ).loc b))

/-- Contents nothing reads: what precedes the first point. -/
def st0 : St F := ⟨VM.read (Elt F) VM.junk, VL.read (Elt F) VL.junk, VA.read (Elt F) VA.junk, VO.read (Elt F) VO.junk⟩

/-- The carried contents after point n. -/
def st (c : Dev nD) : (n : ℕ) → n < cfg1.N → St F
  | 0, h => stepAt V c ⟨0, h⟩ st0
  | n + 1, h => stepAt V c ⟨n + 1, h⟩ (st c n (Nat.lt_of_succ_lt h))

theorem st_succ (c : Dev nD) (n : ℕ) (h : n + 1 < cfg1.N) : st V c (n + 1) h = stepAt V c ⟨n + 1, h⟩ (st V c n (Nat.lt_of_succ_lt h)) := rfl

/-- After a point that is not the first: one step from the point before. -/
theorem st_pos (c : Dev nD) (t : Fin cfg1.N) (ht : t.val ≠ 0) :
    st V c t.val t.isLt = stepAt V c t (st V c (t.val - 1) (Nat.lt_of_le_of_lt (Nat.sub_le _ _) t.isLt)) := by
  obtain ⟨n, hn⟩ := t
  cases n with
  | zero => exact absurd rfl ht
  | succ n => rfl

/-- At the first point: one step from contents nothing reads. -/
theorem st_zero (c : Dev nD) (t : Fin cfg1.N) (ht : t.val = 0) : st V c t.val t.isLt = stepAt V c t st0 := by
  obtain ⟨n, hn⟩ := t
  cases n with
  | zero => rfl
  | succ n => exact absurd ht (Nat.succ_ne_zero n)

end

end Cert.KernelIdeal.R1

end
-- ==== Proof.R1Cover.lean ====
/-
  The attention region: in every case, the stores into a buffer tile it, so what the buffer holds afterwards does not
  depend on what it held before.
-/
import proofs.«165543_j62113817035141_2_alg».proof.Proof.R1State

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section
variable (V : (c : Dev nD) → (b : Ref sig .tc) → Buf (Elt F) ((c : Thread nD τ).loc b))

theorem covA_O (c : Dev nD) (t : Fin cfg1.N) (h1 : c1 (grid1.coords t)) (h3 : c3 (grid1.coords t)) (y : S1x512x128.Idx) :
    ∃ pc ∈ (rA V c t h1 h3).1, y ∈ pc.1.set :=
  View.cover_of_tiledL (rA V c t h1 h3).1 S1x512x128.size (by sl_kernel_rfl) y

theorem covA_M (c : Dev nD) (t : Fin cfg1.N) (h1 : c1 (grid1.coords t)) (h3 : c3 (grid1.coords t)) (y : S512x1.Idx) :
    ∃ pc ∈ (rA V c t h1 h3).2.1, y ∈ pc.1.set :=
  View.cover_of_tiledL (rA V c t h1 h3).2.1 S512x1.size (by sl_kernel_rfl) y

theorem covA_L (c : Dev nD) (t : Fin cfg1.N) (h1 : c1 (grid1.coords t)) (h3 : c3 (grid1.coords t)) (y : S512x1.Idx) :
    ∃ pc ∈ (rA V c t h1 h3).2.2.1, y ∈ pc.1.set :=
  View.cover_of_tiledL (rA V c t h1 h3).2.2.1 S512x1.size (by sl_kernel_rfl) y

theorem covA_A (c : Dev nD) (t : Fin cfg1.N) (h1 : c1 (grid1.coords t)) (h3 : c3 (grid1.coords t)) (y : S512x128.Idx) :
    ∃ pc ∈ (rA V c t h1 h3).2.2.2.1, y ∈ pc.1.set :=
  View.cover_of_tiledL (rA V c t h1 h3).2.2.2.1 S512x128.size (by sl_kernel_rfl) y

theorem covB_M (c : Dev nD) (t : Fin cfg1.N) (h1 : c1 (grid1.coords t)) (h3 : ¬c3 (grid1.coords t)) (y : S512x1.Idx) :
    ∃ pc ∈ (rB V c t h1 h3).1, y ∈ pc.1.set :=
  View.cover_of_tiledL (rB V c t h1 h3).1 S512x1.size (by sl_kernel_rfl) y

theorem covB_L (c : Dev nD) (t : Fin cfg1.N) (h1 : c1 (grid1.coords t)) (h3 : ¬c3 (grid1.coords t)) (y : S512x1.Idx) :
    ∃ pc ∈ (rB V c t h1 h3).2.1, y ∈ pc.1.set :=
  View.cover_of_tiledL (rB V c t h1 h3).2.1 S512x1.size (by sl_kernel_rfl) y

theorem covB_A (c : Dev nD) (t : Fin cfg1.N) (h1 : c1 (grid1.coords t)) (h3 : ¬c3 (grid1.coords t)) (y : S512x128.Idx) :
    ∃ pc ∈ (rB V c t h1 h3).2.2.1, y ∈ pc.1.set :=
  View.cover_of_tiledL (rB V c t h1 h3).2.2.1 S512x128.size (by sl_kernel_rfl) y

theorem covC_M (c : Dev nD) (t : Fin cfg1.N) (h1 : ¬c1 (grid1.coords t)) (h2 : c2 (grid1.coords t)) (h3 : ¬c3 (grid1.coords t)) (p : St F) (y : S512x1.Idx) :
    ∃ pc ∈ (rC V c t h1 h2 h3 p).1, y ∈ pc.1.set :=
  View.cover_of_tiledL (rC V c t h1 h2 h3 p).1 S512x1.size (by sl_kernel_rfl) y

theorem covC_L (c : Dev nD) (t : Fin cfg1.N) (h1 : ¬c1 (grid1.coords t)) (h2 : c2 (grid1.coords t)) (h3 : ¬c3 (grid1.coords t)) (p : St F) (y : S512x1.Idx) :
    ∃ pc ∈ (rC V c t h1 h2 h3 p).2.1, y ∈ pc.1.set :=
  View.cover_of_tiledL (rC V c t h1 h2 h3 p).2.1 S512x1.size (by sl_kernel_rfl) y

theorem covC_A (c : Dev nD) (t : Fin cfg1.N) (h1 : ¬c1 (grid1.coords t)) (h2 : c2 (grid1.coords t)) (h3 : ¬c3 (grid1.coords t)) (p : St F) (y : S512x128.Idx) :
    ∃ pc ∈ (rC V c t h1 h2 h3 p).2.2.1, y ∈ pc.1.set :=
  View.cover_of_tiledL (rC V c t h1 h2 h3 p).2.2.1 S512x128.size (by sl_kernel_rfl) y

theorem covD_O (c : Dev nD) (t : Fin cfg1.N) (h1 : ¬c1 (grid1.coords t)) (h2 : c2 (grid1.coords t)) (h3 : c3 (grid1.coords t)) (p : St F) (y : S1x512x128.Idx) :
    ∃ pc ∈ (rD V c t h1 h2 h3 p).1, y ∈ pc.1.set :=
  View.cover_of_tiledL (rD V c t h1 h2 h3 p).1 S1x512x128.size (by sl_kernel_rfl) y

theorem covD_M (c : Dev nD) (t : Fin cfg1.N) (h1 : ¬c1 (grid1.coords t)) (h2 : c2 (grid1.coords t)) (h3 : c3 (grid1.coords t)) (p : St F) (y : S512x1.Idx) :
    ∃ pc ∈ (rD V c t h1 h2 h3 p).2.1, y ∈ pc.1.set :=
  View.cover_of_tiledL (rD V c t h1 h2 h3 p).2.1 S512x1.size (by sl_kernel_rfl) y

theorem covD_L (c : Dev nD) (t : Fin cfg1.N) (h1 : ¬c1 (grid1.coords t)) (h2 : c2 (grid1.coords t)) (h3 : c3 (grid1.coords t)) (p : St F) (y : S512x1.Idx) :
    ∃ pc ∈ (rD V c t h1 h2 h3 p).2.2.1, y ∈ pc.1.set :=
  View.cover_of_tiledL (rD V c t h1 h2 h3 p).2.2.1 S512x1.size (by sl_kernel_rfl) y

theorem covD_A (c : Dev nD) (t : Fin cfg1.N) (h1 : ¬c1 (grid1.coords t)) (h2 : c2 (grid1.coords t)) (h3 : c3 (grid1.coords t)) (p : St F) (y : S512x128.Idx) :
    ∃ pc ∈ (rD V c t h1 h2 h3 p).2.2.2.1, y ∈ pc.1.set :=
  View.cover_of_tiledL (rD V c t h1 h2 h3 p).2.2.2.1 S512x128.size (by sl_kernel_rfl) y

end

end Cert.KernelIdeal.R1

end
-- ==== Proof.R1Dat.lean ====
/-
  The attention region's proof data and body obligation.

  The invariant between points: the buffers the region never touches at some contents, the three running buffers at
  what the point before left (at anything before the first point), the generator register at some state. The body
  obligation is a case split on the three conditions; in each case the case's run applies, the running buffers come
  back at the case's stores read back, and the output buffer comes back stored (key tile = query tile) or as found.
-/
import proofs.«165543_j62113817035141_2_alg».proof.Proof.R1Cover

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section
variable (V : (c : Dev nD) → (b : Ref sig .tc) → Buf (Elt F) ((c : Thread nD τ).loc b))

/-! ## The invariant -/

/-- The plain invariant, opened: the untouched buffers, the running buffers at anything, the generator register. -/
theorem PhiA_split (c : Dev nD) : (Pipeline.ΦA spec1 c : sProp 𝕄)
    ⊢ iprop(others (F := F) c ∗ (∃ d, owns (c : Thread nD τ) scM fullShare d) ∗ (∃ d, owns (c : Thread nD τ) scL fullShare d) ∗ (∃ d, owns (c : Thread nD τ) scA fullShare d) ∗ (∃ r, prngReg c r)) := by
  rw [PhiA_eq]; unfold others
  iintro ⟨⟨O1, O2, O3, O4, O5, O6, O7, O8, O9, O10, O11, HM, HL, HA⟩, Hg⟩
  isplitl [O1 O2 O3 O4 O5 O6 O7 O8 O9 O10 O11]
  ·
      isplitl [O1]; · iexact O1
      isplitl [O2]; · iexact O2
      isplitl [O3]; · iexact O3
      isplitl [O4]; · iexact O4
      isplitl [O5]; · iexact O5
      isplitl [O6]; · iexact O6
      isplitl [O7]; · iexact O7
      isplitl [O8]; · iexact O8
      isplitl [O9]; · iexact O9
      isplitl [O10]; · iexact O10
      iexact O11
  isplitl [HM]; · iexact HM
  isplitl [HL]; · iexact HL
  isplitl [HA]; · iexact HA
  iexact Hg

/-- and closed again. -/
theorem PhiA_join (c : Dev nD) : iprop(others (F := F) c ∗ (∃ d, owns (c : Thread nD τ) scM fullShare d) ∗ (∃ d, owns (c : Thread nD τ) scL fullShare d) ∗ (∃ d, owns (c : Thread nD τ) scA fullShare d) ∗ (∃ r, prngReg c r))
    ⊢ (Pipeline.ΦA spec1 c : sProp 𝕄) := by
  rw [PhiA_eq]; unfold others
  iintro ⟨⟨O1, O2, O3, O4, O5, O6, O7, O8, O9, O10, O11⟩, HM, HL, HA, Hg⟩
  isplitl [O1 O2 O3 O4 O5 O6 O7 O8 O9 O10 O11 HM HL HA]
  ·
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [O11]; · iexact O11
    isplitl [HM]; · iexact HM
    isplitl [HL]; · iexact HL
    iexact HA
  iexact Hg

/-- The invariant before position n: the plain one before the first point; afterwards the running buffers at what
    the point before left. -/
def PhiS (c : Dev nD) : (n : ℕ) → n ≤ cfg1.N → sProp 𝕄
  | 0, _ => Pipeline.ΦA spec1 c
  | n + 1, hn => iprop(others (F := F) c ∗ owns (c : Thread nD τ) scM fullShare (st V c n hn).m ∗ owns (c : Thread nD τ) scL fullShare (st V c n hn).l ∗ owns (c : Thread nD τ) scA fullShare (st V c n hn).a ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others (F := F) c ∗ owns (c : Thread nD τ) scM fullShare (st V c n hn).m ∗ owns (c : Thread nD τ) scL fullShare (st V c n hn).l ∗ owns (c : Thread nD τ) scA fullShare (st V c n hn).a ∗ (∃ r, prngReg c r)) := rfl

theorem PhiS_pos (c : Dev nD) (n : ℕ) (h : n ≤ cfg1.N) (hz : n ≠ 0) :
    PhiS V c n h = iprop(others (F := F) c ∗ owns (c : Thread nD τ) scM fullShare (st V c (n - 1) (by omega)).m ∗ owns (c : Thread nD τ) scL fullShare (st V c (n - 1) (by omega)).l ∗ owns (c : Thread nD τ) scA fullShare (st V c (n - 1) (by omega)).a ∗ (∃ r, prngReg c r)) := by
  cases n with
  | zero => exact absurd rfl hz
  | succ n => rfl

/-- At every position the invariant gives the running buffers at SOME contents. -/
theorem PhiS_any (c : Dev nD) (n : ℕ) (h : n ≤ cfg1.N) : PhiS V c n h
    ⊢ iprop(others (F := F) c ∗ (∃ d, owns (c : Thread nD τ) scM fullShare d) ∗ (∃ d, owns (c : Thread nD τ) scL fullShare d) ∗ (∃ d, owns (c : Thread nD τ) scA fullShare d) ∗ (∃ r, prngReg c r)) := by
  cases n with
  | zero => exact PhiA_split c
  | succ n =>
    rw [PhiS_succ]
    iintro ⟨HO, HM, HL, HA, Hg⟩
    isplitl [HO]; · iexact HO
    isplitl [HM]; · iexists _; iexact HM
    isplitl [HL]; · iexists _; iexact HL
    isplitl [HA]; · iexists _; iexact HA
    iexact Hg

/-! ## The proof data -/

def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (st V c t.val t.isLt).o
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk V c 0 t := by dsimp only [dat1]
theorem after1_1 (c : Dev nD) (t : Fin cfg1.N) : (dat1 V c).after 1 t = iblk V c 1 t := by dsimp only [dat1]
theorem after1_2 (c : Dev nD) (t : Fin cfg1.N) : (dat1 V c).after 2 t = iblk V c 2 t := by dsimp only [dat1]
theorem after1_3 (c : Dev nD) (t : Fin cfg1.N) : (dat1 V c).after 3 t = (st V c t.val t.isLt).o := by dsimp only [dat1]

theorem before1_0 (c : Dev nD) (t : Fin cfg1.N) (d) : (dat1 V c).before 0 t d = iblk V c 0 t :=
  before0_of V (dat1 V c) (A_eq1 V c 0) (after1_0 V c) t d
theorem before1_1 (c : Dev nD) (t : Fin cfg1.N) (d) : (dat1 V c).before 1 t d = iblk V c 1 t :=
  before1_of V (dat1 V c) (A_eq1 V c 1) (after1_1 V c) t d
theorem before1_2 (c : Dev nD) (t : Fin cfg1.N) (d) : (dat1 V c).before 2 t d = iblk V c 2 t :=
  before2_of V (dat1 V c) (A_eq1 V c 2) (after1_2 V c) t d

end

end Cert.KernelIdeal.R1

end
-- ==== Proof.R1Body.lean ====
/-
  The attention region's body obligation, and what the invariant is at the region's two ends.
-/
import proofs.«165543_j62113817035141_2_alg».proof.Proof.R1Dat

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section
variable (V : (c : Dev nD) → (b : Ref sig .tc) → Buf (Elt F) ((c : Thread nD τ).loc b))

/-! ## The output buffer through the key tiles after the query tile -/

theorem idle3_false (t : Fin cfg1.N) (h : t.val % 4 = t.val / 4 % 4) : cfg1.idle 3 (grid1.coords t) = false :=
  Bool.eq_false_iff.mpr fun hi => ((idle3 t).mp hi) h
theorem idle3_true (t : Fin cfg1.N) (h : ¬ t.val % 4 = t.val / 4 % 4) : cfg1.idle 3 (grid1.coords t) = true := (idle3 t).mpr h
theorem flush3_false (t : Fin cfg1.N) (h : ¬ t.val % 4 = 3) : (cfg1.win 3).flush t = false :=
  Bool.eq_false_iff.mpr fun hf => h ((flush3 t).mp hf)

/-- After a point whose key tile is after the query tile the carried contents are the point before's. -/
theorem st_after (c : Dev nD) (t : Fin cfg1.N) (h : t.val / 4 % 4 < t.val % 4) :
    st V c t.val t.isLt = st V c (t.val - 1) (Nat.lt_of_le_of_lt (Nat.sub_le _ _) t.isLt) := by
  rw [st_pos V c t (by omega)]
  exact stepAt_E V c t _ (fun h1 => by have := (hc1 t).mp h1; omega) (fun h2 => by have := (hc2 t).mp h2; omega)

/-- At a point whose key tile is after the query tile the output block's staging buffer holds what was stored at
    the point whose key tile was the query tile: nothing has touched it since. -/
theorem before3_kept (c : Dev nD) : ∀ (n : ℕ) (h : n < cfg1.N) (d), n / 4 % 4 < n % 4 →
    (dat1 V c).before 3 ⟨n, h⟩ d = (st V c n h).o := by
  intro n
  induction n using Nat.strong_induction_on with
  | _ n ih =>
    intro h d hlt
    have hn0 : n ≠ 0 := by omega
    have hfl : (cfg1.win 3).flush ⟨n - 1, Nat.lt_of_le_of_lt (Nat.sub_le _ _) h⟩ = false :=
      flush3_false _ (by show ¬ (n - 1) % 4 = 3; omega)
    rw [Dat.before_of_pos (dat1 V c) 3 ⟨n, h⟩ hn0 ((cfg1.win 3).fetch_out rfl _), hfl, if_neg Bool.false_ne_true]
    rw [st_after V c ⟨n, h⟩ hlt]
    unfold Dat.left
    by_cases hq : (n - 1) % 4 = (n - 1) / 4 % 4
    · rw [idle3_false ⟨n - 1, _⟩ hq]
      show (dat1 V c).kept 3 ⟨n - 1, _⟩ d = _
      unfold Dat.kept
      rw [Dat.before_out_kept.fill_of_clip_none' 3 _ (fun _ => rfl) d ((dat1 V c).after 3 _), Window.fill_cut, after1_3]
    · rw [idle3_true ⟨n - 1, _⟩ hq]
      show (dat1 V c).before 3 ⟨n - 1, _⟩ d = _
      exact ih (n - 1) (by omega) _ d (by omega)

/-! ## The body obligation -/

def bodyPre (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d)))

def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The carried contents after a point are one step from SOME earlier contents. -/
theorem st_step (c : Dev nD) (t : Fin cfg1.N) : ∃ p, st V c t.val t.isLt = stepAt V c t p := by
  by_cases hz : t.val = 0
  · exact ⟨_, st_zero V c t hz⟩
  · exact ⟨_, st_pos V c t hz⟩

set_option maxHeartbeats 4000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms0 t) fullShare ((dat1 V c).after 0 t) from by
      unfold Dat.leavesExact; rw [live0 _], after1_0]
  rw [show (dat1 V c).leavesExact 1 t = owns (c : Thread nD τ) (ms1 t) fullShare ((dat1 V c).after 1 t) from by
      unfold Dat.leavesExact; rw [live1 _], after1_1]
  rw [show (dat1 V c).leavesExact 2 t = owns (c : Thread nD τ) (ms2 t) fullShare ((dat1 V c).after 2 t) from by
      unfold Dat.leavesExact; rw [live2 _], after1_2]
  rw [Phi_castSucc V c t]
  by_cases h1 : c1 (grid1.coords t)
  · by_cases h3 : c3 (grid1.coords t)
    · -- the first key tile is the query tile: reset, update, output
      rw [show (dat1 V c).leavesExact 3 t = owns (c : Thread nD τ) (ms3 t) fullShare ((dat1 V c).after 3 t) from by
        unfold Dat.leavesExact; rw [idle3_false t ((hc3 t).mp h3)], after1_3]
      obtain ⟨p, hp⟩ := st_step V c t
      rw [hp, stepAt_A V c t p h1 h3]; dsimp only
      iintro ⟨HΦ, Ho, ⟨%d0, H0⟩, ⟨%d1, H1⟩, ⟨%d2, H2⟩, ⟨%d3, H3⟩⟩
      ihave HΦ' := (PhiS_any V c _ _) $$ HΦ
      icases HΦ' with ⟨HO, HM, HL, HA, Hg⟩
      iapply ((rA V c t h1 h3).2.2.2.2 Set.univ _)
      isplitl [H0]; · iexact H0
      isplitl [H1]; · iexact H1
      isplitl [H2]; · iexact H2
      isplitl [H3]; · iexists _; iexact H3
      isplitl [HM]; · iexact HM
      isplitl [HL]; · iexact HL
      isplitl [HA]; · iexact HA
      iintro ⟨H0, H1, H2, ⟨%e3, H3⟩, ⟨%e7, HM⟩, ⟨%e8, HL⟩, ⟨%e9, HA⟩⟩
      isplitl [HO HM HL HA Hg]
      · isplitl [HO]; · iexact HO
        isplitl [HM]
        · unfold owns; iexists _; isplitr
          swap; · iexact HM
          ipureintro; exact View.read_writes_of_cover _ _ _ _ _ (covA_M V c t h1 h3)
        isplitl [HL]
        · unfold owns; iexists _; isplitr
          swap; · iexact HL
          ipureintro; exact View.read_writes_of_cover _ _ _ _ _ (covA_L V c t h1 h3)
        isplitl [HA]
        · unfold owns; iexists _; isplitr
          swap; · iexact HA
          ipureintro; exact View.read_writes_of_cover _ _ _ _ _ (covA_A V c t h1 h3)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (covA_O V c t h1 h3)
    · -- the first key tile, before the query tile: reset, update
      have hnf : ¬ t.val % 4 = 3 := fun h => by have := (hc1 t).mp h1; omega
      rw [Dat.leavesExact_idle (dat1 V c) 3 t (idle3_true t fun h => h3 ((hc3 t).mpr h)) (flush3_false t hnf)]
      obtain ⟨p, hp⟩ := st_step V c t
      rw [hp, stepAt_B V c t p h1 h3]; dsimp only
      iintro ⟨HΦ, Ho, ⟨%d0, H0⟩, ⟨%d1, H1⟩, ⟨%d2, H2⟩, ⟨%d3, H3⟩⟩
      ihave HΦ' := (PhiS_any V c _ _) $$ HΦ
      icases HΦ' with ⟨HO, HM, HL, HA, Hg⟩
      iapply ((rB V c t h1 h3).2.2.2 _ Set.univ _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, ⟨%e7, HM⟩, ⟨%e8, HL⟩, ⟨%e9, HA⟩⟩
      isplitl [HO HM HL HA Hg]
      · isplitl [HO]; · iexact HO
        isplitl [HM]
        · unfold owns; iexists _; isplitr
          swap; · iexact HM
          ipureintro; exact View.read_writes_of_cover _ _ _ _ _ (covB_M V c t h1 h3)
        isplitl [HL]
        · unfold owns; iexists _; isplitr
          swap; · iexact HL
          ipureintro; exact View.read_writes_of_cover _ _ _ _ _ (covB_L V c t h1 h3)
        isplitl [HA]
        · unfold owns; iexists _; isplitr
          swap; · iexact HA
          ipureintro; exact View.read_writes_of_cover _ _ _ _ _ (covB_A V c t h1 h3)
        iexact Hg
      isplitl [Ho]; · iexact Ho
      isplitl [H0]; · iexact H0
      isplitl [H1]; · iexact H1
      isplitl [H2]; · iexact H2
      iexists _; iexact H3
  · have hz : t.val ≠ 0 := fun h => h1 ((hc1 t).mpr (by rw [h]))
    rw [PhiS_pos V c _ _ hz]
    by_cases h2 : c2 (grid1.coords t)
    · by_cases h3 : c3 (grid1.coords t)
      · -- a later key tile that is the query tile: update, output
        rw [show (dat1 V c).leavesExact 3 t = owns (c : Thread nD τ) (ms3 t) fullShare ((dat1 V c).after 3 t) from by
          unfold Dat.leavesExact; rw [idle3_false t ((hc3 t).mp h3)], after1_3]
        rw [st_pos V c t hz, stepAt_D V c t _ h1 h2 h3]; dsimp only
        iintro ⟨⟨HO, HM, HL, HA, Hg⟩, Ho, ⟨%d0, H0⟩, ⟨%d1, H1⟩, ⟨%d2, H2⟩, ⟨%d3, H3⟩⟩
        iapply ((rD V c t h1 h2 h3 _).2.2.2.2 Set.univ _)
        isplitl [H0]; · iexact H0
        isplitl [H1]; · iexact H1
        isplitl [H2]; · iexact H2
        isplitl [H3]; · iexists _; iexact H3
        isplitl [HM]; · iexact HM
        isplitl [HL]; · iexact HL
        isplitl [HA]; · iexact HA
        iintro ⟨H0, H1, H2, ⟨%e3, H3⟩, ⟨%e7, HM⟩, ⟨%e8, HL⟩, ⟨%e9, HA⟩⟩
        isplitl [HO HM HL HA Hg]
        · isplitl [HO]; · iexact HO
          isplitl [HM]
          · unfold owns; iexists _; isplitr
            swap; · iexact HM
            ipureintro; exact View.read_writes_of_cover _ _ _ _ _ (covD_M V c t h1 h2 h3 _)
          isplitl [HL]
          · unfold owns; iexists _; isplitr
            swap; · iexact HL
            ipureintro; exact View.read_writes_of_cover _ _ _ _ _ (covD_L V c t h1 h2 h3 _)
          isplitl [HA]
          · unfold owns; iexists _; isplitr
            swap; · iexact HA
            ipureintro; exact View.read_writes_of_cover _ _ _ _ _ (covD_A V c t h1 h2 h3 _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (covD_O V c t h1 h2 h3 _)
      · -- a later key tile before the query tile: update
        have hnf : ¬ t.val % 4 = 3 := fun h => by
          have a := (hc2 t).mp h2; have b : ¬ t.val % 4 = t.val / 4 % 4 := fun e => h3 ((hc3 t).mpr e); omega
        rw [Dat.leavesExact_idle (dat1 V c) 3 t (idle3_true t fun h => h3 ((hc3 t).mpr h)) (flush3_false t hnf)]
        rw [st_pos V c t hz, stepAt_C V c t _ h1 h2 h3]; dsimp only
        iintro ⟨⟨HO, HM, HL, HA, Hg⟩, Ho, ⟨%d0, H0⟩, ⟨%d1, H1⟩, ⟨%d2, H2⟩, ⟨%d3, H3⟩⟩
        iapply ((rC V c t h1 h2 h3 _).2.2.2 _ Set.univ _)
        isplitl [H0]; · iexact H0
        isplitl [H1]; · iexact H1
        isplitl [H2]; · iexact H2
        isplitl [H3]; · iexact H3
        isplitl [HM]; · iexact HM
        isplitl [HL]; · iexact HL
        isplitl [HA]; · iexact HA
        iintro ⟨H0, H1, H2, H3, ⟨%e7, HM⟩, ⟨%e8, HL⟩, ⟨%e9, HA⟩⟩
        isplitl [HO HM HL HA Hg]
        · isplitl [HO]; · iexact HO
          isplitl [HM]
          · unfold owns; iexists _; isplitr
            swap; · iexact HM
            ipureintro; exact View.read_writes_of_cover _ _ _ _ _ (covC_M V c t h1 h2 h3 _)
          isplitl [HL]
          · unfold owns; iexists _; isplitr
            swap; · iexact HL
            ipureintro; exact View.read_writes_of_cover _ _ _ _ _ (covC_L V c t h1 h2 h3 _)
          isplitl [HA]
          · unfold owns; iexists _; isplitr
            swap; · iexact HA
            ipureintro; exact View.read_writes_of_cover _ _ _ _ _ (covC_A V c t h1 h2 h3 _)
          iexact Hg
        isplitl [Ho]; · iexact Ho
        isplitl [H0]; · iexact H0
        isplitl [H1]; · iexact H1
        isplitl [H2]; · iexact H2
        iexists _; iexact H3
    · -- a key tile after the query tile: nothing runs
      have h3 : ¬c3 (grid1.coords t) := fun h => h2 (c2_of_c3 t h)
      have hlt : t.val / 4 % 4 < t.val % 4 := by
        have a : ¬ t.val % 4 ≤ t.val / 4 % 4 := fun e => h2 ((hc2 t).mpr e); omega
      rw [st_pos V c t hz, stepAt_E V c t _ h1 h2]
      by_cases hf : t.val % 4 = 3
      · rw [show (dat1 V c).leavesExact 3 t = owns (c : Thread nD τ) (ms3 t) fullShare ((dat1 V c).after 3 t) from by
          unfold Dat.leavesExact; rw [idle3_true t (by omega), (flush3 t).mpr hf], after1_3]
        simp only [before3_kept V c t.val t.isLt _ hlt]
        rw [st_after V c t hlt]
        iintro ⟨⟨HO, HM, HL, HA, Hg⟩, Ho, ⟨%d0, H0⟩, ⟨%d1, H1⟩, ⟨%d2, H2⟩, ⟨%d3, H3⟩⟩
        iapply ((runE (F := F) c (grid1.coords t) (ms0 t) (hs0 t) (ms1 t) (hs1 t) (ms2 t) (hs2 t) (ms3 t) (hs3 t) scM (Memref.isWhole_whole _) scL (Memref.isWhole_whole _) scA (Memref.isWhole_whole _) h1 h2 h3 (iblk V c 0 t) (iblk V c 1 t) (iblk V c 2 t) _ _ _).down _ Set.univ _)
        isplitl [H0]; · iexact H0
        isplitl [H1]; · iexact H1
        isplitl [H2]; · iexact H2
        isplitl [H3]; · iexact H3
        isplitl [HM]; · iexact HM
        isplitl [HL]; · iexact HL
        isplitl [HA]; · iexact HA
        iintro ⟨H0, H1, H2, H3, HM, HL, HA⟩
        isplitl [HO HM HL HA Hg]
        · isplitl [HO]; · iexact HO
          isplitl [HM]; · iexact HM
          isplitl [HL]; · iexact HL
          isplitl [HA]; · iexact HA
          iexact Hg
        isplitl [Ho]; · iexact Ho
        isplitl [H0]; · iexact H0
        isplitl [H1]; · iexact H1
        isplitl [H2]; · iexact H2
        iexact H3
      · rw [Dat.leavesExact_idle (dat1 V c) 3 t (idle3_true t (by omega)) (flush3_false t hf)]
        iintro ⟨⟨HO, HM, HL, HA, Hg⟩, Ho, ⟨%d0, H0⟩, ⟨%d1, H1⟩, ⟨%d2, H2⟩, ⟨%d3, H3⟩⟩
        iapply ((runE (F := F) c (grid1.coords t) (ms0 t) (hs0 t) (ms1 t) (hs1 t) (ms2 t) (hs2 t) (ms3 t) (hs3 t) scM (Memref.isWhole_whole _) scL (Memref.isWhole_whole _) scA (Memref.isWhole_whole _) h1 h2 h3 (iblk V c 0 t) (iblk V c 1 t) (iblk V c 2 t) _ _ _).down _ Set.univ _)
        isplitl [H0]; · iexact H0
        isplitl [H1]; · iexact H1
        isplitl [H2]; · iexact H2
        isplitl [H3]; · iexact H3
        isplitl [HM]; · iexact HM
        isplitl [HL]; · iexact HL
        isplitl [HA]; · iexact HA
        iintro ⟨H0, H1, H2, H3, HM, HL, HA⟩
        isplitl [HO HM HL HA Hg]
        · isplitl [HO]; · iexact HO
          isplitl [HM]; · iexact HM
          isplitl [HL]; · iexact HL
          isplitl [HA]; · iexact HA
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body V c t

/-! ## The invariant at the region's two ends -/

theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl]
  exact (PhiS_any V c _ _).trans (PhiA_join c)

end

end Cert.KernelIdeal.R1

end
-- ==== Proof.Run.lean ====
/-
  The whole run of the program: four segments — the reshape and the three weight conversions, the projection region,
  the three reshapes, the attention region — from the launch to the return.

  The buffers' contents at each boundary are a fold from the launch memory: a host stretch applies its operations; a
  region leaves its windows' arrays at what its write-backs wrote and every other buffer as it was. Every weakly fair
  execution terminates, and the final memory is the last boundary's contents: the arguments as launched, the result
  at what the attention region's write-backs left.
-/
import proofs.«165543_j62113817035141_2_alg».proof.Proof.Region0
import proofs.«165543_j62113817035141_2_alg».proof.Proof.R1Body
import proofs.«165543_j62113817035141_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit. -/
def W2 (c : Dev nD) : Valuation τ sig (Elt F) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (R1.dat1 (V3 m ρ) c).arrAt w cfg1.N
theorem W4_arr (c : Dev nD) (w : Fin cfg1.W) :
    W4 m ρ c (Proc.devRef .tc (Pipeline.arrRef spec1 w)) = (R1.dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (R1.dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer that no host operation writes and no region stages reaches the end as launched. -/
theorem W4_untouched (c : Dev nD) (r : Ref sig .tc) (h0 : r ∉ hostOps0_W) (h1 : r ∉ hostOps1_W)
    (hw0 : ∀ w, Pipeline.arrRef spec0 w ≠ r) (hw1 : ∀ w, Pipeline.arrRef spec1 w ≠ r) :
    W4 m ρ c (Proc.devRef .tc r) = m ((c : Thread nD τ).loc r) :=
  calc W4 m ρ c (Proc.devRef .tc r)
    _ = W3 m ρ c (Proc.devRef .tc r) := W4_of_ne m ρ c r hw1
    _ = W2 m ρ c (Proc.devRef .tc r) := StableHlo.after_of_writes_sub hostOps1 _ hostOps1_writes h1
    _ = W1 m ρ c (Proc.devRef .tc r) := W2_of_ne m ρ c r hw0
    _ = W0 m ρ c (Proc.devRef .tc r) := StableHlo.after_of_writes_sub hostOps0 _ hostOps0_writes h0
    _ = m ((c : Thread nD τ).loc r) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => R0.dat0 (V1 m ρ) c
  | ⟨1, _⟩ => fun c => R1.dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region: entered from every unscoped buffer at the first host stretch's results, left with its three
    outputs at what its write-backs wrote. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at the second host stretch's results, left with the
    result at what its write-backs wrote. The running buffers enter the invariant at anything and are forgotten at the
    end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := R1.hin1 (V3 m ρ) c
    unfold Pipeline.ΦA at h
    rw [show (pdats m ρ 1 c).Φ 0 = (R1.dat1 (V3 m ρ) c).Φ 0 from rfl]
    iintro ⟨Hp, -, Hr⟩
    iapply h
    isplitl [Hr]; · iexact Hr
    iexact Hp
  hout c := by
    rw [Pipeline.ownSems0_none]
    have h := R1.hout1 (V3 m ρ) c
    unfold Pipeline.ΦA at h
    rw [show (pdats m ρ 1 c).Φ (Fin.last _) = (R1.dat1 (V3 m ρ) c).Φ (Fin.last cfg1.N) from rfl]
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution terminates, faulting nowhere, in a memory that holds every unscoped buffer at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every execution terminates and the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_untouched m ρ c main_arg0 (by decide) (by decide) (by decide) (by decide)),
     (h c _ (mem_uc main_arg1 (by decide))).trans (W4_untouched m ρ c main_arg1 (by decide) (by decide) (by decide) (by decide)),
     (h c _ (mem_uc main_arg2 (by decide))).trans (W4_untouched m ρ c main_arg2 (by decide) (by decide) (by decide) (by decide)),
     (h c _ (mem_uc main_arg3 (by decide))).trans (W4_untouched m ρ c main_arg3 (by decide) (by decide) (by decide) (by decide))⟩)
    (run_all m ρ)

/-- The same run with the result named: what the attention region's write-backs leave in the result array. -/
theorem run_value : θ_run defs (onTc (τ := τ) (main (F := F))) ⟨m, fun _ => 0, ρ⟩ (fun r => ∀ c : Dev nD,
      r.2.mem ((c.tc : Thread nD τ).loc main_v8) = (R1.dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v8 (by decide))).trans (W4_arr m ρ c 3),
     (h c _ (mem_uc main_arg0 (by decide))).trans (W4_untouched m ρ c main_arg0 (by decide) (by decide) (by decide) (by decide)),
     (h c _ (mem_uc main_arg1 (by decide))).trans (W4_untouched m ρ c main_arg1 (by decide) (by decide) (by decide) (by decide)),
     (h c _ (mem_uc main_arg2 (by decide))).trans (W4_untouched m ρ c main_arg2 (by decide) (by decide) (by decide) (by decide)),
     (h c _ (mem_uc main_arg3 (by decide))).trans (W4_untouched m ρ c main_arg3 (by decide) (by decide) (by decide) (by decide))⟩)
    (run_all m ρ)

end Cert.KernelIdeal.Run

end
-- ==== Proof.Spec.lean ====
/-
  Causal single-head attention, stated once over plain coordinates on the extended reals.

  Inputs: activations x (batch, position, channel) and three projection matrices. Queries, keys and
  values are the three matrix products; the score of position t against position s is the scaled inner
  product of query t with key s, kept when s ≤ t and replaced by -∞ otherwise; each row of scores goes
  through a softmax (subtract the row maximum, exponentiate, divide by the row total) and the result
  is the softmax-weighted sum of the value rows.

  Beside it stands the tiled ("online") form of the same row: keys are visited in tiles of 512, and a
  running maximum m, a running total l and a running weighted sum a are rescaled by exp (m - m') each
  time the maximum moves; the row's result is a / l after the last tile that can hold an unmasked key.
-/
import Idealize.ShloMosaic.PureOps.Ideal

noncomputable section

namespace Attn

open Idealize.ShloMosaic

/-- A matrix product with the activations: Σ_c x[b,t,c] · w[c,d]. -/
def proj (x : Fin 8 → Fin 2048 → Fin 2048 → EReal) (w : Fin 2048 → Fin 128 → EReal)
    (b : Fin 8) (t : Fin 2048) (d : Fin 128) : EReal :=
  ∑ c : Fin 2048, x b t c * w c d

/-- The score scale, the single-precision word both programs carry (about 1/√128). -/
def scale : EReal := Ideal.ofBits .f32 0x3DB504F3#32

/-- The scaled score of query row t against key row s. -/
def score (q k : Fin 8 → Fin 2048 → Fin 128 → EReal) (b : Fin 8) (t s : Fin 2048) : EReal :=
  (∑ d : Fin 128, q b t d * k b s d) * scale

/-- The causal row of scores, as a function on ℕ: the score where s ≤ t, -∞ elsewhere
    (and -∞ beyond the sequence). -/
def row (q k : Fin 8 → Fin 2048 → Fin 128 → EReal) (b : Fin 8) (t : Fin 2048) (s : ℕ) : EReal :=
  if h : s < 2048 then (if s ≤ t.val then score q k b t ⟨s, h⟩ else ⊥) else ⊥

/-- A column of values, as a function on ℕ (0 beyond the sequence). -/
def col (v : Fin 8 → Fin 2048 → Fin 128 → EReal) (b : Fin 8) (d : Fin 128) (s : ℕ) : EReal :=
  if h : s < 2048 then v b ⟨s, h⟩ d else 0

/-- The row maximum (the supremum of the 2048 scores; -∞ is the bottom). -/
def rowMax (σ : ℕ → EReal) : EReal := Finset.univ.sup fun s : Fin 2048 => σ s.val

/-- The softmax-weighted sum of u along a row of scores σ. -/
def softmaxSum (σ u : ℕ → EReal) : EReal :=
  ∑ s : Fin 2048, Ideal.div (Ideal.exp (σ s.val - rowMax σ)) (∑ s' : Fin 2048, Ideal.exp (σ s'.val - rowMax σ)) * u s.val

/-- Causal attention at one output entry. -/
def attn (x : Fin 8 → Fin 2048 → Fin 2048 → EReal) (wq wk wv : Fin 2048 → Fin 128 → EReal)
    (b : Fin 8) (t : Fin 2048) (d : Fin 128) : EReal :=
  softmaxSum (row (proj x wq) (proj x wk) b t) (col (proj x wv) b d)

/-- The tiled form: the running (maximum, total, weighted sum) after the first n tiles of 512 keys. -/
def online (σ u : ℕ → EReal) : ℕ → EReal × EReal × EReal
  | 0 => (⊥, 0, 0)
  | n + 1 =>
    let m := (online σ u n).1
    let l := (online σ u n).2.1
    let a := (online σ u n).2.2
    let m' := max m (Finset.univ.sup fun j : Fin 512 => σ (n * 512 + j.val))
    let α := Ideal.exp (m - m')
    (m', α * l + ∑ j : Fin 512, Ideal.exp (σ (n * 512 + j.val) - m'),
      α * a + ∑ j : Fin 512, Ideal.exp (σ (n * 512 + j.val) - m') * u (n * 512 + j.val))

/-- The tiled form's result after n tiles: weighted sum over total. -/
def onlineOut (σ u : ℕ → EReal) (n : ℕ) : EReal :=
  Ideal.div (online σ u n).2.2 (online σ u n).2.1

end Attn

end
-- ==== Proof.RefAttn.lean ====
/-
  The reference program read as the specification.

  The reference computes, for activations x (batch, position, channel) and three projection matrices,
  queries, keys and values as matrix products; the score of query position t against key position s is the
  inner product of query t with key s times a fixed scale word; positions s > t are replaced by -∞ (the
  mask is the lower triangle: row position ≥ column position, compared as signed 32-bit words, which on
  positions below 2048 is the order of the naturals); each row is shifted by its maximum (a fold of max
  from -∞ over the 2048 keys, i.e. the supremum of the row; the further maximum with -∞ changes nothing),
  exponentiated, divided by the row's total (0 + Σ = Σ), and the result is the weighted sum of the value
  rows. Read operation by operation at one index (b, t, d) this is exactly `Attn.attn` of the arguments
  taken by coordinates; no finiteness is used, every step is the definition of the exact operation.
-/
import proofs.«165543_j62113817035141_2_alg».proof.Proof.Gen.ReferenceIdeal.Read
import proofs.«165543_j62113817035141_2_alg».proof.Proof.Spec

noncomputable section

namespace Cert.ReferenceIdeal.RefAttn

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## Index bookkeeping: the generated index maps at coordinates -/

theorem lidx0 (b : Fin 8) (t : Fin 2048) (d : Fin 128) (c : Fin 2048) : lidx_main_v0 (ix3 b t d) c = ix3 b t c :=
  funext fun a => by match a with | ⟨0, _⟩ => rfl | ⟨1, _⟩ => rfl | ⟨2, _⟩ => rfl
theorem ridx0 (b : Fin 8) (t : Fin 2048) (d : Fin 128) (c : Fin 2048) : ridx_main_v0 (ix3 b t d) c = ix2 c d :=
  funext fun a => by match a with | ⟨0, _⟩ => rfl | ⟨1, _⟩ => rfl
theorem lidx1 (b : Fin 8) (t : Fin 2048) (d : Fin 128) (c : Fin 2048) : lidx_main_v1 (ix3 b t d) c = ix3 b t c :=
  funext fun a => by match a with | ⟨0, _⟩ => rfl | ⟨1, _⟩ => rfl | ⟨2, _⟩ => rfl
theorem ridx1 (b : Fin 8) (t : Fin 2048) (d : Fin 128) (c : Fin 2048) : ridx_main_v1 (ix3 b t d) c = ix2 c d :=
  funext fun a => by match a with | ⟨0, _⟩ => rfl | ⟨1, _⟩ => rfl
theorem lidx2 (b : Fin 8) (t : Fin 2048) (d : Fin 128) (c : Fin 2048) : lidx_main_v2 (ix3 b t d) c = ix3 b t c :=
  funext fun a => by match a with | ⟨0, _⟩ => rfl | ⟨1, _⟩ => rfl | ⟨2, _⟩ => rfl
theorem ridx2 (b : Fin 8) (t : Fin 2048) (d : Fin 128) (c : Fin 2048) : ridx_main_v2 (ix3 b t d) c = ix2 c d :=
  funext fun a => by match a with | ⟨0, _⟩ => rfl | ⟨1, _⟩ => rfl
theorem lidx3 (b : Fin 8) (t s : Fin 2048) (k : Fin 128) : lidx_main_v3 (ix3 b t s) k = ix3 b t k :=
  funext fun a => by match a with | ⟨0, _⟩ => rfl | ⟨1, _⟩ => rfl | ⟨2, _⟩ => rfl
theorem ridx3 (b : Fin 8) (t s : Fin 2048) (k : Fin 128) : ridx_main_v3 (ix3 b t s) k = ix3 b s k :=
  funext fun a => by match a with | ⟨0, _⟩ => rfl | ⟨1, _⟩ => rfl | ⟨2, _⟩ => rfl
theorem lidx20 (b : Fin 8) (t : Fin 2048) (d : Fin 128) (s : Fin 2048) : lidx_main_v20 (ix3 b t d) s = ix3 b t s :=
  funext fun a => by match a with | ⟨0, _⟩ => rfl | ⟨1, _⟩ => rfl | ⟨2, _⟩ => rfl
theorem ridx20 (b : Fin 8) (t : Fin 2048) (d : Fin 128) (s : Fin 2048) : ridx_main_v20 (ix3 b t d) s = ix3 b s d :=
  funext fun a => by match a with | ⟨0, _⟩ => rfl | ⟨1, _⟩ => rfl | ⟨2, _⟩ => rfl
theorem idxMask (b : Fin 8) (t s : Fin 2048) : idx_main_call1_v1 (ix3 b t s) = ix2 t s :=
  funext fun a => by match a with | ⟨0, _⟩ => rfl | ⟨1, _⟩ => rfl
theorem idxRow (b : Fin 8) (t s : Fin 2048) : idx_main_v12 (idx_main_v13 (ix3 b t s)) = ix2 b t :=
  funext fun a => by match a with | ⟨0, _⟩ => rfl | ⟨1, _⟩ => rfl
theorem idxRow' (b : Fin 8) (t s : Fin 2048) : idx_main_v17 (idx_main_v18 (ix3 b t s)) = ix2 b t :=
  funext fun a => by match a with | ⟨0, _⟩ => rfl | ⟨1, _⟩ => rfl
theorem idxSum (b : Fin 8) (t s : Fin 2048) : idx_main_v16 (ix2 b t) s = ix3 b t s :=
  funext fun a => by match a with | ⟨0, _⟩ => rfl | ⟨1, _⟩ => rfl | ⟨2, _⟩ => rfl

/-! ## The three projections -/

section
variable (x : FVec Ideal S8x2048x2048 .f32) (wq wk wv : FVec Ideal S2048x128 .f32)

/-- The activations by coordinates. -/
abbrev X : Fin 8 → Fin 2048 → Fin 2048 → EReal := fun b t c => x (ix3 b t c)
/-- A projection matrix by coordinates. -/
abbrev W (w : FVec Ideal S2048x128 .f32) : Fin 2048 → Fin 128 → EReal := fun c d => w (ix2 c d)

theorem q_apply (b : Fin 8) (t : Fin 2048) (d : Fin 128) :
    val_main_v0 (F := Ideal) x wq (ix3 b t d) = Attn.proj (X x) (W wq) b t d := by
  rw [val_main_v0_apply]
  exact Finset.sum_congr rfl fun c _ => by rw [lidx0, ridx0]
theorem k_apply (b : Fin 8) (t : Fin 2048) (d : Fin 128) :
    val_main_v1 (F := Ideal) x wk (ix3 b t d) = Attn.proj (X x) (W wk) b t d := by
  rw [val_main_v1_apply]
  exact Finset.sum_congr rfl fun c _ => by rw [lidx1, ridx1]
theorem v_apply (b : Fin 8) (t : Fin 2048) (d : Fin 128) :
    val_main_v2 (F := Ideal) x wv (ix3 b t d) = Attn.proj (X x) (W wv) b t d := by
  rw [val_main_v2_apply]
  exact Finset.sum_congr rfl fun c _ => by rw [lidx2, ridx2]

/-- The scaled score before masking. -/
theorem score_apply (b : Fin 8) (t s : Fin 2048) :
    val_main_v5 (F := Ideal) x wq wk (ix3 b t s)
      = Attn.score (Attn.proj (X x) (W wq)) (Attn.proj (X x) (W wk)) b t s := by
  rw [val_main_v5_apply, val_main_v3_apply, val_main_v4_apply, val_main_cst_apply]
  unfold Attn.score Attn.scale
  refine congrArg (· * _) (Finset.sum_congr rfl fun k _ => ?_)
  rw [lidx3, ridx3, q_apply, k_apply]

end

/-! ## The causal mask -/

/-- A position below 2048, as a 32-bit word read signed, is itself. -/
theorem toInt_pos (n : Nat) (hn : n < 2048) : (BitVec.ofNat 32 n).toInt = (n : Int) := by
  rw [BitVec.toInt_eq_toNat_cond, BitVec.toNat_ofNat]
  have h1 : n % 2 ^ 32 = n := Nat.mod_eq_of_lt (by omega)
  rw [h1, if_pos (by omega)]

/-- The mask's comparison word: row position (plus the zero offset) at least the column position. -/
theorem mask_word (t s : Fin 2048) :
    IntOp.cmpi .sge (IntOp.addi (BitVec.ofNat 32 t.val) 0#32) (BitVec.ofNat 32 s.val) = 1#1 ↔ s.val ≤ t.val := by
  rw [IntOp.cmpi_sge]
  unfold IntOp.addi
  rw [BitVec.add_zero, toInt_pos _ t.isLt, toInt_pos _ s.isLt]
  exact Int.ofNat_le

/-- The mask at (b, t, s): the bit of s ≤ t. -/
theorem mask_apply (b : Fin 8) (t s : Fin 2048) :
    val_main_call1_v1 (F := Ideal) (ix3 b t s) = if s.val ≤ t.val then 1#1 else 0#1 := by
  rw [val_main_call1_v1_apply, idxMask, val_main_v7_apply, val_main_call0_v4_apply, val_main_call0_v2_apply,
    val_main_call0_v0_apply, val_main_call0_v1_apply, val_main_call0_c_apply, val_main_call0_v3_apply,
    val_main_v6_apply, val_main_c_apply, val_main_call0_v5_apply, val_main_call0_c_0_apply]
  show Scalar.select (IntOp.cmpi .sge (IntOp.addi (BitVec.ofNat 32 t.val) 0#32) (BitVec.ofNat 32 s.val)) 1#1 0#1 = _
  by_cases h : s.val ≤ t.val
  · rw [if_pos h, (mask_word t s).mpr h, select_one]
  · rw [if_neg h, eq_zero_of_ne_one (mt (mask_word t s).mp h), select_zero]

/-- The word 0xFF800000 is -∞. -/
theorem negInf : Ideal.ofBits .f32 0xFF800000#32 = (⊥ : EReal) := by simp [Ideal.ofBits, Ideal.ieee]

section
variable (x : FVec Ideal S8x2048x2048 .f32) (wq wk wv : FVec Ideal S2048x128 .f32)

/-- The causal row of scores the reference works on. -/
abbrev σ (b : Fin 8) (t : Fin 2048) : ℕ → EReal := Attn.row (Attn.proj (X x) (W wq)) (Attn.proj (X x) (W wk)) b t

/-- The masked score at (b, t, s). -/
theorem row_apply (b : Fin 8) (t s : Fin 2048) :
    val_main_v8 (F := Ideal) x wq wk (ix3 b t s) = σ x wq wk b t s.val := by
  rw [val_main_v8_apply, mask_apply, score_apply, val_main_call1_v2_apply, val_main_call1_v0_apply, val_main_cst_0_apply,
    Ideal.ofBits_def, negInf]
  unfold σ Attn.row
  rw [dif_pos s.isLt]
  by_cases h : s.val ≤ t.val
  · rw [if_pos h, if_pos h, select_one]
  · rw [if_neg h, if_neg h, select_zero]

end

/-! ## The row maximum -/

/-- The reduction's shape fact, in the form the single-axis lemma takes. -/
theorem redFact : S8x2048x2048.Reduces [2] S8x2048 := by decide

/-- A row index with the key position put back on the last axis. -/
theorem lift_row (b : Fin 8) (t : Fin 2048) (k : Fin (S8x2048x2048.size 2)) :
    redFact.lift (ix2 b t) k = ix3 b t (⟨k.val, k.isLt⟩ : Fin 2048) := by
  funext c; apply Fin.ext
  match c with
  | ⟨0, _⟩ => rfl
  | ⟨1, _⟩ => rfl
  | ⟨2, _⟩ => rfl

/-- A fold of the ideal maximum from -∞ is the supremum. -/
theorem fold_max_eq_sup {n : Nat} (f : Fin n → EReal) :
    (Finset.univ : Finset (Fin n)).fold (FloatOps.maximumf (F := Ideal) (φ := .f32)) (⊥ : EReal) f = Finset.univ.sup f := rfl

section
variable (x : FVec Ideal S8x2048x2048 .f32) (wq wk wv : FVec Ideal S2048x128 .f32)

/-- The max-reduce over the key axis at (b, t): the supremum of the row. -/
theorem max_apply (b : Fin 8) (t : Fin 2048) :
    val_main_v9 (F := Ideal) x wq wk (ix2 b t) = Attn.rowMax (σ x wq wk b t) := by
  unfold val_main_v9
  rw [Host.reduce_eq_fold_single FloatOps.maximumf _ _ reducesTo_S8x2048x2048_S8x2048_d2 redFact h_S_,
    val_main_cst_1_apply, Ideal.ofBits_def, negInf]
  have hf : (val_main_v8 (F := Ideal) x wq wk ∘ redFact.lift (ix2 b t)) = fun k : Fin 2048 => σ x wq wk b t k.val :=
    funext fun k => by
      show val_main_v8 (F := Ideal) x wq wk (redFact.lift (ix2 b t) k) = _
      rw [lift_row]
      exact row_apply x wq wk b t ⟨k.val, k.isLt⟩
  rw [hf]
  exact fold_max_eq_sup (n := 2048) _

end

/-! ## The softmax and the weighted sum -/

section
variable (x : FVec Ideal S8x2048x2048 .f32) (wq wk wv : FVec Ideal S2048x128 .f32)

/-- The exponentiated shifted score at (b, t, s). -/
theorem exp_apply (b : Fin 8) (t s : Fin 2048) :
    val_main_v15 (F := Ideal) x wq wk (ix3 b t s)
      = Ideal.exp (σ x wq wk b t s.val - Attn.rowMax (σ x wq wk b t)) := by
  rw [val_main_v15_apply, val_main_v14_apply, row_apply, val_main_v13_apply, val_main_v12_apply, idxRow,
    val_main_v11_apply, val_main_v10_apply, val_main_cst_2_apply, max_apply, Ideal.ofBits_def, negInf,
    Ideal.hostUnary_exp_def, Ideal.subf_def, Ideal.maximumf_def, max_bot_left]

/-- The row total at (b, t). -/
theorem total_apply (b : Fin 8) (t : Fin 2048) :
    val_main_v16 (F := Ideal) x wq wk (ix2 b t)
      = ∑ s : Fin 2048, Ideal.exp (σ x wq wk b t s.val - Attn.rowMax (σ x wq wk b t)) := by
  rw [val_main_v16_apply, val_main_cst_3_apply, Ideal.ofBits_def, Ideal.ofBits_zero_f32, zero_add]
  exact Finset.sum_congr rfl fun s _ => by rw [idxSum, exp_apply]

/-- The softmax weight at (b, t, s). -/
theorem weight_apply (b : Fin 8) (t s : Fin 2048) :
    val_main_v19 (F := Ideal) x wq wk (ix3 b t s)
      = Ideal.div (Ideal.exp (σ x wq wk b t s.val - Attn.rowMax (σ x wq wk b t)))
          (∑ s' : Fin 2048, Ideal.exp (σ x wq wk b t s'.val - Attn.rowMax (σ x wq wk b t))) := by
  rw [val_main_v19_apply, exp_apply, val_main_v18_apply, val_main_v17_apply, idxRow', total_apply, Ideal.hostDivf_def]

/-- The reference's result as one function of the four argument arrays: the last stage of the
    program read back operation by operation. -/
def refTerm (x : FVec Ideal S8x2048x2048 .f32) (wq wk wv : FVec Ideal S2048x128 .f32) : FVec Ideal S8x2048x128 .f32 :=
  val_main_v20 (F := Ideal) x wq wk wv

/-- Entry (b, t, d) of the reference's result is causal attention at that entry. -/
theorem refTerm_apply (b : Fin 8) (t : Fin 2048) (d : Fin 128) :
    refTerm x wq wk wv (ix3 b t d)
      = Attn.attn (fun b t c => x (ix3 b t c)) (fun c d => wq (ix2 c d)) (fun c d => wk (ix2 c d))
          (fun c d => wv (ix2 c d)) b t d := by
  unfold refTerm
  rw [val_main_v20_apply]
  unfold Attn.attn Attn.softmaxSum
  refine Finset.sum_congr rfl fun s _ => ?_
  rw [lidx20, ridx20, weight_apply, v_apply]
  unfold Attn.col
  rw [dif_pos s.isLt]

end

/-- Every execution of the reference ends with its result buffer at `refTerm` of the four argument
    arrays, the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20)
          = refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v20_eq (F := Ideal) m c), (h c).2⟩)
    (Cert.ReferenceIdeal.Value.run (F := Ideal) m ρ)

end Cert.ReferenceIdeal.RefAttn

end
-- ==== Proof.HostGlue.lean ====
/-
  The host operations around the two kernel regions, read index by index.

  Before the first region the activations [8, 2048, 2048] are viewed as [16384, 2048] (same row-major
  order: row b·2048 + s of the flat array is position s of batch b) and the three projection matrices
  change float format, which on the extended reals is the identity. After the first region the three
  [16384, 128] results are viewed back as [8, 2048, 128]. Every other buffer is untouched.
-/
import proofs.«165543_j62113817035141_2_alg».proof.Proof.Gen.KernelIdeal.Launch
import proofs.«165543_j62113817035141_2_alg».proof.Proof.Gen.KernelIdeal.Regions
import Idealize.ShloMosaic.Lib.Pipeline.Value
import Idealize.ShloMosaic.Lib.ValueIdx

noncomputable section

namespace Cert.KernelIdeal.Glue

open Cert.KernelIdeal Cert.KernelIdeal.Gen Idealize.ShloMosaic Idealize.ShloMosaic.TcCoe Idealize.SL.Sem
  Idealize.ShloMosaic.StableHlo Idealize.ShloMosaic.ValueIdx

variable (W : Valuation τ sig (Elt Ideal))

/-- An [8, 2048, 2048] array viewed as [16384, 2048]: row b·2048 + s, column c is entry (b, s, c). -/
theorem flatten_apply (x : FVec Ideal S8x2048x2048 .f32) (b : Fin 8) (s c : Fin 2048) :
    shapeCast S16384x2048 x shapeCasts_S8x2048x2048_S16384x2048 (ix2 (⟨b.val * 2048 + s.val, by omega⟩ : Fin 16384) c)
      = x (ix3 b s c) := by
  refine shapeCast_apply _ _ _ _ ?_
  rw [Shape.rowMajor_val_three, Shape.rowMajor_val_two]
  rfl

/-- The flat activations: row b·2048 + s, column c is the activations at (b, s, c). -/
theorem v0_apply (b : Fin 8) (s c : Fin 2048) :
    (StableHlo.after (hostOps0 (F := Ideal)) W (Proc.devRef .tc main_v0) : FVec Ideal S16384x2048 .f32)
        (ix2 (⟨b.val * 2048 + s.val, by omega⟩ : Fin 16384) c)
      = (W (Proc.devRef .tc main_arg0) : FVec Ideal S8x2048x2048 .f32) (ix3 b s c) := by
  have e : (StableHlo.after (hostOps0 (F := Ideal)) W (Proc.devRef .tc main_v0) : FVec Ideal S16384x2048 .f32)
      = shapeCast S16384x2048 (W (Proc.devRef .tc main_arg0) : FVec Ideal S8x2048x2048 .f32)
          shapeCasts_S8x2048x2048_S16384x2048 := by
    after_results; rfl
  rw [e]; exact flatten_apply _ b s c

/-- The first projection matrix after its format change is itself. -/
theorem v1_apply (c : Fin 2048) (d : Fin 128) :
    (StableHlo.after (hostOps0 (F := Ideal)) W (Proc.devRef .tc main_v1) : FVec Ideal S2048x128 .bf16) (ix2 c d)
      = (W (Proc.devRef .tc main_arg1) : FVec Ideal S2048x128 .f32) (ix2 c d) := by
  have e : @Eq (FVec Ideal S2048x128 .bf16) (StableHlo.after (hostOps0 (F := Ideal)) W (Proc.devRef .tc main_v1))
      (truncf (F := Ideal) (s := S2048x128) .bf16 (W (Proc.devRef .tc main_arg1)) bitsLt_bf16_f32) := by
    after_results
  rw [e]; rfl
/-- The second projection matrix after its format change is itself. -/
theorem v2_apply (c : Fin 2048) (d : Fin 128) :
    (StableHlo.after (hostOps0 (F := Ideal)) W (Proc.devRef .tc main_v2) : FVec Ideal S2048x128 .bf16) (ix2 c d)
      = (W (Proc.devRef .tc main_arg2) : FVec Ideal S2048x128 .f32) (ix2 c d) := by
  have e : @Eq (FVec Ideal S2048x128 .bf16) (StableHlo.after (hostOps0 (F := Ideal)) W (Proc.devRef .tc main_v2))
      (truncf (F := Ideal) (s := S2048x128) .bf16 (W (Proc.devRef .tc main_arg2)) bitsLt_bf16_f32) := by
    after_results
  rw [e]; rfl
/-- The third projection matrix after its format change is itself. -/
theorem v3_apply (c : Fin 2048) (d : Fin 128) :
    (StableHlo.after (hostOps0 (F := Ideal)) W (Proc.devRef .tc main_v3) : FVec Ideal S2048x128 .bf16) (ix2 c d)
      = (W (Proc.devRef .tc main_arg3) : FVec Ideal S2048x128 .f32) (ix2 c d) := by
  have e : @Eq (FVec Ideal S2048x128 .bf16) (StableHlo.after (hostOps0 (F := Ideal)) W (Proc.devRef .tc main_v3))
      (truncf (F := Ideal) (s := S2048x128) .bf16 (W (Proc.devRef .tc main_arg3)) bitsLt_bf16_f32) := by
    after_results
  rw [e]; rfl

/-- The first stretch of host operations leaves every buffer it does not write as it was. -/
theorem other0 (r : Ref sig .tc) (h : r ∉ hostOps0_W) :
    StableHlo.after (hostOps0 (F := Ideal)) W (Proc.devRef .tc r) = W (Proc.devRef .tc r) :=
  StableHlo.after_of_writes_sub hostOps0 W hostOps0_writes h

/-- The second stretch leaves every buffer it does not write as it was. -/
theorem other1 (r : Ref sig .tc) (h : r ∉ hostOps1_W) :
    StableHlo.after (hostOps1 (F := Ideal)) W (Proc.devRef .tc r) = W (Proc.devRef .tc r) :=
  StableHlo.after_of_writes_sub hostOps1 W hostOps1_writes h

/-- A [16384, 128] array viewed as [8, 2048, 128]: entry (b, s, d) is row b·2048 + s, column d. -/
theorem unflatten_apply (x : FVec Ideal S16384x128 .bf16) (b : Fin 8) (s : Fin 2048) (d : Fin 128) :
    shapeCast S8x2048x128 x shapeCasts_S16384x128_S8x2048x128 (ix3 b s d)
      = x (ix2 (⟨b.val * 2048 + s.val, by omega⟩ : Fin 16384) d) := by
  refine shapeCast_apply _ _ _ _ ?_
  rw [Shape.rowMajor_val_three, Shape.rowMajor_val_two]
  rfl

/-- The first region's first result viewed by (batch, position, feature). -/
theorem v5_apply (b : Fin 8) (s : Fin 2048) (d : Fin 128) :
    (StableHlo.after (hostOps1 (F := Ideal)) W (Proc.devRef .tc main_v5) : FVec Ideal S8x2048x128 .bf16) (ix3 b s d)
      = (W (Proc.devRef .tc main_v4_0) : FVec Ideal S16384x128 .bf16) (ix2 (⟨b.val * 2048 + s.val, by omega⟩ : Fin 16384) d) := by
  have e : (StableHlo.after (hostOps1 (F := Ideal)) W (Proc.devRef .tc main_v5) : FVec Ideal S8x2048x128 .bf16)
      = shapeCast S8x2048x128 (W (Proc.devRef .tc main_v4_0) : FVec Ideal S16384x128 .bf16)
          shapeCasts_S16384x128_S8x2048x128 := by
    after_results; rfl
  rw [e]; exact unflatten_apply _ b s d
/-- The first region's second result viewed by (batch, position, feature). -/
theorem v6_apply (b : Fin 8) (s : Fin 2048) (d : Fin 128) :
    (StableHlo.after (hostOps1 (F := Ideal)) W (Proc.devRef .tc main_v6) : FVec Ideal S8x2048x128 .bf16) (ix3 b s d)
      = (W (Proc.devRef .tc main_v4_1) : FVec Ideal S16384x128 .bf16) (ix2 (⟨b.val * 2048 + s.val, by omega⟩ : Fin 16384) d) := by
  have e : (StableHlo.after (hostOps1 (F := Ideal)) W (Proc.devRef .tc main_v6) : FVec Ideal S8x2048x128 .bf16)
      = shapeCast S8x2048x128 (W (Proc.devRef .tc main_v4_1) : FVec Ideal S16384x128 .bf16)
          shapeCasts_S16384x128_S8x2048x128 := by
    after_results; rfl
  rw [e]; exact unflatten_apply _ b s d
/-- The first region's third result viewed by (batch, position, feature). -/
theorem v7_apply (b : Fin 8) (s : Fin 2048) (d : Fin 128) :
    (StableHlo.after (hostOps1 (F := Ideal)) W (Proc.devRef .tc main_v7) : FVec Ideal S8x2048x128 .bf16) (ix3 b s d)
      = (W (Proc.devRef .tc main_v4_2) : FVec Ideal S16384x128 .bf16) (ix2 (⟨b.val * 2048 + s.val, by omega⟩ : Fin 16384) d) := by
  have e : (StableHlo.after (hostOps1 (F := Ideal)) W (Proc.devRef .tc main_v7) : FVec Ideal S8x2048x128 .bf16)
      = shapeCast S8x2048x128 (W (Proc.devRef .tc main_v4_2) : FVec Ideal S16384x128 .bf16)
          shapeCasts_S16384x128_S8x2048x128 := by
    after_results; rfl
  rw [e]; exact unflatten_apply _ b s d

end Cert.KernelIdeal.Glue

end
-- ==== Proof.Region0Value.lean ====
/-
  The projection region's three outputs on the extended reals: each output array, after the region,
  is the matrix product of the activations the region was entered with and one weight matrix.

  A block product at an output index is the sum over the 2048 contraction coordinates of the
  operands' products (the rounding steps around it are the identity on the extended reals and the
  accumulator is zero); point t's block of the output is rows 1024·t … 1024·t + 1023 of the product,
  because point t's activation block is those rows and each weight matrix is loaded whole; the
  sixteen blocks tile the output array.
-/
import proofs.«165543_j62113817035141_2_alg».proof.Proof.Region0
import Idealize.ShloMosaic.PureOps.Ideal.Laws
import Idealize.ShloMosaic.Lib.ValueIdx
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.SL.Sem
open Idealize.ShloMosaic.ValueIdx
open Idealize.ShloMosaic.Pipeline (Dat)

/-! ## The block product at an index -/

/-- The left operand's index at output (p, ·) and contraction coordinate k: row p, -/
theorem dotL_0 (j : S1024x128.Idx) (q : dot_S1024x2048_S2048x128_S1024x128_1_0_0_1_n_n.contr.Idx) :
    (dot_S1024x2048_S2048x128_S1024x128_1_0_0_1_n_n.lhsIdx j q 0).val = (j 0).val := by
  unfold DotDims.lhsIdx
  rw [dif_neg (show ¬(0 : Fin S1024x2048.rank) ∈ dot_S1024x2048_S2048x128_S1024x128_1_0_0_1_n_n.lhsBatch by decide),
    dif_pos (show (0 : Fin S1024x2048.rank) ∈ dot_S1024x2048_S2048x128_S1024x128_1_0_0_1_n_n.lhsNonContracting by decide)]
  rfl
/-- column k; -/
theorem dotL_1 (j : S1024x128.Idx) (q : dot_S1024x2048_S2048x128_S1024x128_1_0_0_1_n_n.contr.Idx) :
    (dot_S1024x2048_S2048x128_S1024x128_1_0_0_1_n_n.lhsIdx j q 1).val = (q ⟨0, by decide⟩).val :=
  dot_S1024x2048_S2048x128_S1024x128_1_0_0_1_n_n.lhsIdx_val_of_single rfl j q
/-- the right operand's: row k, -/
theorem dotR_0 (j : S1024x128.Idx) (q : dot_S1024x2048_S2048x128_S1024x128_1_0_0_1_n_n.contr.Idx) :
    (dot_S1024x2048_S2048x128_S1024x128_1_0_0_1_n_n.rhsIdx j q 0).val = (q ⟨0, by decide⟩).val :=
  dot_S1024x2048_S2048x128_S1024x128_1_0_0_1_n_n.rhsIdx_val_of_single rfl j q
/-- column (·, d). -/
theorem dotR_1 (j : S1024x128.Idx) (q : dot_S1024x2048_S2048x128_S1024x128_1_0_0_1_n_n.contr.Idx) :
    (dot_S1024x2048_S2048x128_S1024x128_1_0_0_1_n_n.rhsIdx j q 1).val = (j 1).val := by
  unfold DotDims.rhsIdx
  rw [dif_neg (show ¬(1 : Fin S2048x128.rank) ∈ dot_S1024x2048_S2048x128_S1024x128_1_0_0_1_n_n.rhsBatch by decide),
    dif_pos (show (1 : Fin S2048x128.rank) ∈ dot_S1024x2048_S2048x128_S1024x128_1_0_0_1_n_n.rhsNonContracting by decide)]
  rfl

/-- A 1024×2048 by 2048×128 block product into the zero accumulator, at entry (p, d): the sum over
    the contraction coordinate of the operands' products. -/
theorem blockProduct_apply (a : FVec Ideal S1024x2048 .bf16) (b : FVec Ideal S2048x128 .bf16)
    (p : Fin 1024) (d : Fin 128) :
    matmul dot_S1024x2048_S2048x128_S1024x128_1_0_0_1_n_n none a b
        (constant (F := Ideal) S1024x128 .f32 0x00000000#32) (ix2 p d)
      = ∑ k : Fin 2048, a (ix2 p k) * b (ix2 k d) := by
  simp only [matmul]
  rw [Ideal.matmul_constant_zero_apply,
    ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 p d)
      ((contrEquiv1 dot_S1024x2048_S2048x128_S1024x128_1_0_0_1_n_n 2048 rfl rfl).symm k) = ix2 p k :=
    funext fun a => Fin.ext (by
      match a with
      | ⟨0, _⟩ => exact dotL_0 _ _
      | ⟨1, _⟩ => exact (dotL_1 _ _).trans hk)
  have er : dot_S1024x2048_S2048x128_S1024x128_1_0_0_1_n_n.rhsIdx (ix2 p d)
      ((contrEquiv1 dot_S1024x2048_S2048x128_S1024x128_1_0_0_1_n_n 2048 rfl rfl).symm k) = ix2 k d :=
    funext fun a => Fin.ext (by
      match a with
      | ⟨0, _⟩ => exact (dotR_0 _ _).trans hk
      | ⟨1, _⟩ => exact dotR_1 _ _)
  rw [el, er]

/-- The three payloads at entry (p, d): the rounding steps and the casts are the identity. -/
theorem pay2_apply (x : FVec Ideal S1024x2048 .f32) (w : FVec Ideal S2048x128 .bf16) (p : Fin 1024) (d : Fin 128) :
    k0_pay2 (F := Ideal) x w (ix2 p d) = ∑ k : Fin 2048, x (ix2 p k) * w (ix2 k d) := by
  unfold k0_pay2 k0_pay1
  refine (blockProduct_apply _ _ p d).trans ?_
  simp only [shapeCast_self]
  rfl
theorem pay3_apply (x : FVec Ideal S1024x2048 .f32) (w : FVec Ideal S2048x128 .bf16) (p : Fin 1024) (d : Fin 128) :
    k0_pay3 (F := Ideal) x w (ix2 p d) = ∑ k : Fin 2048, x (ix2 p k) * w (ix2 k d) := by
  unfold k0_pay3 k0_pay1
  refine (blockProduct_apply _ _ p d).trans ?_
  simp only [shapeCast_self]
  rfl
theorem pay4_apply (x : FVec Ideal S1024x2048 .f32) (w : FVec Ideal S2048x128 .bf16) (p : Fin 1024) (d : Fin 128) :
    k0_pay4 (F := Ideal) x w (ix2 p d) = ∑ k : Fin 2048, x (ix2 p k) * w (ix2 k d) := by
  unfold k0_pay4 k0_pay1
  refine (blockProduct_apply _ _ p d).trans ?_
  simp only [shapeCast_self]
  rfl

/-! ## From blocks to arrays -/

-- the buffer contents of each core when the region is entered, on the extended reals
variable (V : (c : Dev nD) → (b : Ref sig .tc) → Buf (Elt Ideal) ((c : Thread nD τ).loc b))

/-- A float buffer's contents read as a function into the extended reals: the identity, written to
    fix the type a sum or a product is taken at. -/
abbrev asReal {S : Shape} (f : S.Idx → EReal) : S.Idx → EReal := f

/-- The matrix product of a 16384×2048 array with a 2048×128 one, entry by entry. -/
def matProd (X : S16384x2048.Idx → EReal) (W : S2048x128.Idx → EReal) : S16384x128.Idx → EReal :=
  fun i => ∑ k : Fin 2048, X (ix2 (⟨(i 0).val, idx2_lt0 i⟩ : Fin 16384) k) * W (ix2 k (⟨(i 1).val, idx2_lt1 i⟩ : Fin 128))

theorem matProd_apply (X : S16384x2048.Idx → EReal) (W : S2048x128.Idx → EReal) (r : Fin 16384) (d : Fin 128) :
    matProd X W (ix2 r d) = ∑ k : Fin 2048, X (ix2 r k) * W (ix2 k d) := rfl

/-- The block indices of the seven windows at grid point t, decided over the sixteen points: the
    activation window and the three output windows are at row block t, the weights at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Point t's activation block is rows 1024·t … 1024·t + 1023 of the activations. -/
theorem xblock_apply (c : Dev nD) (t : Fin cfg0.N) (y : S1024x2048.Idx) (i : S16384x2048.Idx)
    (h0 : (i 0).val = 1024 * t.val + (y 0).val) (h1 : (i 1).val = (y 1).val) :
    (iblk0 V c 0 t : Vec Ideal S1024x2048 .f32) y = (V c main_v0 : S16384x2048.Idx → EReal) i := by
  obtain ⟨e0, e1, -⟩ := block_indices t
  unfold iblk0
  rw [View.read_apply]
  show V c main_v0 _ = V c main_v0 _
  refine congrArg _ ?_
  funext a
  apply Fin.ext
  match a with
  | ⟨0, _⟩ => show win0_0.index t (0 : Fin 2) * 1024 + 1 * (y 0).val = (i 0).val; rw [e0, h0]; omega
  | ⟨1, _⟩ => show win0_0.index t (1 : Fin 2) * 2048 + 1 * (y 1).val = (i 1).val; rw [e1, h1]; omega

/-- Point t's block of weight window 1 is the whole weight matrix. -/
theorem wblock1_apply (c : Dev nD) (t : Fin cfg0.N) (y : S2048x128.Idx) :
    (iblk0 V c 1 t : Vec Ideal S2048x128 .bf16) y = (V c main_v1 : S2048x128.Idx → EReal) y := by
  obtain ⟨-, -, e10, e11, e20, e21, e30, e31, -⟩ := block_indices t
  unfold iblk0
  rw [View.read_apply]
  show V c main_v1 _ = V c main_v1 _
  refine congrArg _ ?_
  funext a
  apply Fin.ext
  match a with
  | ⟨0, _⟩ => show win0_1.index t (0 : Fin 2) * 2048 + 1 * (y 0).val = (y 0).val; rw [e10]; omega
  | ⟨1, _⟩ => show win0_1.index t (1 : Fin 2) * 128 + 1 * (y 1).val = (y 1).val; rw [e11]; omega

/-- Point t's block of weight window 2 is the whole weight matrix. -/
theorem wblock2_apply (c : Dev nD) (t : Fin cfg0.N) (y : S2048x128.Idx) :
    (iblk0 V c 2 t : Vec Ideal S2048x128 .bf16) y = (V c main_v2 : S2048x128.Idx → EReal) y := by
  obtain ⟨-, -, e10, e11, e20, e21, e30, e31, -⟩ := block_indices t
  unfold iblk0
  rw [View.read_apply]
  show V c main_v2 _ = V c main_v2 _
  refine congrArg _ ?_
  funext a
  apply Fin.ext
  match a with
  | ⟨0, _⟩ => show win0_2.index t (0 : Fin 2) * 2048 + 1 * (y 0).val = (y 0).val; rw [e20]; omega
  | ⟨1, _⟩ => show win0_2.index t (1 : Fin 2) * 128 + 1 * (y 1).val = (y 1).val; rw [e21]; omega

/-- Point t's block of weight window 3 is the whole weight matrix. -/
theorem wblock3_apply (c : Dev nD) (t : Fin cfg0.N) (y : S2048x128.Idx) :
    (iblk0 V c 3 t : Vec Ideal S2048x128 .bf16) y = (V c main_v3 : S2048x128.Idx → EReal) y := by
  obtain ⟨-, -, e10, e11, e20, e21, e30, e31, -⟩ := block_indices t
  unfold iblk0
  rw [View.read_apply]
  show V c main_v3 _ = V c main_v3 _
  refine congrArg _ ?_
  funext a
  apply Fin.ext
  match a with
  | ⟨0, _⟩ => show win0_3.index t (0 : Fin 2) * 2048 + 1 * (y 0).val = (y 0).val; rw [e30]; omega
  | ⟨1, _⟩ => show win0_3.index t (1 : Fin 2) * 128 + 1 * (y 1).val = (y 1).val; rw [e31]; omega

/-! ### Output window 4 -/

/-- What point t writes back to output 0 is its block of the product of the activations with weight matrix 1. -/
theorem flushed4_eq (c : Dev nD) (t : Fin cfg0.N) :
    (dat0 V c).flushed 4 t
      = ((cfg0.win 4).blk t).view.read (Elt Ideal) (matProd (V c main_v0) (V c main_v1)) := by
  show (cfg0.win 4).cut (grid0.coords t) ((dat0 V c).after 4 t) = _
  rw [after0_4]
  unfold out0_4
  rw [View.canon_unit_zero zero2]
  simp only [View.ld_unit_zero (S := S1024x2048) zero2, View.ld_unit_zero (S := S2048x128) zero2]
  obtain ⟨-, -, -, -, -, -, -, -, e0, e1, -⟩ := block_indices t
  funext j
  obtain ⟨p, q, rfl⟩ : ∃ (p : Fin 1024) (q : Fin 128), j = ix2 p q := ⟨j 0, j 1, eq_ix2 j⟩
  show k0_pay2 (F := Ideal) (iblk0 V c 0 t) (iblk0 V c 1 t) (ix2 p q) = _
  refine (pay2_apply _ _ p q).trans ?_
  rw [View.read_apply]
  unfold matProd
  refine Finset.sum_congr rfl fun k _ => ?_
  rw [wblock1_apply V c t (ix2 k q)]
  refine congrArg₂ (· * ·) (xblock_apply V c t (ix2 p k) _ ?_ rfl) (congrArg _ ?_)
  · show (((cfg0.win 4).blk t).view.emb (ix2 p q) 0).val = 1024 * t.val + p.val
    show win0_4.index t (0 : Fin 2) * 1024 + 1 * p.val = _
    rw [e0]; omega
  · funext a
    apply Fin.ext
    match a with
    | ⟨0, _⟩ => rfl
    | ⟨1, _⟩ =>
      show q.val = (((cfg0.win 4).blk t).view.emb (ix2 p q) 1).val
      show q.val = win0_4.index t (1 : Fin 2) * 128 + 1 * q.val
      rw [e1]; omega

/-- An index of output array 0 is in point t's block iff each coordinate is in the block's range. -/
theorem mem_blk4 (t : Fin cfg0.N) (i : S16384x128.Idx) :
    i ∈ ((cfg0.win 4).blk t).view.set ↔ ∀ a : Fin 2, win0_4.index t a * S1024x128.size a ≤ (i a).val
      ∧ (i a).val < win0_4.index t a * S1024x128.size a + S1024x128.size a := by
  show i ∈ ((View.whole main_v4_0).slice (win0_4.rect t)).set ↔ _
  rw [View.set_slice_whole, Rect.mem_set_unit]
  exact Iff.rfl

/-- Every index of output array 0 is in the block of the point its row falls in. -/
theorem cover4 (i : S16384x128.Idx) :
    ∃ t : Fin cfg0.N, (cfg0.win 4).flush t = true ∧ i ∈ ((cfg0.win 4).blk t).view.set := by
  have h0 : (i 0).val < 16384 := idx2_lt0 i
  have h1 : (i 1).val < 128 := idx2_lt1 i
  have hN : grid0.N = 16 := N_0
  obtain ⟨t, ht⟩ : ∃ t : Fin cfg0.N, t.val = (i 0).val / 1024 :=
    ⟨⟨(i 0).val / 1024, by show _ < grid0.N; rw [hN]; omega⟩, rfl⟩
  obtain ⟨-, -, -, -, -, -, -, -, e0, e1, -⟩ := block_indices t
  refine ⟨t, flush0_4 t, ?_⟩
  rw [mem_blk4]
  intro a
  match a with
  | ⟨0, _⟩ =>
    show win0_4.index t (0 : Fin 2) * 1024 ≤ (i 0).val ∧ (i 0).val < win0_4.index t (0 : Fin 2) * 1024 + 1024
    rw [e0, ht]; omega
  | ⟨1, _⟩ =>
    show win0_4.index t (1 : Fin 2) * 128 ≤ (i 1).val ∧ (i 1).val < win0_4.index t (1 : Fin 2) * 128 + 128
    rw [e1]; omega

/-- Output array 0 after the region: the product of the activations with weight matrix 1. -/
theorem arr4_eq (c : Dev nD) :
    (dat0 V c).arrAt 4 cfg0.N = matProd (V c main_v0) (V c main_v1) :=
  (dat0 V c).arrAt_eq_of_cover 4 (matProd (V c main_v0) (V c main_v1)) (fun t _ => flushed4_eq V c t) cover4

/-- … entry by entry. -/
theorem arrAt_4 (c : Dev nD) (r : Fin 16384) (d : Fin 128) :
    asReal (S := S16384x128) ((dat0 (F := Ideal) V c).arrAt 4 cfg0.N) (ix2 r d)
      = ∑ k : Fin 2048, asReal (S := S16384x2048) (V c main_v0) (ix2 r k) * asReal (S := S2048x128) (V c main_v1) (ix2 k d) := by
  rw [arr4_eq]
  rfl

/-- … at an entry, against the product function (the left side bare, for rewriting). -/
theorem arrAt_4_matProd (c : Dev nD) (i : S16384x128.Idx) :
    (dat0 (F := Ideal) V c).arrAt 4 cfg0.N i = matProd (V c main_v0) (V c main_v1) i :=
  congrFun (arr4_eq V c) i

/-! ### Output window 5 -/

/-- What point t writes back to output 1 is its block of the product of the activations with weight matrix 2. -/
theorem flushed5_eq (c : Dev nD) (t : Fin cfg0.N) :
    (dat0 V c).flushed 5 t
      = ((cfg0.win 5).blk t).view.read (Elt Ideal) (matProd (V c main_v0) (V c main_v2)) := by
  show (cfg0.win 5).cut (grid0.coords t) ((dat0 V c).after 5 t) = _
  rw [after0_5]
  unfold out0_5
  rw [View.canon_unit_zero zero2]
  simp only [View.ld_unit_zero (S := S1024x2048) zero2, View.ld_unit_zero (S := S2048x128) zero2]
  obtain ⟨-, -, -, -, -, -, -, -, -, -, e0, e1, -⟩ := block_indices t
  funext j
  obtain ⟨p, q, rfl⟩ : ∃ (p : Fin 1024) (q : Fin 128), j = ix2 p q := ⟨j 0, j 1, eq_ix2 j⟩
  show k0_pay3 (F := Ideal) (iblk0 V c 0 t) (iblk0 V c 2 t) (ix2 p q) = _
  refine (pay3_apply _ _ p q).trans ?_
  rw [View.read_apply]
  unfold matProd
  refine Finset.sum_congr rfl fun k _ => ?_
  rw [wblock2_apply V c t (ix2 k q)]
  refine congrArg₂ (· * ·) (xblock_apply V c t (ix2 p k) _ ?_ rfl) (congrArg _ ?_)
  · show (((cfg0.win 5).blk t).view.emb (ix2 p q) 0).val = 1024 * t.val + p.val
    show win0_5.index t (0 : Fin 2) * 1024 + 1 * p.val = _
    rw [e0]; omega
  · funext a
    apply Fin.ext
    match a with
    | ⟨0, _⟩ => rfl
    | ⟨1, _⟩ =>
      show q.val = (((cfg0.win 5).blk t).view.emb (ix2 p q) 1).val
      show q.val = win0_5.index t (1 : Fin 2) * 128 + 1 * q.val
      rw [e1]; omega

/-- An index of output array 1 is in point t's block iff each coordinate is in the block's range. -/
theorem mem_blk5 (t : Fin cfg0.N) (i : S16384x128.Idx) :
    i ∈ ((cfg0.win 5).blk t).view.set ↔ ∀ a : Fin 2, win0_5.index t a * S1024x128.size a ≤ (i a).val
      ∧ (i a).val < win0_5.index t a * S1024x128.size a + S1024x128.size a := by
  show i ∈ ((View.whole main_v4_1).slice (win0_5.rect t)).set ↔ _
  rw [View.set_slice_whole, Rect.mem_set_unit]
  exact Iff.rfl

/-- Every index of output array 1 is in the block of the point its row falls in. -/
theorem cover5 (i : S16384x128.Idx) :
    ∃ t : Fin cfg0.N, (cfg0.win 5).flush t = true ∧ i ∈ ((cfg0.win 5).blk t).view.set := by
  have h0 : (i 0).val < 16384 := idx2_lt0 i
  have h1 : (i 1).val < 128 := idx2_lt1 i
  have hN : grid0.N = 16 := N_0
  obtain ⟨t, ht⟩ : ∃ t : Fin cfg0.N, t.val = (i 0).val / 1024 :=
    ⟨⟨(i 0).val / 1024, by show _ < grid0.N; rw [hN]; omega⟩, rfl⟩
  obtain ⟨-, -, -, -, -, -, -, -, -, -, e0, e1, -⟩ := block_indices t
  refine ⟨t, flush0_5 t, ?_⟩
  rw [mem_blk5]
  intro a
  match a with
  | ⟨0, _⟩ =>
    show win0_5.index t (0 : Fin 2) * 1024 ≤ (i 0).val ∧ (i 0).val < win0_5.index t (0 : Fin 2) * 1024 + 1024
    rw [e0, ht]; omega
  | ⟨1, _⟩ =>
    show win0_5.index t (1 : Fin 2) * 128 ≤ (i 1).val ∧ (i 1).val < win0_5.index t (1 : Fin 2) * 128 + 128
    rw [e1]; omega

/-- Output array 1 after the region: the product of the activations with weight matrix 2. -/
theorem arr5_eq (c : Dev nD) :
    (dat0 V c).arrAt 5 cfg0.N = matProd (V c main_v0) (V c main_v2) :=
  (dat0 V c).arrAt_eq_of_cover 5 (matProd (V c main_v0) (V c main_v2)) (fun t _ => flushed5_eq V c t) cover5

/-- … entry by entry. -/
theorem arrAt_5 (c : Dev nD) (r : Fin 16384) (d : Fin 128) :
    asReal (S := S16384x128) ((dat0 (F := Ideal) V c).arrAt 5 cfg0.N) (ix2 r d)
      = ∑ k : Fin 2048, asReal (S := S16384x2048) (V c main_v0) (ix2 r k) * asReal (S := S2048x128) (V c main_v2) (ix2 k d) := by
  rw [arr5_eq]
  rfl

/-- … at an entry, against the product function (the left side bare, for rewriting). -/
theorem arrAt_5_matProd (c : Dev nD) (i : S16384x128.Idx) :
    (dat0 (F := Ideal) V c).arrAt 5 cfg0.N i = matProd (V c main_v0) (V c main_v2) i :=
  congrFun (arr5_eq V c) i

/-! ### Output window 6 -/

/-- What point t writes back to output 2 is its block of the product of the activations with weight matrix 3. -/
theorem flushed6_eq (c : Dev nD) (t : Fin cfg0.N) :
    (dat0 V c).flushed 6 t
      = ((cfg0.win 6).blk t).view.read (Elt Ideal) (matProd (V c main_v0) (V c main_v3)) := by
  show (cfg0.win 6).cut (grid0.coords t) ((dat0 V c).after 6 t) = _
  rw [after0_6]
  unfold out0_6
  rw [View.canon_unit_zero zero2]
  simp only [View.ld_unit_zero (S := S1024x2048) zero2, View.ld_unit_zero (S := S2048x128) zero2]
  obtain ⟨-, -, -, -, -, -, -, -, -, -, -, -, e0, e1⟩ := block_indices t
  funext j
  obtain ⟨p, q, rfl⟩ : ∃ (p : Fin 1024) (q : Fin 128), j = ix2 p q := ⟨j 0, j 1, eq_ix2 j⟩
  show k0_pay4 (F := Ideal) (iblk0 V c 0 t) (iblk0 V c 3 t) (ix2 p q) = _
  refine (pay4_apply _ _ p q).trans ?_
  rw [View.read_apply]
  unfold matProd
  refine Finset.sum_congr rfl fun k _ => ?_
  rw [wblock3_apply V c t (ix2 k q)]
  refine congrArg₂ (· * ·) (xblock_apply V c t (ix2 p k) _ ?_ rfl) (congrArg _ ?_)
  · show (((cfg0.win 6).blk t).view.emb (ix2 p q) 0).val = 1024 * t.val + p.val
    show win0_6.index t (0 : Fin 2) * 1024 + 1 * p.val = _
    rw [e0]; omega
  · funext a
    apply Fin.ext
    match a with
    | ⟨0, _⟩ => rfl
    | ⟨1, _⟩ =>
      show q.val = (((cfg0.win 6).blk t).view.emb (ix2 p q) 1).val
      show q.val = win0_6.index t (1 : Fin 2) * 128 + 1 * q.val
      rw [e1]; omega

/-- An index of output array 2 is in point t's block iff each coordinate is in the block's range. -/
theorem mem_blk6 (t : Fin cfg0.N) (i : S16384x128.Idx) :
    i ∈ ((cfg0.win 6).blk t).view.set ↔ ∀ a : Fin 2, win0_6.index t a * S1024x128.size a ≤ (i a).val
      ∧ (i a).val < win0_6.index t a * S1024x128.size a + S1024x128.size a := by
  show i ∈ ((View.whole main_v4_2).slice (win0_6.rect t)).set ↔ _
  rw [View.set_slice_whole, Rect.mem_set_unit]
  exact Iff.rfl

/-- Every index of output array 2 is in the block of the point its row falls in. -/
theorem cover6 (i : S16384x128.Idx) :
    ∃ t : Fin cfg0.N, (cfg0.win 6).flush t = true ∧ i ∈ ((cfg0.win 6).blk t).view.set := by
  have h0 : (i 0).val < 16384 := idx2_lt0 i
  have h1 : (i 1).val < 128 := idx2_lt1 i
  have hN : grid0.N = 16 := N_0
  obtain ⟨t, ht⟩ : ∃ t : Fin cfg0.N, t.val = (i 0).val / 1024 :=
    ⟨⟨(i 0).val / 1024, by show _ < grid0.N; rw [hN]; omega⟩, rfl⟩
  obtain ⟨-, -, -, -, -, -, -, -, -, -, -, -, e0, e1⟩ := block_indices t
  refine ⟨t, flush0_6 t, ?_⟩
  rw [mem_blk6]
  intro a
  match a with
  | ⟨0, _⟩ =>
    show win0_6.index t (0 : Fin 2) * 1024 ≤ (i 0).val ∧ (i 0).val < win0_6.index t (0 : Fin 2) * 1024 + 1024
    rw [e0, ht]; omega
  | ⟨1, _⟩ =>
    show win0_6.index t (1 : Fin 2) * 128 ≤ (i 1).val ∧ (i 1).val < win0_6.index t (1 : Fin 2) * 128 + 128
    rw [e1]; omega

/-- Output array 2 after the region: the product of the activations with weight matrix 3. -/
theorem arr6_eq (c : Dev nD) :
    (dat0 V c).arrAt 6 cfg0.N = matProd (V c main_v0) (V c main_v3) :=
  (dat0 V c).arrAt_eq_of_cover 6 (matProd (V c main_v0) (V c main_v3)) (fun t _ => flushed6_eq V c t) cover6

/-- … entry by entry. -/
theorem arrAt_6 (c : Dev nD) (r : Fin 16384) (d : Fin 128) :
    asReal (S := S16384x128) ((dat0 (F := Ideal) V c).arrAt 6 cfg0.N) (ix2 r d)
      = ∑ k : Fin 2048, asReal (S := S16384x2048) (V c main_v0) (ix2 r k) * asReal (S := S2048x128) (V c main_v3) (ix2 k d) := by
  rw [arr6_eq]
  rfl

/-- … at an entry, against the product function (the left side bare, for rewriting). -/
theorem arrAt_6_matProd (c : Dev nD) (i : S16384x128.Idx) :
    (dat0 (F := Ideal) V c).arrAt 6 cfg0.N i = matProd (V c main_v0) (V c main_v3) i :=
  congrFun (arr6_eq V c) i

end Cert.KernelIdeal.R0

end
-- ==== Proof.QKV.lean ====
/-
  The attention region's three input arrays are the projections of the program's arguments.

  The first region multiplies the flattened activations (row b·2048 + s is position s of batch b) with each
  projection matrix; the host then views each [16384, 128] product back as [8, 2048, 128]. Followed from the
  attention region's entry back to the launch, entry (b, s, d) of each input array is Σ_k x[b,s,k] · w[k,d]
  of the launched arguments. A finite sum of products of reals is a real.
-/
import proofs.«165543_j62113817035141_2_alg».proof.Proof.Run
import proofs.«165543_j62113817035141_2_alg».proof.Proof.HostGlue
import proofs.«165543_j62113817035141_2_alg».proof.Proof.Region0Value
import proofs.«165543_j62113817035141_2_alg».proof.Proof.Spec

noncomputable section

namespace Cert.KernelIdeal.QKV

open Cert.KernelIdeal Cert.KernelIdeal.Gen Idealize.ShloMosaic Idealize.ShloMosaic.TcCoe Idealize.SL.Sem
  Idealize.ShloMosaic.ValueIdx

variable (m : (ℓ : Loc nD τ sig) → Buf (Elt Ideal) ℓ) (ρ : Dev nD → PrngReg) (c : Dev nD)

/-- The launched activations by coordinates. -/
abbrev X : Fin 8 → Fin 2048 → Fin 2048 → EReal :=
  fun b t k => (m ((c.tc : Thread nD τ).loc main_arg0) : FVec Ideal S8x2048x2048 .f32) (ix3 b t k)
/-- The launched query projection matrix by coordinates. -/
abbrev Wq : Fin 2048 → Fin 128 → EReal :=
  fun k d => (m ((c.tc : Thread nD τ).loc main_arg1) : FVec Ideal S2048x128 .f32) (ix2 k d)
/-- The launched key projection matrix by coordinates. -/
abbrev Wk : Fin 2048 → Fin 128 → EReal :=
  fun k d => (m ((c.tc : Thread nD τ).loc main_arg2) : FVec Ideal S2048x128 .f32) (ix2 k d)
/-- The launched value projection matrix by coordinates. -/
abbrev Wv : Fin 2048 → Fin 128 → EReal :=
  fun k d => (m ((c.tc : Thread nD τ).loc main_arg3) : FVec Ideal S2048x128 .f32) (ix2 k d)

/-- The flattened activations at the first region's entry. -/
theorem x_entry (b : Fin 8) (s k : Fin 2048) :
    (Run.V1 (F := Ideal) m ρ c main_v0 : FVec Ideal S16384x2048 .f32) (ix2 (⟨b.val * 2048 + s.val, by omega⟩ : Fin 16384) k)
      = X m c b s k :=
  Glue.v0_apply (Run.W0 (F := Ideal) m ρ c) b s k
theorem wq_entry (k : Fin 2048) (d : Fin 128) :
    (Run.V1 (F := Ideal) m ρ c main_v1 : FVec Ideal S2048x128 .bf16) (ix2 k d) = Wq m c k d :=
  Glue.v1_apply (Run.W0 (F := Ideal) m ρ c) k d
theorem wk_entry (k : Fin 2048) (d : Fin 128) :
    (Run.V1 (F := Ideal) m ρ c main_v2 : FVec Ideal S2048x128 .bf16) (ix2 k d) = Wk m c k d :=
  Glue.v2_apply (Run.W0 (F := Ideal) m ρ c) k d
theorem wv_entry (k : Fin 2048) (d : Fin 128) :
    (Run.V1 (F := Ideal) m ρ c main_v3 : FVec Ideal S2048x128 .bf16) (ix2 k d) = Wv m c k d :=
  Glue.v3_apply (Run.W0 (F := Ideal) m ρ c) k d

/-- The queries at the attention region's entry. -/
theorem q_eq (b : Fin 8) (s : Fin 2048) (d : Fin 128) :
    (Run.V3 (F := Ideal) m ρ c main_v5 : FVec Ideal S8x2048x128 .bf16) (ix3 b s d)
      = Attn.proj (X m c) (Wq m c) b s d := by
  show @Eq EReal _ _
  refine (Glue.v5_apply (Run.W2 (F := Ideal) m ρ c) b s d).trans ?_
  have h2 : Run.W2 (F := Ideal) m ρ c (Proc.devRef .tc main_v4_0) = (R0.dat0 (Run.V1 (F := Ideal) m ρ) c).arrAt 4 cfg0.N :=
    Run.W2_arr m ρ c 4
  rw [h2, R0.arr4_eq, R0.matProd_apply]
  unfold Attn.proj
  show @Eq EReal _ _
  exact Finset.sum_congr rfl fun k _ => by rw [x_entry, wq_entry]

/-- The keys at the attention region's entry. -/
theorem k_eq (b : Fin 8) (s : Fin 2048) (d : Fin 128) :
    (Run.V3 (F := Ideal) m ρ c main_v6 : FVec Ideal S8x2048x128 .bf16) (ix3 b s d)
      = Attn.proj (X m c) (Wk m c) b s d := by
  show @Eq EReal _ _
  refine (Glue.v6_apply (Run.W2 (F := Ideal) m ρ c) b s d).trans ?_
  have h2 : Run.W2 (F := Ideal) m ρ c (Proc.devRef .tc main_v4_1) = (R0.dat0 (Run.V1 (F := Ideal) m ρ) c).arrAt 5 cfg0.N :=
    Run.W2_arr m ρ c 5
  rw [h2, R0.arr5_eq, R0.matProd_apply]
  unfold Attn.proj
  show @Eq EReal _ _
  exact Finset.sum_congr rfl fun k _ => by rw [x_entry, wk_entry]

/-- The values at the attention region's entry. -/
theorem v_eq (b : Fin 8) (s : Fin 2048) (d : Fin 128) :
    (Run.V3 (F := Ideal) m ρ c main_v7 : FVec Ideal S8x2048x128 .bf16) (ix3 b s d)
      = Attn.proj (X m c) (Wv m c) b s d := by
  show @Eq EReal _ _
  refine (Glue.v7_apply (Run.W2 (F := Ideal) m ρ c) b s d).trans ?_
  have h2 : Run.W2 (F := Ideal) m ρ c (Proc.devRef .tc main_v4_2) = (R0.dat0 (Run.V1 (F := Ideal) m ρ) c).arrAt 6 cfg0.N :=
    Run.W2_arr m ρ c 6
  rw [h2, R0.arr6_eq, R0.matProd_apply]
  unfold Attn.proj
  show @Eq EReal _ _
  exact Finset.sum_congr rfl fun k _ => by rw [x_entry, wv_entry]

/-! ## Finiteness -/

/-- A finite sum of reals is a real. -/
theorem sum_real {ι : Type*} (S : Finset ι) (f : ι → EReal) (h : ∀ i ∈ S, ∃ r : ℝ, f i = (r : EReal)) :
    ∃ r : ℝ, ∑ i ∈ S, f i = (r : EReal) := by
  classical
  induction S using Finset.induction_on with
  | empty => exact ⟨0, by simp⟩
  | insert a S ha ih =>
    obtain ⟨r, hr⟩ := ih fun i hi => h i (Finset.mem_insert_of_mem hi)
    obtain ⟨ra, hra⟩ := h a (Finset.mem_insert_self a S)
    exact ⟨ra + r, by rw [Finset.sum_insert ha, hr, hra, EReal.coe_add]⟩

/-- A projection of real activations by a real matrix is real at every entry. -/
theorem proj_real (x : Fin 8 → Fin 2048 → Fin 2048 → EReal) (w : Fin 2048 → Fin 128 → EReal)
    (hx : ∀ b t k, ∃ r : ℝ, x b t k = (r : EReal)) (hw : ∀ k d, ∃ r : ℝ, w k d = (r : EReal))
    (b : Fin 8) (s : Fin 2048) (d : Fin 128) : ∃ r : ℝ, Attn.proj x w b s d = (r : EReal) := by
  unfold Attn.proj
  refine sum_real _ _ fun k _ => ?_
  obtain ⟨r1, h1⟩ := hx b s k
  obtain ⟨r2, h2⟩ := hw k d
  exact ⟨r1 * r2, by rw [h1, h2, EReal.coe_mul]⟩

/-- With every entry of the four launched arguments real, every entry of the attention region's three input
    arrays is real. -/
theorem qkv_real
    (h : (∀ i, ∃ r : ℝ, m ((c.tc : Thread nD τ).loc main_arg0) i = (r : EReal))
      ∧ (∀ i, ∃ r : ℝ, m ((c.tc : Thread nD τ).loc main_arg1) i = (r : EReal))
      ∧ (∀ i, ∃ r : ℝ, m ((c.tc : Thread nD τ).loc main_arg2) i = (r : EReal))
      ∧ (∀ i, ∃ r : ℝ, m ((c.tc : Thread nD τ).loc main_arg3) i = (r : EReal))) :
    (∀ b s d, ∃ r : ℝ, Attn.proj (X m c) (Wq m c) b s d = (r : EReal))
      ∧ (∀ b s d, ∃ r : ℝ, Attn.proj (X m c) (Wk m c) b s d = (r : EReal))
      ∧ (∀ b s d, ∃ r : ℝ, Attn.proj (X m c) (Wv m c) b s d = (r : EReal)) :=
  ⟨proj_real _ _ (fun b t k => h.1 _) (fun k d => h.2.1 _),
   proj_real _ _ (fun b t k => h.1 _) (fun k d => h.2.2.1 _),
   proj_real _ _ (fun b t k => h.1 _) (fun k d => h.2.2.2 _)⟩

end Cert.KernelIdeal.QKV

end
-- ==== Proof.Finite.lean ====
/-
  From the precondition to "every input entry is a real number".

  The precondition says that a pure function of the four argument arrays is the constant 1: for each
  array, the conjunction over all entries of |x| < +∞, the four conjunctions and-ed together. A
  conjunction over all entries that comes out 1 had a 1 at every entry; |x| is max x (-x) on the extended
  reals, so |x| < +∞ rules out both infinities and leaves a real.
-/
import proofs.«165543_j62113817035141_2_alg».proof.Defs
import Idealize.ShloMosaic.Lib.ReduceAll
import Idealize.ShloMosaic.Lib.ValueIdx
import Idealize.ShloMosaic.PureOps.Ideal.Laws

noncomputable section

namespace Cert.KernelIdeal.Fin

open Idealize.ShloMosaic Idealize.ShloMosaic.TcCoe Idealize.SL.Sem Idealize.ShloMosaic.ValueIdx

/-- The scalar shape has one index. -/
instance : Subsingleton Cert.Pre_finite_inputs.S_.Idx := ⟨fun a b => funext fun d => d.elim0⟩

/-- The word 0x7F800000 is +∞. -/
theorem posInf : Ideal.ofBits .f32 0x7F800000#32 = (⊤ : EReal) := by simp [Ideal.ofBits, Ideal.ieee]

/-- An extended real whose absolute value is below +∞ is a real. -/
theorem real_of_abs_lt (x : EReal)
    (h : Ideal.cmp .olt (max x (-x)) (Ideal.ofBits .f32 0x7F800000#32) = 1#1) : ∃ r : ℝ, x = (r : EReal) := by
  rw [posInf] at h
  have h' : max x (-x) < ⊤ := by
    unfold Ideal.cmp at h
    by_contra hn
    simp [hn] at h
  induction x using EReal.rec with
  | bot => simp at h'
  | coe r => exact ⟨r, rfl⟩
  | top => simp at h'

/-- The precondition's function is 1 only on arrays all of whose entries are reals. -/
theorem finite_of_fn [Cert.Pre_finite_inputs.Facts]
    (a0 : FVec Ideal Cert.Pre_finite_inputs.S8x2048x2048 .f32) (a1 a2 a3 : FVec Ideal Cert.Pre_finite_inputs.S2048x128 .f32)
    (h : Cert.Pre_finite_inputs.fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => real_of_abs_lt _ (Host.reduce_andi_all _ _ _ _ _ h0' i),
    fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i)⟩

/-- Under the precondition every entry of the four argument arrays is a real, on every device. -/
theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal)) :=
  finite_of_fn _ _ _ _ (h c)

end Cert.KernelIdeal.Fin

end
-- ==== Proof.R1Pay.lean ====
/-
  The attention region: what each case's stores leave, as the body's named arithmetic of what it loaded.

  Every store of the body writes a whole buffer, and every load reads a whole buffer, so a buffer's contents after a
  case are the last payload stored into it, and a load after a store reads that store's payload.
-/
import proofs.«165543_j62113817035141_2_alg».proof.Proof.R1Cover
import Idealize.ShloMosaic.Lib.Pipeline.Value

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

theorem hz2 : (![0, 0] : Fin 2 → ℕ) = fun _ => 0 := by funext a; fin_cases a <;> rfl
theorem hz3 : (![0, 0, 0] : Fin 3 → ℕ) = fun _ => 0 := by funext a; fin_cases a <;> rfl

/-- A load, through the whole-shape rectangle, of what a store through it LAST left reads that store's payload,
    whatever the earlier stores were. -/
theorem rc_gen {S : Shape} {e : EltTy} {sg : RefSig} {κ : Kind} {sp : Space}
    (v : View sg κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- Reading back, through a running buffer's view, the raw contents that read as X gives X. -/
theorem ru_M (h : (scM : Memref sig .tc .vmem S512x1 .f32).IsWhole) (X : Vec F S512x1 .f32) :
    View.read (Elt F) (View.whole cc1_scratch0 : View sig .tc .vmem S512x1 .f32) (h.unread X) = X := h.read_unread X
theorem ru_L (h : (scL : Memref sig .tc .vmem S512x1 .f32).IsWhole) (X : Vec F S512x1 .f32) :
    View.read (Elt F) (View.whole cc1_scratch1 : View sig .tc .vmem S512x1 .f32) (h.unread X) = X := h.read_unread X
theorem ru_A (h : (scA : Memref sig .tc .vmem S512x128 .f32).IsWhole) (X : Vec F S512x128 .f32) :
    View.read (Elt F) (View.whole cc1_scratch2 : View sig .tc .vmem S512x128 .f32) (h.unread X) = X := h.read_unread X

section
variable (V : (c : Dev nD) → (b : Ref sig .tc) → Buf (Elt F) ((c : Thread nD τ).loc b))

theorem A_M (c : Dev nD) (t : Fin cfg1.N) (h1 : c1 (grid1.coords t)) (h3 : c3 (grid1.coords t)) :
    VM.read (Elt F) (VM.writes (Elt F) VM.junk (rA V c t h1 h3).2.1)
      = k1_pay5 (k1_pay9 (BitVec.ofNat 32 ((grid1.coords t) 1).val) (BitVec.ofNat 32 ((grid1.coords t) 2).val) (iblk V c 0 t) (iblk V c 1 t) (k1_pay1 (F := F))) := by
  rw [View.read_writes_eq_canon _ _ _ (covA_M V c t h1 h3)]
  unfold rA runA; dsimp only; sl_unfold_words
  simp only [View.canon_cons_unit_zero (S := S512x1) hz2, View.canon_cons_unit_zero (S := S512x128) hz2, View.canon_cons_unit_zero (S := S1x512x128) hz3, View.ld_unit_zero (S := S512x1) hz2, View.ld_unit_zero (S := S512x128) hz2, View.ld_unit_zero (S := S1x512x128) hz3, rc_gen (S := S512x1) (View.whole cc1_scratch0 : View sig .tc .vmem S512x1 .f32) hz2, rc_gen (S := S512x1) (View.whole cc1_scratch1 : View sig .tc .vmem S512x1 .f32) hz2, rc_gen (S := S512x128) (View.whole cc1_scratch2 : View sig .tc .vmem S512x128 .f32) hz2, ru_M, ru_L, ru_A, View.readAt_eq_ld, Memref.IsWhole.read_unread]

theorem A_L (c : Dev nD) (t : Fin cfg1.N) (h1 : c1 (grid1.coords t)) (h3 : c3 (grid1.coords t)) :
    VL.read (Elt F) (VL.writes (Elt F) VL.junk (rA V c t h1 h3).2.2.1)
      = k1_pay12 (BitVec.ofNat 32 ((grid1.coords t) 1).val) (BitVec.ofNat 32 ((grid1.coords t) 2).val) (iblk V c 0 t) (iblk V c 1 t) (k1_pay1 (F := F)) (k1_pay2 (F := F)) := by
  rw [View.read_writes_eq_canon _ _ _ (covA_L V c t h1 h3)]
  unfold rA runA; dsimp only; sl_unfold_words
  simp only [View.canon_cons_unit_zero (S := S512x1) hz2, View.canon_cons_unit_zero (S := S512x128) hz2, View.canon_cons_unit_zero (S := S1x512x128) hz3, View.ld_unit_zero (S := S512x1) hz2, View.ld_unit_zero (S := S512x128) hz2, View.ld_unit_zero (S := S1x512x128) hz3, rc_gen (S := S512x1) (View.whole cc1_scratch0 : View sig .tc .vmem S512x1 .f32) hz2, rc_gen (S := S512x1) (View.whole cc1_scratch1 : View sig .tc .vmem S512x1 .f32) hz2, rc_gen (S := S512x128) (View.whole cc1_scratch2 : View sig .tc .vmem S512x128 .f32) hz2, ru_M, ru_L, ru_A, View.readAt_eq_ld, Memref.IsWhole.read_unread]

theorem A_A (c : Dev nD) (t : Fin cfg1.N) (h1 : c1 (grid1.coords t)) (h3 : c3 (grid1.coords t)) :
    VA.read (Elt F) (VA.writes (Elt F) VA.junk (rA V c t h1 h3).2.2.2.1)
      = k1_pay4 (k1_pay7 (iblk V c 2 t)) (k1_pay10 (BitVec.ofNat 32 ((grid1.coords t) 1).val) (BitVec.ofNat 32 ((grid1.coords t) 2).val) (iblk V c 0 t) (iblk V c 1 t) (k1_pay1 (F := F))) (k1_pay11 (BitVec.ofNat 32 ((grid1.coords t) 1).val) (BitVec.ofNat 32 ((grid1.coords t) 2).val) (iblk V c 0 t) (iblk V c 1 t) (k1_pay1 (F := F))) (k1_pay3 (F := F)) := by
  rw [View.read_writes_eq_canon _ _ _ (covA_A V c t h1 h3)]
  unfold rA runA; dsimp only; sl_unfold_words
  simp only [View.canon_cons_unit_zero (S := S512x1) hz2, View.canon_cons_unit_zero (S := S512x128) hz2, View.canon_cons_unit_zero (S := S1x512x128) hz3, View.ld_unit_zero (S := S512x1) hz2, View.ld_unit_zero (S := S512x128) hz2, View.ld_unit_zero (S := S1x512x128) hz3, rc_gen (S := S512x1) (View.whole cc1_scratch0 : View sig .tc .vmem S512x1 .f32) hz2, rc_gen (S := S512x1) (View.whole cc1_scratch1 : View sig .tc .vmem S512x1 .f32) hz2, rc_gen (S := S512x128) (View.whole cc1_scratch2 : View sig .tc .vmem S512x128 .f32) hz2, ru_M, ru_L, ru_A, View.readAt_eq_ld, Memref.IsWhole.read_unread]

theorem A_O (c : Dev nD) (t : Fin cfg1.N) (h1 : c1 (grid1.coords t)) (h3 : c3 (grid1.coords t)) :
    VO.read (Elt F) (VO.writes (Elt F) VO.junk (rA V c t h1 h3).1)
      = k1_pay6 (k1_pay4 (k1_pay7 (iblk V c 2 t)) (k1_pay10 (BitVec.ofNat 32 ((grid1.coords t) 1).val) (BitVec.ofNat 32 ((grid1.coords t) 2).val) (iblk V c 0 t) (iblk V c 1 t) (k1_pay1 (F := F))) (k1_pay11 (BitVec.ofNat 32 ((grid1.coords t) 1).val) (BitVec.ofNat 32 ((grid1.coords t) 2).val) (iblk V c 0 t) (iblk V c 1 t) (k1_pay1 (F := F))) (k1_pay3 (F := F))) (k1_pay12 (BitVec.ofNat 32 ((grid1.coords t) 1).val) (BitVec.ofNat 32 ((grid1.coords t) 2).val) (iblk V c 0 t) (iblk V c 1 t) (k1_pay1 (F := F)) (k1_pay2 (F := F))) := by
  rw [View.read_writes_eq_canon _ _ _ (covA_O V c t h1 h3)]
  unfold rA runA; dsimp only; sl_unfold_words
  simp only [View.canon_cons_unit_zero (S := S512x1) hz2, View.canon_cons_unit_zero (S := S512x128) hz2, View.canon_cons_unit_zero (S := S1x512x128) hz3, View.ld_unit_zero (S := S512x1) hz2, View.ld_unit_zero (S := S512x128) hz2, View.ld_unit_zero (S := S1x512x128) hz3, rc_gen (S := S512x1) (View.whole cc1_scratch0 : View sig .tc .vmem S512x1 .f32) hz2, rc_gen (S := S512x1) (View.whole cc1_scratch1 : View sig .tc .vmem S512x1 .f32) hz2, rc_gen (S := S512x128) (View.whole cc1_scratch2 : View sig .tc .vmem S512x128 .f32) hz2, ru_M, ru_L, ru_A, View.readAt_eq_ld, Memref.IsWhole.read_unread]

theorem B_M (c : Dev nD) (t : Fin cfg1.N) (h1 : c1 (grid1.coords t)) (h3 : ¬c3 (grid1.coords t)) :
    VM.read (Elt F) (VM.writes (Elt F) VM.junk (rB V c t h1 h3).1)
      = k1_pay5 (k1_pay9 (BitVec.ofNat 32 ((grid1.coords t) 1).val) (BitVec.ofNat 32 ((grid1.coords t) 2).val) (iblk V c 0 t) (iblk V c 1 t) (k1_pay1 (F := F))) := by
  rw [View.read_writes_eq_canon _ _ _ (covB_M V c t h1 h3)]
  unfold rB runB; dsimp only; sl_unfold_words
  simp only [View.canon_cons_unit_zero (S := S512x1) hz2, View.canon_cons_unit_zero (S := S512x128) hz2, View.canon_cons_unit_zero (S := S1x512x128) hz3, View.ld_unit_zero (S := S512x1) hz2, View.ld_unit_zero (S := S512x128) hz2, View.ld_unit_zero (S := S1x512x128) hz3, rc_gen (S := S512x1) (View.whole cc1_scratch0 : View sig .tc .vmem S512x1 .f32) hz2, rc_gen (S := S512x1) (View.whole cc1_scratch1 : View sig .tc .vmem S512x1 .f32) hz2, rc_gen (S := S512x128) (View.whole cc1_scratch2 : View sig .tc .vmem S512x128 .f32) hz2, ru_M, ru_L, ru_A, View.readAt_eq_ld, Memref.IsWhole.read_unread]

theorem B_L (c : Dev nD) (t : Fin cfg1.N) (h1 : c1 (grid1.coords t)) (h3 : ¬c3 (grid1.coords t)) :
    VL.read (Elt F) (VL.writes (Elt F) VL.junk (rB V c t h1 h3).2.1)
      = k1_pay12 (BitVec.ofNat 32 ((grid1.coords t) 1).val) (BitVec.ofNat 32 ((grid1.coords t) 2).val) (iblk V c 0 t) (iblk V c 1 t) (k1_pay1 (F := F)) (k1_pay2 (F := F)) := by
  rw [View.read_writes_eq_canon _ _ _ (covB_L V c t h1 h3)]
  unfold rB runB; dsimp only; sl_unfold_words
  simp only [View.canon_cons_unit_zero (S := S512x1) hz2, View.canon_cons_unit_zero (S := S512x128) hz2, View.canon_cons_unit_zero (S := S1x512x128) hz3, View.ld_unit_zero (S := S512x1) hz2, View.ld_unit_zero (S := S512x128) hz2, View.ld_unit_zero (S := S1x512x128) hz3, rc_gen (S := S512x1) (View.whole cc1_scratch0 : View sig .tc .vmem S512x1 .f32) hz2, rc_gen (S := S512x1) (View.whole cc1_scratch1 : View sig .tc .vmem S512x1 .f32) hz2, rc_gen (S := S512x128) (View.whole cc1_scratch2 : View sig .tc .vmem S512x128 .f32) hz2, ru_M, ru_L, ru_A, View.readAt_eq_ld, Memref.IsWhole.read_unread]

theorem B_A (c : Dev nD) (t : Fin cfg1.N) (h1 : c1 (grid1.coords t)) (h3 : ¬c3 (grid1.coords t)) :
    VA.read (Elt F) (VA.writes (Elt F) VA.junk (rB V c t h1 h3).2.2.1)
      = k1_pay4 (k1_pay7 (iblk V c 2 t)) (k1_pay10 (BitVec.ofNat 32 ((grid1.coords t) 1).val) (BitVec.ofNat 32 ((grid1.coords t) 2).val) (iblk V c 0 t) (iblk V c 1 t) (k1_pay1 (F := F))) (k1_pay11 (BitVec.ofNat 32 ((grid1.coords t) 1).val) (BitVec.ofNat 32 ((grid1.coords t) 2).val) (iblk V c 0 t) (iblk V c 1 t) (k1_pay1 (F := F))) (k1_pay3 (F := F)) := by
  rw [View.read_writes_eq_canon _ _ _ (covB_A V c t h1 h3)]
  unfold rB runB; dsimp only; sl_unfold_words
  simp only [View.canon_cons_unit_zero (S := S512x1) hz2, View.canon_cons_unit_zero (S := S512x128) hz2, View.canon_cons_unit_zero (S := S1x512x128) hz3, View.ld_unit_zero (S := S512x1) hz2, View.ld_unit_zero (S := S512x128) hz2, View.ld_unit_zero (S := S1x512x128) hz3, rc_gen (S := S512x1) (View.whole cc1_scratch0 : View sig .tc .vmem S512x1 .f32) hz2, rc_gen (S := S512x1) (View.whole cc1_scratch1 : View sig .tc .vmem S512x1 .f32) hz2, rc_gen (S := S512x128) (View.whole cc1_scratch2 : View sig .tc .vmem S512x128 .f32) hz2, ru_M, ru_L, ru_A, View.readAt_eq_ld, Memref.IsWhole.read_unread]

theorem C_M (c : Dev nD) (t : Fin cfg1.N) (h1 : ¬c1 (grid1.coords t)) (h2 : c2 (grid1.coords t)) (h3 : ¬c3 (grid1.coords t)) (p : St F) :
    VM.read (Elt F) (VM.writes (Elt F) VM.junk (rC V c t h1 h2 h3 p).1)
      = k1_pay5 (k1_pay9 (BitVec.ofNat 32 ((grid1.coords t) 1).val) (BitVec.ofNat 32 ((grid1.coords t) 2).val) (iblk V c 0 t) (iblk V c 1 t) p.m) := by
  rw [View.read_writes_eq_canon _ _ _ (covC_M V c t h1 h2 h3 p)]
  unfold rC runC; dsimp only; sl_unfold_words
  simp only [View.canon_cons_unit_zero (S := S512x1) hz2, View.canon_cons_unit_zero (S := S512x128) hz2, View.canon_cons_unit_zero (S := S1x512x128) hz3, View.ld_unit_zero (S := S512x1) hz2, View.ld_unit_zero (S := S512x128) hz2, View.ld_unit_zero (S := S1x512x128) hz3, rc_gen (S := S512x1) (View.whole cc1_scratch0 : View sig .tc .vmem S512x1 .f32) hz2, rc_gen (S := S512x1) (View.whole cc1_scratch1 : View sig .tc .vmem S512x1 .f32) hz2, rc_gen (S := S512x128) (View.whole cc1_scratch2 : View sig .tc .vmem S512x128 .f32) hz2, ru_M, ru_L, ru_A, View.readAt_eq_ld, Memref.IsWhole.read_unread]

theorem C_L (c : Dev nD) (t : Fin cfg1.N) (h1 : ¬c1 (grid1.coords t)) (h2 : c2 (grid1.coords t)) (h3 : ¬c3 (grid1.coords t)) (p : St F) :
    VL.read (Elt F) (VL.writes (Elt F) VL.junk (rC V c t h1 h2 h3 p).2.1)
      = k1_pay12 (BitVec.ofNat 32 ((grid1.coords t) 1).val) (BitVec.ofNat 32 ((grid1.coords t) 2).val) (iblk V c 0 t) (iblk V c 1 t) p.m p.l := by
  rw [View.read_writes_eq_canon _ _ _ (covC_L V c t h1 h2 h3 p)]
  unfold rC runC; dsimp only; sl_unfold_words
  simp only [View.canon_cons_unit_zero (S := S512x1) hz2, View.canon_cons_unit_zero (S := S512x128) hz2, View.canon_cons_unit_zero (S := S1x512x128) hz3, View.ld_unit_zero (S := S512x1) hz2, View.ld_unit_zero (S := S512x128) hz2, View.ld_unit_zero (S := S1x512x128) hz3, rc_gen (S := S512x1) (View.whole cc1_scratch0 : View sig .tc .vmem S512x1 .f32) hz2, rc_gen (S := S512x1) (View.whole cc1_scratch1 : View sig .tc .vmem S512x1 .f32) hz2, rc_gen (S := S512x128) (View.whole cc1_scratch2 : View sig .tc .vmem S512x128 .f32) hz2, ru_M, ru_L, ru_A, View.readAt_eq_ld, Memref.IsWhole.read_unread]

theorem C_A (c : Dev nD) (t : Fin cfg1.N) (h1 : ¬c1 (grid1.coords t)) (h2 : c2 (grid1.coords t)) (h3 : ¬c3 (grid1.coords t)) (p : St F) :
    VA.read (Elt F) (VA.writes (Elt F) VA.junk (rC V c t h1 h2 h3 p).2.2.1)
      = k1_pay4 (k1_pay7 (iblk V c 2 t)) (k1_pay10 (BitVec.ofNat 32 ((grid1.coords t) 1).val) (BitVec.ofNat 32 ((grid1.coords t) 2).val) (iblk V c 0 t) (iblk V c 1 t) p.m) (k1_pay11 (BitVec.ofNat 32 ((grid1.coords t) 1).val) (BitVec.ofNat 32 ((grid1.coords t) 2).val) (iblk V c 0 t) (iblk V c 1 t) p.m) p.a := by
  rw [View.read_writes_eq_canon _ _ _ (covC_A V c t h1 h2 h3 p)]
  unfold rC runC; dsimp only; sl_unfold_words
  simp only [View.canon_cons_unit_zero (S := S512x1) hz2, View.canon_cons_unit_zero (S := S512x128) hz2, View.canon_cons_unit_zero (S := S1x512x128) hz3, View.ld_unit_zero (S := S512x1) hz2, View.ld_unit_zero (S := S512x128) hz2, View.ld_unit_zero (S := S1x512x128) hz3, rc_gen (S := S512x1) (View.whole cc1_scratch0 : View sig .tc .vmem S512x1 .f32) hz2, rc_gen (S := S512x1) (View.whole cc1_scratch1 : View sig .tc .vmem S512x1 .f32) hz2, rc_gen (S := S512x128) (View.whole cc1_scratch2 : View sig .tc .vmem S512x128 .f32) hz2, ru_M, ru_L, ru_A, View.readAt_eq_ld, Memref.IsWhole.read_unread]

theorem D_M (c : Dev nD) (t : Fin cfg1.N) (h1 : ¬c1 (grid1.coords t)) (h2 : c2 (grid1.coords t)) (h3 : c3 (grid1.coords t)) (p : St F) :
    VM.read (Elt F) (VM.writes (Elt F) VM.junk (rD V c t h1 h2 h3 p).2.1)
      = k1_pay5 (k1_pay9 (BitVec.ofNat 32 ((grid1.coords t) 1).val) (BitVec.ofNat 32 ((grid1.coords t) 2).val) (iblk V c 0 t) (iblk V c 1 t) p.m) := by
  rw [View.read_writes_eq_canon _ _ _ (covD_M V c t h1 h2 h3 p)]
  unfold rD runD; dsimp only; sl_unfold_words
  simp only [View.canon_cons_unit_zero (S := S512x1) hz2, View.canon_cons_unit_zero (S := S512x128) hz2, View.canon_cons_unit_zero (S := S1x512x128) hz3, View.ld_unit_zero (S := S512x1) hz2, View.ld_unit_zero (S := S512x128) hz2, View.ld_unit_zero (S := S1x512x128) hz3, rc_gen (S := S512x1) (View.whole cc1_scratch0 : View sig .tc .vmem S512x1 .f32) hz2, rc_gen (S := S512x1) (View.whole cc1_scratch1 : View sig .tc .vmem S512x1 .f32) hz2, rc_gen (S := S512x128) (View.whole cc1_scratch2 : View sig .tc .vmem S512x128 .f32) hz2, ru_M, ru_L, ru_A, View.readAt_eq_ld, Memref.IsWhole.read_unread]

theorem D_L (c : Dev nD) (t : Fin cfg1.N) (h1 : ¬c1 (grid1.coords t)) (h2 : c2 (grid1.coords t)) (h3 : c3 (grid1.coords t)) (p : St F) :
    VL.read (Elt F) (VL.writes (Elt F) VL.junk (rD V c t h1 h2 h3 p).2.2.1)
      = k1_pay12 (BitVec.ofNat 32 ((grid1.coords t) 1).val) (BitVec.ofNat 32 ((grid1.coords t) 2).val) (iblk V c 0 t) (iblk V c 1 t) p.m p.l := by
  rw [View.read_writes_eq_canon _ _ _ (covD_L V c t h1 h2 h3 p)]
  unfold rD runD; dsimp only; sl_unfold_words
  simp only [View.canon_cons_unit_zero (S := S512x1) hz2, View.canon_cons_unit_zero (S := S512x128) hz2, View.canon_cons_unit_zero (S := S1x512x128) hz3, View.ld_unit_zero (S := S512x1) hz2, View.ld_unit_zero (S := S512x128) hz2, View.ld_unit_zero (S := S1x512x128) hz3, rc_gen (S := S512x1) (View.whole cc1_scratch0 : View sig .tc .vmem S512x1 .f32) hz2, rc_gen (S := S512x1) (View.whole cc1_scratch1 : View sig .tc .vmem S512x1 .f32) hz2, rc_gen (S := S512x128) (View.whole cc1_scratch2 : View sig .tc .vmem S512x128 .f32) hz2, ru_M, ru_L, ru_A, View.readAt_eq_ld, Memref.IsWhole.read_unread]

theorem D_A (c : Dev nD) (t : Fin cfg1.N) (h1 : ¬c1 (grid1.coords t)) (h2 : c2 (grid1.coords t)) (h3 : c3 (grid1.coords t)) (p : St F) :
    VA.read (Elt F) (VA.writes (Elt F) VA.junk (rD V c t h1 h2 h3 p).2.2.2.1)
      = k1_pay4 (k1_pay7 (iblk V c 2 t)) (k1_pay10 (BitVec.ofNat 32 ((grid1.coords t) 1).val) (BitVec.ofNat 32 ((grid1.coords t) 2).val) (iblk V c 0 t) (iblk V c 1 t) p.m) (k1_pay11 (BitVec.ofNat 32 ((grid1.coords t) 1).val) (BitVec.ofNat 32 ((grid1.coords t) 2).val) (iblk V c 0 t) (iblk V c 1 t) p.m) p.a := by
  rw [View.read_writes_eq_canon _ _ _ (covD_A V c t h1 h2 h3 p)]
  unfold rD runD; dsimp only; sl_unfold_words
  simp only [View.canon_cons_unit_zero (S := S512x1) hz2, View.canon_cons_unit_zero (S := S512x128) hz2, View.canon_cons_unit_zero (S := S1x512x128) hz3, View.ld_unit_zero (S := S512x1) hz2, View.ld_unit_zero (S := S512x128) hz2, View.ld_unit_zero (S := S1x512x128) hz3, rc_gen (S := S512x1) (View.whole cc1_scratch0 : View sig .tc .vmem S512x1 .f32) hz2, rc_gen (S := S512x1) (View.whole cc1_scratch1 : View sig .tc .vmem S512x1 .f32) hz2, rc_gen (S := S512x128) (View.whole cc1_scratch2 : View sig .tc .vmem S512x128 .f32) hz2, ru_M, ru_L, ru_A, View.readAt_eq_ld, Memref.IsWhole.read_unread]

theorem D_O (c : Dev nD) (t : Fin cfg1.N) (h1 : ¬c1 (grid1.coords t)) (h2 : c2 (grid1.coords t)) (h3 : c3 (grid1.coords t)) (p : St F) :
    VO.read (Elt F) (VO.writes (Elt F) VO.junk (rD V c t h1 h2 h3 p).1)
      = k1_pay6 (k1_pay4 (k1_pay7 (iblk V c 2 t)) (k1_pay10 (BitVec.ofNat 32 ((grid1.coords t) 1).val) (BitVec.ofNat 32 ((grid1.coords t) 2).val) (iblk V c 0 t) (iblk V c 1 t) p.m) (k1_pay11 (BitVec.ofNat 32 ((grid1.coords t) 1).val) (BitVec.ofNat 32 ((grid1.coords t) 2).val) (iblk V c 0 t) (iblk V c 1 t) p.m) p.a) (k1_pay12 (BitVec.ofNat 32 ((grid1.coords t) 1).val) (BitVec.ofNat 32 ((grid1.coords t) 2).val) (iblk V c 0 t) (iblk V c 1 t) p.m p.l) := by
  rw [View.read_writes_eq_canon _ _ _ (covD_O V c t h1 h2 h3 p)]
  unfold rD runD; dsimp only; sl_unfold_words
  simp only [View.canon_cons_unit_zero (S := S512x1) hz2, View.canon_cons_unit_zero (S := S512x128) hz2, View.canon_cons_unit_zero (S := S1x512x128) hz3, View.ld_unit_zero (S := S512x1) hz2, View.ld_unit_zero (S := S512x128) hz2, View.ld_unit_zero (S := S1x512x128) hz3, rc_gen (S := S512x1) (View.whole cc1_scratch0 : View sig .tc .vmem S512x1 .f32) hz2, rc_gen (S := S512x1) (View.whole cc1_scratch1 : View sig .tc .vmem S512x1 .f32) hz2, rc_gen (S := S512x128) (View.whole cc1_scratch2 : View sig .tc .vmem S512x128 .f32) hz2, ru_M, ru_L, ru_A, View.readAt_eq_ld, Memref.IsWhole.read_unread]

end

end Cert.KernelIdeal.R1

end
-- ==== Proof.R1Payload.lean ====
/-
  The attention kernel body's arithmetic, read at one index on the extended reals.

  One tile step of the kernel takes the running column maximum xm, the running total xl and the
  running weighted sum xa of a block of 512 query rows, together with a 512-row key block and value
  block, and produces the new maximum, total and weighted sum. Read at row r (and lane d) these are
  exactly one step of the tiled softmax recurrence on the row of masked scaled scores
  j ↦ tileScore qi ki xq xk r j: the new maximum is max (old, sup_j score), the total is
  e^{old - new} · total + Σ_j e^{score_j - new}, the weighted sum is e^{old - new} · sum + Σ_j e^{score_j - new} · v_j.
-/
import proofs.«165543_j62113817035141_2_alg».proof.Proof.Gen.KernelIdeal.Skeleton
import proofs.«165543_j62113817035141_2_alg».proof.Proof.Spec
import Idealize.ShloMosaic.Lib.ValueLayout
import Idealize.ShloMosaic.Lib.ValueIdx
import Idealize.ShloMosaic.PureOps.Ideal.Laws

noncomputable section

namespace Cert.KernelIdeal.R1P

open Cert.KernelIdeal Cert.KernelIdeal.Gen Idealize.ShloMosaic Idealize.ShloMosaic.ValueIdx

/-! ## Small readings -/

/-- The masking constant is -∞ on the extended reals. -/
theorem neg_big : Named.named (F := Ideal) κ "neg_big" (φ := .f32) 0xFF333332#32 = (⊥ : EReal) :=
  IdealRules.named_const.ideal_named_scalar _ _ _ _ rfl

/-- A column [a, 1] broadcast along its unit axis to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reset value of the running maximum is -∞ in every row. -/
theorem pay1_apply (r : Fin 512) : k1_pay1 (F := Ideal) (ix2 r (0 : Fin 1)) = (⊥ : EReal) := by
  unfold k1_pay1
  rw [shapeCast_self]
  exact neg_big

/-- The reset value of the running total is 0. -/
theorem pay2_apply (r : Fin 512) : k1_pay2 (F := Ideal) (ix2 r (0 : Fin 1)) = (0 : EReal) := by
  unfold k1_pay2
  rw [shapeCast_self]
  exact Ideal.ofBits_zero_f32

/-- The reset value of the running weighted sum is 0. -/
theorem pay3_apply (r : Fin 512) (d : Fin 128) : k1_pay3 (F := Ideal) (ix2 r d) = (0 : EReal) := by
  unfold k1_pay3
  rw [shapeCast_self]
  exact Ideal.ofBits_zero_f32

/-- Storing the new maximum changes nothing. -/
theorem pay5_eq (x : FVec Ideal S512x1 .f32) : k1_pay5 (F := Ideal) x = x := by
  unfold k1_pay5
  exact shapeCast_self _ _

/-- The output block: weighted sum over total, row by row. -/
theorem pay6_apply (xa : Vec Ideal S512x128 .f32) (xl : Vec Ideal S512x1 .f32) (r : Fin 512) (d : Fin 128) :
    k1_pay6 (F := Ideal) xa xl (ix3 (0 : Fin 1) r d) = Ideal.div (xa (ix2 r d)) (xl (ix2 r (0 : Fin 1))) := by
  unfold k1_pay6
  rw [shapeCast_ab_1ab_apply, divf_apply, broadcastTo_a1_ab_apply]

/-! ## The two matrix products at an index -/

local notation "dotQK" => dot_S512x128_S128x512_S512x512_1_0_0_1_n_n
local notation "dotPV" => dot_S512x512_S512x128_S512x128_1_0_0_1_n_n

theorem qk_lhs0 (i : S512x512.Idx) (q : (dotQK).contr.Idx) : ((dotQK).lhsIdx i q 0).val = (i 0).val := by
  unfold DotDims.lhsIdx
  rw [dif_neg (show ¬(0 : Fin S512x128.rank) ∈ (dotQK).lhsBatch by decide),
    dif_pos (show (0 : Fin S512x128.rank) ∈ (dotQK).lhsNonContracting by decide)]
  rfl
theorem qk_lhs1 (i : S512x512.Idx) (q : (dotQK).contr.Idx) :
    ((dotQK).lhsIdx i q 1).val = (q ⟨0, by decide⟩).val :=
  (dotQK).lhsIdx_val_of_single rfl i q
theorem qk_rhs0 (i : S512x512.Idx) (q : (dotQK).contr.Idx) :
    ((dotQK).rhsIdx i q 0).val = (q ⟨0, by decide⟩).val :=
  (dotQK).rhsIdx_val_of_single rfl i q
theorem qk_rhs1 (i : S512x512.Idx) (q : (dotQK).contr.Idx) : ((dotQK).rhsIdx i q 1).val = (i 1).val := by
  unfold DotDims.rhsIdx
  rw [dif_neg (show ¬(1 : Fin S128x512.rank) ∈ (dotQK).rhsBatch by decide),
    dif_pos (show (1 : Fin S128x512.rank) ∈ (dotQK).rhsNonContracting by decide)]
  rfl

/-- Query block times transposed key block into a zero accumulator: the inner product over the 128 lanes. -/
theorem mm_qk (A : FVec Ideal S512x128 .bf16) (B : FVec Ideal S128x512 .bf16) (r j : Fin 512) :
    matmul dotQK none A B (constant (F := Ideal) S512x512 .f32 0x00000000#32) (ix2 r j)
      = ∑ d : Fin 128, A (ix2 r d) * B (ix2 d j) := by
  simp only [matmul]
  rw [Ideal.matmul_constant_zero_apply, ← Equiv.sum_comp (contrEquiv1 dotQK 128 rfl rfl).symm]
  refine Finset.sum_congr rfl fun k _ => ?_
  have hk := contrEquiv1_symm_val dotQK 128 rfl rfl k
  have el : (dotQK).lhsIdx (ix2 r j) ((contrEquiv1 dotQK 128 rfl rfl).symm k) = ix2 r k :=
    funext fun a => Fin.ext (by
      match a with
      | ⟨0, _⟩ => exact qk_lhs0 _ _
      | ⟨1, _⟩ => exact (qk_lhs1 _ _).trans hk)
  have er : (dotQK).rhsIdx (ix2 r j) ((contrEquiv1 dotQK 128 rfl rfl).symm k) = ix2 k j :=
    funext fun a => Fin.ext (by
      match a with
      | ⟨0, _⟩ => exact (qk_rhs0 _ _).trans hk
      | ⟨1, _⟩ => exact qk_rhs1 _ _)
  rw [el, er]

theorem pv_lhs0 (i : S512x128.Idx) (q : (dotPV).contr.Idx) : ((dotPV).lhsIdx i q 0).val = (i 0).val := by
  unfold DotDims.lhsIdx
  rw [dif_neg (show ¬(0 : Fin S512x512.rank) ∈ (dotPV).lhsBatch by decide),
    dif_pos (show (0 : Fin S512x512.rank) ∈ (dotPV).lhsNonContracting by decide)]
  rfl
theorem pv_lhs1 (i : S512x128.Idx) (q : (dotPV).contr.Idx) :
    ((dotPV).lhsIdx i q 1).val = (q ⟨0, by decide⟩).val :=
  (dotPV).lhsIdx_val_of_single rfl i q
theorem pv_rhs0 (i : S512x128.Idx) (q : (dotPV).contr.Idx) :
    ((dotPV).rhsIdx i q 0).val = (q ⟨0, by decide⟩).val :=
  (dotPV).rhsIdx_val_of_single rfl i q
theorem pv_rhs1 (i : S512x128.Idx) (q : (dotPV).contr.Idx) : ((dotPV).rhsIdx i q 1).val = (i 1).val := by
  unfold DotDims.rhsIdx
  rw [dif_neg (show ¬(1 : Fin S512x128.rank) ∈ (dotPV).rhsBatch by decide),
    dif_pos (show (1 : Fin S512x128.rank) ∈ (dotPV).rhsNonContracting by decide)]
  rfl

/-- Weights times value block into a zero accumulator: the sum over the 512 keys of the tile. -/
theorem mm_pv (P : FVec Ideal S512x512 .bf16) (B : FVec Ideal S512x128 .bf16) (r : Fin 512) (d : Fin 128) :
    matmul dotPV none P B (constant (F := Ideal) S512x128 .f32 0x00000000#32) (ix2 r d)
      = ∑ j : Fin 512, P (ix2 r j) * B (ix2 j d) := by
  simp only [matmul]
  rw [Ideal.matmul_constant_zero_apply, ← Equiv.sum_comp (contrEquiv1 dotPV 512 rfl rfl).symm]
  refine Finset.sum_congr rfl fun k _ => ?_
  have hk := contrEquiv1_symm_val dotPV 512 rfl rfl k
  have el : (dotPV).lhsIdx (ix2 r d) ((contrEquiv1 dotPV 512 rfl rfl).symm k) = ix2 r k :=
    funext fun a => Fin.ext (by
      match a with
      | ⟨0, _⟩ => exact pv_lhs0 _ _
      | ⟨1, _⟩ => exact (pv_lhs1 _ _).trans hk)
  have er : (dotPV).rhsIdx (ix2 r d) ((contrEquiv1 dotPV 512 rfl rfl).symm k) = ix2 k d :=
    funext fun a => Fin.ext (by
      match a with
      | ⟨0, _⟩ => exact (pv_rhs0 _ _).trans hk
      | ⟨1, _⟩ => exact pv_rhs1 _ _)
  rw [el, er]

/-! ## The causal mask -/

/-- The 32-bit signed comparison of the two absolute positions is the comparison of naturals
    (both are below 2560). -/
theorem causal_bit (qi ki : ℕ) (hq : qi < 4) (hk : ki < 4) (r j : Fin 512) :
    IntOp.cmpi .sle (IntOp.addi (Scalar.muli (BitVec.ofNat 32 ki) 512#32) (BitVec.ofNat 32 j.val))
      (IntOp.addi (Scalar.muli (BitVec.ofNat 32 qi) 512#32) (BitVec.ofNat 32 r.val))
    = if ki * 512 + j.val ≤ qi * 512 + r.val then 1#1 else 0#1 := by
  have hj := j.isLt
  have hr := r.isLt
  have e1 : IntOp.addi (Scalar.muli (BitVec.ofNat 32 ki) 512#32) (BitVec.ofNat 32 j.val)
      = BitVec.ofNat 32 (ki * 512 + j.val) := by
    show BitVec.ofNat 32 ki * BitVec.ofNat 32 512 + BitVec.ofNat 32 j.val = _
    rw [← BitVec.ofNat_mul, ← BitVec.ofNat_add]
  have e2 : IntOp.addi (Scalar.muli (BitVec.ofNat 32 qi) 512#32) (BitVec.ofNat 32 r.val)
      = BitVec.ofNat 32 (qi * 512 + r.val) := by
    show BitVec.ofNat 32 qi * BitVec.ofNat 32 512 + BitVec.ofNat 32 r.val = _
    rw [← BitVec.ofNat_mul, ← BitVec.ofNat_add]
  rw [e1, e2]
  show BitVec.ofBool ((BitVec.ofNat 32 (ki * 512 + j.val)).sle (BitVec.ofNat 32 (qi * 512 + r.val))) = _
  have ha : (BitVec.ofNat 32 (ki * 512 + j.val)).toInt = ((ki * 512 + j.val : ℕ) : Int) := by
    rw [BitVec.toInt_eq_toNat_of_lt (by rw [BitVec.toNat_ofNat]; omega), BitVec.toNat_ofNat]; congr 1; omega
  have hb : (BitVec.ofNat 32 (qi * 512 + r.val)).toInt = ((qi * 512 + r.val : ℕ) : Int) := by
    rw [BitVec.toInt_eq_toNat_of_lt (by rw [BitVec.toNat_ofNat]; omega), BitVec.toNat_ofNat]; congr 1; omega
  rw [BitVec.sle_eq_decide, ha, hb]
  by_cases h : ki * 512 + j.val ≤ qi * 512 + r.val
  · rw [if_pos h, decide_eq_true (by exact_mod_cast h)]; rfl
  · rw [if_neg h, decide_eq_false (by exact_mod_cast h)]; rfl

/-- The masked scaled score of query row r of block qi against key j of block ki. -/
def tileScore (qi ki : ℕ) (xq xk : Vec Ideal S1x512x128 .bf16) (r j : Fin 512) : EReal :=
  if ki * 512 + j.val ≤ qi * 512 + r.val then
    (∑ d : Fin 128, xq (ix3 (0 : Fin 1) r d) * xk (ix3 (0 : Fin 1) j d)) * Attn.scale
  else ⊥

theorem cmpi_apply {s : Shape} {w : ℕ} (p : CmpIPredicate) (x y : IVec s w) (i : s.Idx) :
    cmpi p x y i = IntOp.cmpi p (x i) (y i) := rfl
theorem addi_apply {s : Shape} {w : ℕ} (x y : IVec s w) (i : s.Idx) :
    addi x y i = IntOp.addi (x i) (y i) := rfl

/-- The tile of masked scaled scores, read at (r, j). -/
theorem pay8_apply (qi ki : ℕ) (hq : qi < 4) (hk : ki < 4) (xq xk : Vec Ideal S1x512x128 .bf16) (r j : Fin 512) :
    k1_pay8 (F := Ideal) (BitVec.ofNat 32 qi) (BitVec.ofNat 32 ki) xq xk (ix2 r j) = tileScore qi ki xq xk r j := by
  unfold k1_pay8 tileScore
  rw [select_apply, cmpi_apply, addi_apply, addi_apply, broadcast_apply, broadcast_apply, broadcast_apply,
    iota_single_apply, iota_single_apply, mulf_apply, broadcast_apply, mm_qk]
  show Scalar.select (IntOp.cmpi .sle (IntOp.addi (Scalar.muli (BitVec.ofNat 32 ki) 512#32) (BitVec.ofNat 32 j.val))
      (IntOp.addi (Scalar.muli (BitVec.ofNat 32 qi) 512#32) (BitVec.ofNat 32 r.val))) _ _ = _
  rw [causal_bit qi ki hq hk r j, neg_big]
  have hs : ∑ d : Fin 128, shapeCast S512x128 xq shapeCasts_S1x512x128_S512x128 (ix2 r d)
      * transpose S128x512 [1, 0] (shapeCast S512x128 xk shapeCasts_S1x512x128_S512x128)
          transposes_S512x128_p1_0_S128x512 (ix2 d j)
      = ∑ d : Fin 128, xq (ix3 (0 : Fin 1) r d) * xk (ix3 (0 : Fin 1) j d) :=
    Finset.sum_congr rfl fun d _ => by
      rw [shapeCast_1ab_ab_apply, transpose_ix2_apply, shapeCast_1ab_ab_apply]
  rw [hs]
  by_cases h : ki * 512 + j.val ≤ qi * 512 + r.val
  · rw [if_pos h, if_pos h, select_one]; rfl
  · rw [if_neg h, if_neg h, select_zero]

/-! ## The row maximum and the row sum -/

theorem ofBits_neg_inf : Ideal.ofBits .f32 0xFF800000#32 = (⊥ : EReal) := by simp [Ideal.ofBits, Ideal.ieee]

theorem exp_apply {s : Shape} {φ : FTy} (x : FVec Ideal s φ) (i : s.Idx) : exp x i = Ideal.exp (x i) := rfl

/-- The index of column k in row r, as the one-axis reduction names it. -/
theorem lift_row (r k : Fin 512) : reduces_S512x512_S512.lift (ix1 r) k = ix2 r k := by
  funext a
  refine Fin.ext ?_
  match a with
  | ⟨0, _⟩ => rfl
  | ⟨1, _⟩ => rfl

/-- A maximum over the columns started from -∞ is the supremum of the row. -/
theorem rowmax_apply (src : FVec Ideal S512x512 .f32) (hφ : FKind.Formats .f32)
    (hacc : (0xFF800000#32 : BitVec 32) = 0xFF800000#32) (r : Fin 512) :
    multiReduction (F := Ideal) .maximumf [1] S512 src 0xFF800000#32 reduces_S512x512_S512 hφ hacc (ix1 r)
      = Finset.univ.sup fun j : Fin 512 => src (ix2 r j) := by
  refine (Ideal.multiReduction_maximumf_single src 0xFF800000#32 reduces_S512x512_S512 hφ hacc (ix1 r)).trans ?_
  show (Finset.univ : Finset (Fin 512)).fold max (Ideal.ofBits .f32 0xFF800000#32)
    (fun k : Fin 512 => src (reduces_S512x512_S512.lift (ix1 r) k)) = _
  rw [ofBits_neg_inf]
  simp only [lift_row]
  rfl

/-- A sum over the columns is the sum of the row. -/
theorem rowsum_apply (src : FVec Ideal S512x512 .f32) (hφ : FKind.Formats .f32)
    (hacc : (0x00000000#32 : BitVec 32) = 0x00000000#32) (r : Fin 512) :
    multiReduction (F := Ideal) .add [1] S512 src 0x00000000#32 reduces_S512x512_S512 hφ hacc (ix1 r)
      = ∑ j : Fin 512, src (ix2 r j) := by
  refine (Ideal.multiReduction_add_single src 0x00000000#32 reduces_S512x512_S512 hφ hacc (ix1 r)).trans ?_
  show ∑ k : Fin 512, src (reduces_S512x512_S512.lift (ix1 r) k) = _
  simp only [lift_row]

/-! ## One tile step, read at a row -/

/-- The value block with its unit axis dropped. -/
theorem pay7_apply (xv : Vec Ideal S1x512x128 .bf16) (j : Fin 512) (d : Fin 128) :
    k1_pay7 (F := Ideal) xv (ix2 j d) = xv (ix3 (0 : Fin 1) j d) := by
  unfold k1_pay7
  rw [shapeCast_1ab_ab_apply]

section Step
variable (qi ki : ℕ) (hq : qi < 4) (hk : ki < 4) (xq xk : Vec Ideal S1x512x128 .bf16)
  (xm : Vec Ideal S512x1 .f32) (r : Fin 512)

/-- The new running maximum of row r. -/
def newMax : EReal :=
  max (xm (ix2 r (0 : Fin 1))) (Finset.univ.sup fun j : Fin 512 => tileScore qi ki xq xk r j)

include hq hk

theorem pay9_apply :
    k1_pay9 (F := Ideal) (BitVec.ofNat 32 qi) (BitVec.ofNat 32 ki) xq xk xm (ix2 r (0 : Fin 1))
      = max (xm (ix2 r (0 : Fin 1))) (Finset.univ.sup fun j : Fin 512 => tileScore qi ki xq xk r j) := by
  unfold k1_pay9
  rw [maximumf_apply, shapeCast_a_a1_apply]
  refine congrArg (max (xm (ix2 r (0 : Fin 1)))) ?_
  refine (rowmax_apply _ _ _ r).trans ?_
  exact congrArg _ (funext fun j => pay8_apply qi ki hq hk xq xk r j)

theorem pay10_apply :
    k1_pay10 (F := Ideal) (BitVec.ofNat 32 qi) (BitVec.ofNat 32 ki) xq xk xm (ix2 r (0 : Fin 1))
      = Ideal.exp (xm (ix2 r (0 : Fin 1)) - newMax qi ki xq xk xm r) := by
  unfold k1_pay10 newMax
  rw [exp_apply, subf_apply, pay9_apply qi ki hq hk]

theorem pay11_apply (j : Fin 512) :
    k1_pay11 (F := Ideal) (BitVec.ofNat 32 qi) (BitVec.ofNat 32 ki) xq xk xm (ix2 r j)
      = Ideal.exp (tileScore qi ki xq xk r j - newMax qi ki xq xk xm r) := by
  unfold k1_pay11 newMax
  rw [exp_apply, subf_apply, pay8_apply qi ki hq hk, broadcastTo_a1_ab_apply, pay9_apply qi ki hq hk]

theorem pay12_apply (xl : Vec Ideal S512x1 .f32) :
    k1_pay12 (F := Ideal) (BitVec.ofNat 32 qi) (BitVec.ofNat 32 ki) xq xk xm xl (ix2 r (0 : Fin 1))
      = Ideal.exp (xm (ix2 r (0 : Fin 1)) - newMax qi ki xq xk xm r) * xl (ix2 r (0 : Fin 1))
        + ∑ j : Fin 512, Ideal.exp (tileScore qi ki xq xk r j - newMax qi ki xq xk xm r) := by
  unfold k1_pay12
  rw [shapeCast_self, addf_apply, mulf_apply, pay10_apply qi ki hq hk, shapeCast_a_a1_apply]
  congr 1
  refine (rowsum_apply _ _ _ r).trans ?_
  exact Finset.sum_congr rfl fun j _ => pay11_apply qi ki hq hk xq xk xm r j

theorem pay4_apply (xv : Vec Ideal S1x512x128 .bf16) (xa : Vec Ideal S512x128 .f32) (d : Fin 128) :
    k1_pay4 (F := Ideal) (k1_pay7 xv) (k1_pay10 (BitVec.ofNat 32 qi) (BitVec.ofNat 32 ki) xq xk xm)
        (k1_pay11 (BitVec.ofNat 32 qi) (BitVec.ofNat 32 ki) xq xk xm) xa (ix2 r d)
      = Ideal.exp (xm (ix2 r (0 : Fin 1)) - newMax qi ki xq xk xm r) * xa (ix2 r d)
        + ∑ j : Fin 512, Ideal.exp (tileScore qi ki xq xk r j - newMax qi ki xq xk xm r) * xv (ix3 (0 : Fin 1) j d) := by
  unfold k1_pay4
  rw [shapeCast_self, addf_apply, mulf_apply, broadcastTo_a1_ab_apply, pay10_apply qi ki hq hk, mm_pv]
  congr 1
  refine Finset.sum_congr rfl fun j _ => ?_
  rw [truncf_apply, pay11_apply qi ki hq hk, pay7_apply]

end Step

end Cert.KernelIdeal.R1P

end
-- ==== Proof.OnlineSoftmax.lean ====
/-
  The tiled softmax recurrence against the plain softmax-weighted sum, on one causal row.

  Write w s = e^{σ s} for an unmasked key s (s ≤ t) and w s = 0 for a masked one. After n ≥ 1 tiles the
  running state is (M, W · e^{-M}, V · e^{-M}) for SOME real M, where W = Σ_{s < 512 n} w s and
  V = Σ_{s < 512 n} w s · u s: rescaling by e^{M - M'} turns e^{-M} into e^{-M'}. The quotient V / W does not
  depend on M, and the plain softmax (which subtracts the row maximum R) is the same quotient with
  e^{-R} cancelled; tiles after the one holding t add only zeros.
-/
import proofs.«165543_j62113817035141_2_alg».proof.Proof.Spec

noncomputable section

namespace Attn

open Idealize.ShloMosaic Finset

namespace OS

/-- The coercion ℝ → EReal commutes with finite sums. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A causal row: real scores up to t, -∞ after, real values. -/
structure Causal (σ u : ℕ → EReal) (t : ℕ) : Prop where
  real : ∀ s, s ≤ t → ∃ r : ℝ, σ s = (r : EReal)
  mask : ∀ s, t < s → σ s = ⊥
  val : ∀ s, ∃ r : ℝ, u s = (r : EReal)

/-- The unnormalised weight of key s. -/
def wt (σ : ℕ → EReal) (t s : ℕ) : ℝ := if s ≤ t then Real.exp (σ s).toReal else 0

/-- Total weight of the first N keys. -/
def W (σ : ℕ → EReal) (t N : ℕ) : ℝ := ∑ s ∈ range N, wt σ t s

/-- Weighted sum of the values of the first N keys. -/
def V (σ u : ℕ → EReal) (t N : ℕ) : ℝ := ∑ s ∈ range N, wt σ t s * (u s).toReal

variable {σ u : ℕ → EReal} {t : ℕ}

theorem exp_sub (h : Causal σ u t) (M : ℝ) (s : ℕ) :
    Ideal.exp (σ s - (M : EReal)) = ((wt σ t s * Real.exp (-M) : ℝ) : EReal) := by
  unfold wt
  by_cases hs : s ≤ t
  · obtain ⟨r, hr⟩ := h.real s hs
    rw [if_pos hs, hr, EReal.toReal_coe, ← EReal.coe_sub, Ideal.exp_coe, ← Real.exp_add, sub_eq_add_neg]
  · rw [if_neg hs, h.mask s (not_le.mp hs), EReal.bot_sub, Ideal.exp_bot, zero_mul, EReal.coe_zero]

theorem exp_sub_mul (h : Causal σ u t) (M : ℝ) (s : ℕ) :
    Ideal.exp (σ s - (M : EReal)) * u s
      = ((wt σ t s * (u s).toReal * Real.exp (-M) : ℝ) : EReal) := by
  obtain ⟨r, hr⟩ := h.val s
  rw [exp_sub h, hr, EReal.toReal_coe, ← EReal.coe_mul]
  congr 1; ring

theorem tile_l (h : Causal σ u t) (M : ℝ) (n : ℕ) :
    ∑ j : Fin 512, Ideal.exp (σ (n * 512 + j.val) - (M : EReal))
      = (((∑ j ∈ range 512, wt σ t (n * 512 + j)) * Real.exp (-M) : ℝ) : EReal) := by
  simp_rw [exp_sub h]
  rw [← coe_sum, Fin.sum_univ_eq_sum_range (fun j => wt σ t (n * 512 + j) * Real.exp (-M)) 512,
    Finset.sum_mul]

theorem tile_a (h : Causal σ u t) (M : ℝ) (n : ℕ) :
    ∑ j : Fin 512, Ideal.exp (σ (n * 512 + j.val) - (M : EReal)) * u (n * 512 + j.val)
      = (((∑ j ∈ range 512, wt σ t (n * 512 + j) * (u (n * 512 + j)).toReal) * Real.exp (-M) : ℝ) : EReal) := by
  simp_rw [exp_sub_mul h]
  rw [← coe_sum, Fin.sum_univ_eq_sum_range
    (fun j => wt σ t (n * 512 + j) * (u (n * 512 + j)).toReal * Real.exp (-M)) 512, Finset.sum_mul]

theorem W_succ (n : ℕ) :
    W σ t ((n + 1) * 512) = W σ t (n * 512) + ∑ j ∈ range 512, wt σ t (n * 512 + j) := by
  unfold W; rw [add_one_mul, Finset.sum_range_add]

theorem V_succ (n : ℕ) :
    V σ u t ((n + 1) * 512)
      = V σ u t (n * 512) + ∑ j ∈ range 512, wt σ t (n * 512 + j) * (u (n * 512 + j)).toReal := by
  unfold V; rw [add_one_mul, Finset.sum_range_add]

theorem sigma_lt_top (h : Causal σ u t) (s : ℕ) : σ s < ⊤ := by
  by_cases hs : s ≤ t
  · obtain ⟨r, hr⟩ := h.real s hs; rw [hr]; exact EReal.coe_lt_top r
  · rw [h.mask s (not_le.mp hs)]; exact bot_lt_top

theorem tile_sup_lt_top (h : Causal σ u t) (n : ℕ) :
    (Finset.univ.sup fun j : Fin 512 => σ (n * 512 + j.val)) < ⊤ :=
  (Finset.sup_lt_iff bot_lt_top).mpr fun j _ => sigma_lt_top h _

/-- One tile of the recurrence, once the new maximum is known to be the real M' and the rescaled
    old total and old weighted sum are known. -/
theorem step_eq (h : Causal σ u t) (n : ℕ) (M' : ℝ)
    (hM' : max (online σ u n).1 (Finset.univ.sup fun j : Fin 512 => σ (n * 512 + j.val)) = (M' : EReal))
    (hl : Ideal.exp ((online σ u n).1 - (M' : EReal)) * (online σ u n).2.1
      = ((W σ t (n * 512) * Real.exp (-M') : ℝ) : EReal))
    (ha : Ideal.exp ((online σ u n).1 - (M' : EReal)) * (online σ u n).2.2
      = ((V σ u t (n * 512) * Real.exp (-M') : ℝ) : EReal)) :
    online σ u (n + 1) = ((M' : EReal), ((W σ t ((n + 1) * 512) * Real.exp (-M') : ℝ) : EReal),
      ((V σ u t ((n + 1) * 512) * Real.exp (-M') : ℝ) : EReal)) := by
  rw [online]
  simp only [hM', hl, ha, tile_l h, tile_a h]
  rw [← EReal.coe_add, ← EReal.coe_add, W_succ, V_succ, add_mul, add_mul]

/-- After n + 1 tiles the state is (M, W e^{-M}, V e^{-M}) for some real M. -/
theorem online_succ (h : Causal σ u t) (n : ℕ) : ∃ M : ℝ, online σ u (n + 1) =
    ((M : EReal), ((W σ t ((n + 1) * 512) * Real.exp (-M) : ℝ) : EReal),
      ((V σ u t ((n + 1) * 512) * Real.exp (-M) : ℝ) : EReal)) := by
  induction n with
  | zero =>
    have hlt : max (online σ u 0).1 (Finset.univ.sup fun j : Fin 512 => σ (0 * 512 + j.val)) < ⊤ :=
      max_lt bot_lt_top (tile_sup_lt_top h 0)
    have hgt : ⊥ < max (online σ u 0).1 (Finset.univ.sup fun j : Fin 512 => σ (0 * 512 + j.val)) := by
      obtain ⟨r, hr⟩ := h.real 0 (Nat.zero_le t)
      refine lt_max_of_lt_right (lt_of_lt_of_le ?_
        (Finset.le_sup (f := fun j : Fin 512 => σ (0 * 512 + j.val))
          (Finset.mem_univ (⟨0, by norm_num⟩ : Fin 512))))
      simp only [Nat.zero_mul, Nat.zero_add, hr]
      exact EReal.bot_lt_coe r
    obtain ⟨M', hM'⟩ : ∃ M' : ℝ, max (online σ u 0).1
        (Finset.univ.sup fun j : Fin 512 => σ (0 * 512 + j.val)) = (M' : EReal) :=
      ⟨_, (EReal.coe_toReal hlt.ne hgt.ne').symm⟩
    refine ⟨M', step_eq h 0 M' hM' ?_ ?_⟩
    · simp [online, W]
    · simp [online, V]
  | succ n ih =>
    obtain ⟨M, hM⟩ := ih
    have hlt : max (online σ u (n + 1)).1
        (Finset.univ.sup fun j : Fin 512 => σ ((n + 1) * 512 + j.val)) < ⊤ := by
      refine max_lt ?_ (tile_sup_lt_top h (n + 1))
      rw [hM]; exact EReal.coe_lt_top M
    have hgt : ⊥ < max (online σ u (n + 1)).1
        (Finset.univ.sup fun j : Fin 512 => σ ((n + 1) * 512 + j.val)) := by
      refine lt_max_of_lt_left ?_
      rw [hM]; exact EReal.bot_lt_coe M
    obtain ⟨M', hM'⟩ : ∃ M' : ℝ, max (online σ u (n + 1)).1
        (Finset.univ.sup fun j : Fin 512 => σ ((n + 1) * 512 + j.val)) = (M' : EReal) :=
      ⟨_, (EReal.coe_toReal hlt.ne hgt.ne').symm⟩
    refine ⟨M', step_eq h (n + 1) M' hM' ?_ ?_⟩
    · rw [hM]
      show Ideal.exp ((M : EReal) - (M' : EReal)) * ((W σ t ((n + 1) * 512) * Real.exp (-M) : ℝ) : EReal) = _
      rw [← EReal.coe_sub, Ideal.exp_coe, ← EReal.coe_mul]
      congr 1
      rw [mul_comm, mul_assoc, ← Real.exp_add]; congr 2; ring
    · rw [hM]
      show Ideal.exp ((M : EReal) - (M' : EReal)) * ((V σ u t ((n + 1) * 512) * Real.exp (-M) : ℝ) : EReal) = _
      rw [← EReal.coe_sub, Ideal.exp_coe, ← EReal.coe_mul]
      congr 1
      rw [mul_comm, mul_assoc, ← Real.exp_add]; congr 2; ring

/-- The row maximum of a causal row is real (key 0 is never masked). -/
theorem rowMax_real (h : Causal σ u t) : ∃ R : ℝ, rowMax σ = (R : EReal) := by
  have hlt : rowMax σ < ⊤ := (Finset.sup_lt_iff bot_lt_top).mpr fun s _ => sigma_lt_top h _
  have hgt : ⊥ < rowMax σ := by
    obtain ⟨r, hr⟩ := h.real 0 (Nat.zero_le t)
    refine lt_of_lt_of_le ?_ (Finset.le_sup (f := fun s : Fin 2048 => σ s.val)
      (Finset.mem_univ (⟨0, by norm_num⟩ : Fin 2048)))
    simp only [hr]; exact EReal.bot_lt_coe r
  exact ⟨_, (EReal.coe_toReal hlt.ne hgt.ne').symm⟩

theorem wt_nonneg (s : ℕ) : 0 ≤ wt σ t s := by
  unfold wt; split_ifs
  · exact (Real.exp_pos _).le
  · exact le_rfl

theorem W_pos {N : ℕ} (hN : 0 < N) : 0 < W σ t N := by
  unfold W
  refine Finset.sum_pos' (fun s _ => wt_nonneg s) ⟨0, Finset.mem_range.mpr hN, ?_⟩
  unfold wt; rw [if_pos (Nat.zero_le t)]; exact Real.exp_pos _

/-- Keys after t carry weight 0, so sums past t do not grow. -/
theorem W_eq {N : ℕ} (h1 : t < N) (h2 : N ≤ 2048) : W σ t N = W σ t 2048 := by
  unfold W
  refine Finset.sum_subset (Finset.range_mono h2) fun s _ hs => ?_
  have : ¬ s ≤ t := by simp only [Finset.mem_range] at hs; omega
  unfold wt; rw [if_neg this]

theorem V_eq {N : ℕ} (h1 : t < N) (h2 : N ≤ 2048) : V σ u t N = V σ u t 2048 := by
  unfold V
  refine Finset.sum_subset (Finset.range_mono h2) fun s _ hs => ?_
  have : ¬ s ≤ t := by simp only [Finset.mem_range] at hs; omega
  unfold wt; rw [if_neg this, zero_mul]

/-- The tiled result after n + 1 tiles is V / W over the keys seen. -/
theorem onlineOut_eq (h : Causal σ u t) (n : ℕ) :
    onlineOut σ u (n + 1) = ((V σ u t ((n + 1) * 512) / W σ t ((n + 1) * 512) : ℝ) : EReal) := by
  obtain ⟨M, hM⟩ := online_succ h n
  have hW : 0 < W σ t ((n + 1) * 512) := W_pos (by omega)
  have hne : W σ t ((n + 1) * 512) * Real.exp (-M) ≠ 0 := (mul_pos hW (Real.exp_pos _)).ne'
  unfold onlineOut
  rw [hM]
  show Ideal.div ((V σ u t ((n + 1) * 512) * Real.exp (-M) : ℝ) : EReal)
    ((W σ t ((n + 1) * 512) * Real.exp (-M) : ℝ) : EReal) = _
  rw [Ideal.div_coe hne, ← EReal.coe_mul]
  congr 1
  have hE : Real.exp (-M) ≠ 0 := (Real.exp_pos _).ne'
  field_simp

/-- The plain softmax-weighted sum is V / W over all 2048 keys. -/
theorem softmaxSum_eq (h : Causal σ u t) :
    softmaxSum σ u = ((V σ u t 2048 / W σ t 2048 : ℝ) : EReal) := by
  obtain ⟨R, hR⟩ := rowMax_real h
  have hW : 0 < W σ t 2048 := W_pos (by norm_num)
  have hE : Real.exp (-R) ≠ 0 := (Real.exp_pos _).ne'
  have hne : W σ t 2048 * Real.exp (-R) ≠ 0 := (mul_pos hW (Real.exp_pos _)).ne'
  have hZ : ∑ s' : Fin 2048, Ideal.exp (σ s'.val - (R : EReal))
      = ((W σ t 2048 * Real.exp (-R) : ℝ) : EReal) := by
    simp_rw [exp_sub h]
    rw [← coe_sum, Fin.sum_univ_eq_sum_range (fun s => wt σ t s * Real.exp (-R)) 2048, ← Finset.sum_mul]
    rfl
  have hterm : ∀ s : Fin 2048,
      Ideal.div (Ideal.exp (σ s.val - (R : EReal))) ((W σ t 2048 * Real.exp (-R) : ℝ) : EReal) * u s.val
        = ((wt σ t s.val * (u s.val).toReal / W σ t 2048 : ℝ) : EReal) := by
    intro s
    obtain ⟨r, hr⟩ := h.val s.val
    rw [Ideal.div_coe hne, exp_sub h, hr, EReal.toReal_coe, ← EReal.coe_mul, ← EReal.coe_mul]
    congr 1
    field_simp
  unfold softmaxSum
  rw [hR, hZ]
  simp_rw [hterm]
  rw [← coe_sum, Fin.sum_univ_eq_sum_range (fun s => wt σ t s * (u s).toReal / W σ t 2048) 2048,
    ← Finset.sum_div]
  rfl

end OS

/-- A causal row of scores (real up to t, -∞ after) with real values: the tiled recurrence run over
    the tiles 0 … t/512 and divided at the end is the plain softmax-weighted sum. -/
theorem onlineOut_eq_softmaxSum (σ u : ℕ → EReal) (t : ℕ) (ht : t < 2048)
    (hσ : ∀ s, s ≤ t → ∃ r : ℝ, σ s = (r : EReal)) (hmask : ∀ s, t < s → σ s = ⊥)
    (hu : ∀ s, ∃ r : ℝ, u s = (r : EReal)) :
    onlineOut σ u (t / 512 + 1) = softmaxSum σ u := by
  have h : OS.Causal σ u t := ⟨hσ, hmask, hu⟩
  rw [OS.onlineOut_eq h, OS.softmaxSum_eq h, OS.W_eq (by omega) (by omega),
    OS.V_eq (by omega) (by omega)]

end Attn

end
-- ==== Proof.R1Chain.lean ====
/-
  The attention kernel's carried contents along the key tiles of one query tile, against the tiled
  softmax recurrence and the plain softmax.

  One grid point (query tile qi, key tile ki) resets the running maximum, total and weighted sum at the
  first key tile, updates them while the key tile is not after the query tile, stores the quotient at
  the diagonal tile, and changes nothing afterwards. Read at a row r and a lane d, the chain of these
  points over key tiles 0 … qi is the tiled recurrence on the row's masked scaled scores, so the
  stored quotient is the recurrence's result after qi + 1 tiles; on real inputs that is the plain
  softmax-weighted sum of the value column.
-/
import proofs.«165543_j62113817035141_2_alg».proof.Proof.R1State
import proofs.«165543_j62113817035141_2_alg».proof.Proof.R1Payload
import proofs.«165543_j62113817035141_2_alg».proof.Proof.OnlineSoftmax

noncomputable section

namespace Cert.KernelIdeal.R1C

open Cert.KernelIdeal Cert.KernelIdeal.Gen Idealize.ShloMosaic Idealize.ShloMosaic.ValueIdx
open Cert.KernelIdeal.R1P

/-! ## One grid point in payload form -/

/-- One grid point's effect on the carried contents. -/
def stepP (qi ki : ℕ) (xq xk xv : Vec Ideal S1x512x128 .bf16) (p : R1.St Ideal) : R1.St Ideal :=
  let p1 : R1.St Ideal := if ki = 0 then ⟨(k1_pay1 (F := Ideal)), (k1_pay2 (F := Ideal)), (k1_pay3 (F := Ideal)), p.o⟩ else p
  if ki ≤ qi then
    let m' := k1_pay5 (F := Ideal) (k1_pay9 (F := Ideal) (BitVec.ofNat 32 qi) (BitVec.ofNat 32 ki) xq xk p1.m)
    let l' := k1_pay12 (F := Ideal) (BitVec.ofNat 32 qi) (BitVec.ofNat 32 ki) xq xk p1.m p1.l
    let a' := k1_pay4 (F := Ideal) (k1_pay7 (F := Ideal) xv) (k1_pay10 (F := Ideal) (BitVec.ofNat 32 qi) (BitVec.ofNat 32 ki) xq xk p1.m)
      (k1_pay11 (F := Ideal) (BitVec.ofNat 32 qi) (BitVec.ofNat 32 ki) xq xk p1.m) p1.a
    ⟨m', l', a', if ki = qi then k1_pay6 (F := Ideal) a' l' else p1.o⟩
  else p1

/-- The contents a first key tile starts from: the reset values, the output block kept. -/
def reset (p : R1.St Ideal) : R1.St Ideal := ⟨(k1_pay1 (F := Ideal)), (k1_pay2 (F := Ideal)), (k1_pay3 (F := Ideal)), p.o⟩

/-- The contents a point updates: reset at the first key tile, the carried ones otherwise. -/
def start (ki : ℕ) (p : R1.St Ideal) : R1.St Ideal := if ki = 0 then reset p else p

/-- The three updated buffers, from the contents p1 the point updates. -/
def updM (qi ki : ℕ) (xq xk : Vec Ideal S1x512x128 .bf16) (p1 : R1.St Ideal) : FVec Ideal S512x1 .f32 :=
  k1_pay5 (F := Ideal) (k1_pay9 (F := Ideal) (BitVec.ofNat 32 qi) (BitVec.ofNat 32 ki) xq xk p1.m)
def updL (qi ki : ℕ) (xq xk : Vec Ideal S1x512x128 .bf16) (p1 : R1.St Ideal) : FVec Ideal S512x1 .f32 :=
  k1_pay12 (F := Ideal) (BitVec.ofNat 32 qi) (BitVec.ofNat 32 ki) xq xk p1.m p1.l
def updA (qi ki : ℕ) (xq xk xv : Vec Ideal S1x512x128 .bf16) (p1 : R1.St Ideal) : FVec Ideal S512x128 .f32 :=
  k1_pay4 (F := Ideal) (k1_pay7 (F := Ideal) xv) (k1_pay10 (F := Ideal) (BitVec.ofNat 32 qi) (BitVec.ofNat 32 ki) xq xk p1.m)
    (k1_pay11 (F := Ideal) (BitVec.ofNat 32 qi) (BitVec.ofNat 32 ki) xq xk p1.m) p1.a

/-- stepP through the named pieces. -/
theorem stepP_eq (qi ki : ℕ) (xq xk xv : Vec Ideal S1x512x128 .bf16) (p : R1.St Ideal) :
    stepP qi ki xq xk xv p =
      if ki ≤ qi then
        ⟨updM qi ki xq xk (start ki p), updL qi ki xq xk (start ki p), updA qi ki xq xk xv (start ki p),
          if ki = qi then k1_pay6 (F := Ideal) (updA qi ki xq xk xv (start ki p)) (updL qi ki xq xk (start ki p))
          else (start ki p).o⟩
      else start ki p := rfl

/-- First key tile, which is also the query tile (qi = 0): reset, update, store the quotient. -/
theorem stepP_reset_last (xq xk xv : Vec Ideal S1x512x128 .bf16) (p : R1.St Ideal) :
    stepP 0 0 xq xk xv p =
      ⟨k1_pay5 (F := Ideal) (k1_pay9 (F := Ideal) (BitVec.ofNat 32 0) (BitVec.ofNat 32 0) xq xk (k1_pay1 (F := Ideal))),
        k1_pay12 (F := Ideal) (BitVec.ofNat 32 0) (BitVec.ofNat 32 0) xq xk (k1_pay1 (F := Ideal)) (k1_pay2 (F := Ideal)),
        k1_pay4 (F := Ideal) (k1_pay7 (F := Ideal) xv) (k1_pay10 (F := Ideal) (BitVec.ofNat 32 0) (BitVec.ofNat 32 0) xq xk (k1_pay1 (F := Ideal)))
          (k1_pay11 (F := Ideal) (BitVec.ofNat 32 0) (BitVec.ofNat 32 0) xq xk (k1_pay1 (F := Ideal))) (k1_pay3 (F := Ideal)),
        k1_pay6 (F := Ideal) (k1_pay4 (F := Ideal) (k1_pay7 (F := Ideal) xv) (k1_pay10 (F := Ideal) (BitVec.ofNat 32 0) (BitVec.ofNat 32 0) xq xk (k1_pay1 (F := Ideal)))
            (k1_pay11 (F := Ideal) (BitVec.ofNat 32 0) (BitVec.ofNat 32 0) xq xk (k1_pay1 (F := Ideal))) (k1_pay3 (F := Ideal)))
          (k1_pay12 (F := Ideal) (BitVec.ofNat 32 0) (BitVec.ofNat 32 0) xq xk (k1_pay1 (F := Ideal)) (k1_pay2 (F := Ideal)))⟩ := by
  rw [stepP_eq, if_pos (Nat.le_refl 0), if_pos rfl]
  rfl

/-- First key tile before the query tile (0 = ki < qi): reset and update; the output block is kept. -/
theorem stepP_reset (qi : ℕ) (hq : 0 < qi) (xq xk xv : Vec Ideal S1x512x128 .bf16) (p : R1.St Ideal) :
    stepP qi 0 xq xk xv p =
      ⟨k1_pay5 (F := Ideal) (k1_pay9 (F := Ideal) (BitVec.ofNat 32 qi) (BitVec.ofNat 32 0) xq xk (k1_pay1 (F := Ideal))),
        k1_pay12 (F := Ideal) (BitVec.ofNat 32 qi) (BitVec.ofNat 32 0) xq xk (k1_pay1 (F := Ideal)) (k1_pay2 (F := Ideal)),
        k1_pay4 (F := Ideal) (k1_pay7 (F := Ideal) xv) (k1_pay10 (F := Ideal) (BitVec.ofNat 32 qi) (BitVec.ofNat 32 0) xq xk (k1_pay1 (F := Ideal)))
          (k1_pay11 (F := Ideal) (BitVec.ofNat 32 qi) (BitVec.ofNat 32 0) xq xk (k1_pay1 (F := Ideal))) (k1_pay3 (F := Ideal)),
        p.o⟩ := by
  rw [stepP_eq, if_pos (Nat.zero_le qi), if_neg (Nat.ne_of_lt hq)]
  rfl

/-- A later key tile before the query tile (0 < ki < qi): update the carried contents; the output block is kept. -/
theorem stepP_mid (qi ki : ℕ) (h0 : 0 < ki) (hlt : ki < qi) (xq xk xv : Vec Ideal S1x512x128 .bf16) (p : R1.St Ideal) :
    stepP qi ki xq xk xv p =
      ⟨k1_pay5 (F := Ideal) (k1_pay9 (F := Ideal) (BitVec.ofNat 32 qi) (BitVec.ofNat 32 ki) xq xk p.m),
        k1_pay12 (F := Ideal) (BitVec.ofNat 32 qi) (BitVec.ofNat 32 ki) xq xk p.m p.l,
        k1_pay4 (F := Ideal) (k1_pay7 (F := Ideal) xv) (k1_pay10 (F := Ideal) (BitVec.ofNat 32 qi) (BitVec.ofNat 32 ki) xq xk p.m)
          (k1_pay11 (F := Ideal) (BitVec.ofNat 32 qi) (BitVec.ofNat 32 ki) xq xk p.m) p.a,
        p.o⟩ := by
  rw [stepP_eq, if_pos (Nat.le_of_lt hlt), if_neg (Nat.ne_of_lt hlt)]
  unfold start updM updL updA
  rw [if_neg (Nat.ne_of_gt h0)]

/-- A later key tile that is the query tile (0 < ki = qi): update and store the quotient. -/
theorem stepP_last (qi : ℕ) (h0 : 0 < qi) (xq xk xv : Vec Ideal S1x512x128 .bf16) (p : R1.St Ideal) :
    stepP qi qi xq xk xv p =
      ⟨k1_pay5 (F := Ideal) (k1_pay9 (F := Ideal) (BitVec.ofNat 32 qi) (BitVec.ofNat 32 qi) xq xk p.m),
        k1_pay12 (F := Ideal) (BitVec.ofNat 32 qi) (BitVec.ofNat 32 qi) xq xk p.m p.l,
        k1_pay4 (F := Ideal) (k1_pay7 (F := Ideal) xv) (k1_pay10 (F := Ideal) (BitVec.ofNat 32 qi) (BitVec.ofNat 32 qi) xq xk p.m)
          (k1_pay11 (F := Ideal) (BitVec.ofNat 32 qi) (BitVec.ofNat 32 qi) xq xk p.m) p.a,
        k1_pay6 (F := Ideal) (k1_pay4 (F := Ideal) (k1_pay7 (F := Ideal) xv) (k1_pay10 (F := Ideal) (BitVec.ofNat 32 qi) (BitVec.ofNat 32 qi) xq xk p.m)
            (k1_pay11 (F := Ideal) (BitVec.ofNat 32 qi) (BitVec.ofNat 32 qi) xq xk p.m) p.a)
          (k1_pay12 (F := Ideal) (BitVec.ofNat 32 qi) (BitVec.ofNat 32 qi) xq xk p.m p.l)⟩ := by
  rw [stepP_eq, if_pos (Nat.le_refl qi), if_pos rfl]
  unfold start updM updL updA
  rw [if_neg (Nat.ne_of_gt h0)]

/-- A key tile after the query tile (qi < ki): nothing changes. -/
theorem stepP_after (qi ki : ℕ) (hlt : qi < ki) (xq xk xv : Vec Ideal S1x512x128 .bf16) (p : R1.St Ideal) :
    stepP qi ki xq xk xv p = p := by
  rw [stepP_eq, if_neg (Nat.not_le_of_gt hlt)]
  unfold start
  rw [if_neg (Nat.ne_of_gt (Nat.lt_of_le_of_lt (Nat.zero_le qi) hlt))]

/-! ## One point read at a row -/

/-- One step of the tiled recurrence on a tile of scores τ and values w. -/
def ostep (τ w : Fin 512 → EReal) (s : EReal × EReal × EReal) : EReal × EReal × EReal :=
  (max s.1 (Finset.univ.sup τ),
    Ideal.exp (s.1 - max s.1 (Finset.univ.sup τ)) * s.2.1
      + ∑ j : Fin 512, Ideal.exp (τ j - max s.1 (Finset.univ.sup τ)),
    Ideal.exp (s.1 - max s.1 (Finset.univ.sup τ)) * s.2.2
      + ∑ j : Fin 512, Ideal.exp (τ j - max s.1 (Finset.univ.sup τ)) * w j)

/-- The recurrence's step is ostep on the tile's scores and values. -/
theorem online_succ_eq (σ u : ℕ → EReal) (n : ℕ) :
    Attn.online σ u (n + 1)
      = ostep (fun j => σ (n * 512 + j.val)) (fun j => u (n * 512 + j.val)) (Attn.online σ u n) := rfl

/-- Row r of the running maximum and total, and entry (r, d) of the running weighted sum. -/
def rowv (p : R1.St Ideal) (r : Fin 512) (d : Fin 128) : EReal × EReal × EReal :=
  (p.m (ix2 r (0 : Fin 1)), p.l (ix2 r (0 : Fin 1)), p.a (ix2 r d))

theorem rowv_reset (p : R1.St Ideal) (r : Fin 512) (d : Fin 128) : rowv (reset p) r d = (⊥, 0, 0) := by
  unfold rowv reset
  exact Prod.ext (pay1_apply r) (Prod.ext (pay2_apply r) (pay3_apply r d))

/-- The updated buffers at a row: one step of the recurrence on the tile's masked scaled scores. -/
theorem upd_row (qi ki : ℕ) (hq : qi < 4) (hk : ki < 4) (xq xk xv : Vec Ideal S1x512x128 .bf16)
    (p1 : R1.St Ideal) (r : Fin 512) (d : Fin 128) :
    (updM qi ki xq xk p1 (ix2 r (0 : Fin 1)), updL qi ki xq xk p1 (ix2 r (0 : Fin 1)),
        updA qi ki xq xk xv p1 (ix2 r d))
      = ostep (tileScore qi ki xq xk r) (fun j => xv (ix3 (0 : Fin 1) j d)) (rowv p1 r d) := by
  unfold updM updL updA
  rw [pay5_eq, pay9_apply qi ki hq hk, pay12_apply qi ki hq hk, pay4_apply qi ki hq hk]
  rfl

theorem stepP_row (qi ki : ℕ) (hq : qi < 4) (hle : ki ≤ qi) (xq xk xv : Vec Ideal S1x512x128 .bf16)
    (p : R1.St Ideal) (r : Fin 512) (d : Fin 128) :
    rowv (stepP qi ki xq xk xv p) r d
      = ostep (tileScore qi ki xq xk r) (fun j => xv (ix3 (0 : Fin 1) j d)) (rowv (start ki p) r d) := by
  rw [stepP_eq, if_pos hle]
  exact upd_row qi ki hq (Nat.lt_of_le_of_lt hle hq) xq xk xv (start ki p) r d

/-- At the diagonal tile the stored quotient is the step's weighted sum over its total. -/
theorem stepP_out (qi : ℕ) (hq : qi < 4) (xq xk xv : Vec Ideal S1x512x128 .bf16)
    (p : R1.St Ideal) (r : Fin 512) (d : Fin 128) :
    (stepP qi qi xq xk xv p).o (ix3 (0 : Fin 1) r d)
      = Ideal.div (ostep (tileScore qi qi xq xk r) (fun j => xv (ix3 (0 : Fin 1) j d)) (rowv (start qi p) r d)).2.2
          (ostep (tileScore qi qi xq xk r) (fun j => xv (ix3 (0 : Fin 1) j d)) (rowv (start qi p) r d)).2.1 := by
  have h := upd_row qi qi hq hq xq xk xv (start qi p) r d
  rw [stepP_eq, if_pos (Nat.le_refl qi)]
  show (if qi = qi then k1_pay6 (F := Ideal) (updA qi qi xq xk xv (start qi p)) (updL qi qi xq xk (start qi p))
    else (start qi p).o) (ix3 (0 : Fin 1) r d) = _
  rw [if_pos rfl, pay6_apply, ← h]

/-! ## The chain over the key tiles of one query tile -/

section Chain
variable (qi : ℕ) (xq : Vec Ideal S1x512x128 .bf16) (xk xv : ℕ → Vec Ideal S1x512x128 .bf16) (p0 : R1.St Ideal)

/-- The carried contents after key tile n of query tile qi. -/
def chain : ℕ → R1.St Ideal
  | 0 => stepP qi 0 xq (xk 0) (xv 0) p0
  | n + 1 => stepP qi (n + 1) xq (xk (n + 1)) (xv (n + 1)) (chain n)

/-- The contents key tile n starts from. -/
def prev : ℕ → R1.St Ideal
  | 0 => p0
  | n + 1 => chain qi xq xk xv p0 n

theorem chain_eq (n : ℕ) :
    chain qi xq xk xv p0 n = stepP qi n xq (xk n) (xv n) (prev qi xq xk xv p0 n) := by
  cases n <;> rfl

/-- The row's masked scaled scores along all key positions. -/
def rowScore (r : Fin 512) (s : ℕ) : EReal :=
  tileScore qi (s / 512) xq (xk (s / 512)) r ⟨s % 512, Nat.mod_lt s (by norm_num)⟩

/-- The value column of lane d along all key positions. -/
def colVal (d : Fin 128) (s : ℕ) : EReal :=
  xv (s / 512) (ix3 (0 : Fin 1) (⟨s % 512, Nat.mod_lt s (by norm_num)⟩ : Fin 512) d)

theorem rowScore_tile (r : Fin 512) (n : ℕ) (j : Fin 512) :
    rowScore qi xq xk r (n * 512 + j.val) = tileScore qi n xq (xk n) r j := by
  have h1 : (n * 512 + j.val) / 512 = n := by have := j.isLt; omega
  have h2 : (n * 512 + j.val) % 512 = j.val := by have := j.isLt; omega
  have hj : (⟨(n * 512 + j.val) % 512, Nat.mod_lt _ (by norm_num)⟩ : Fin 512) = j := Fin.ext h2
  unfold rowScore
  rw [hj, h1]

theorem colVal_tile (d : Fin 128) (n : ℕ) (j : Fin 512) :
    colVal xv d (n * 512 + j.val) = xv n (ix3 (0 : Fin 1) j d) := by
  have h1 : (n * 512 + j.val) / 512 = n := by have := j.isLt; omega
  have h2 : (n * 512 + j.val) % 512 = j.val := by have := j.isLt; omega
  have hj : (⟨(n * 512 + j.val) % 512, Nat.mod_lt _ (by norm_num)⟩ : Fin 512) = j := Fin.ext h2
  unfold colVal
  rw [hj, h1]

variable (hq : qi < 4) (r : Fin 512) (d : Fin 128)
include hq

/-- A point not after the query tile, at a row: one step of the recurrence on the row's scores. -/
theorem chain_step_row (n : ℕ) (hn : n ≤ qi) :
    rowv (chain qi xq xk xv p0 n) r d
      = ostep (fun j => rowScore qi xq xk r (n * 512 + j.val)) (fun j => colVal xv d (n * 512 + j.val))
          (rowv (start n (prev qi xq xk xv p0 n)) r d) := by
  rw [chain_eq, stepP_row qi n hq hn]
  have e1 : (fun j : Fin 512 => rowScore qi xq xk r (n * 512 + j.val)) = tileScore qi n xq (xk n) r :=
    funext fun j => rowScore_tile qi xq xk r n j
  have e2 : (fun j : Fin 512 => colVal xv d (n * 512 + j.val)) = fun j => xv n (ix3 (0 : Fin 1) j d) :=
    funext fun j => colVal_tile xv d n j
  rw [e1, e2]

/-- (a) Up to the query tile, the row of the carried contents is the tiled recurrence. -/
theorem chain_row (n : ℕ) (hn : n ≤ qi) :
    rowv (start n (prev qi xq xk xv p0 n)) r d = Attn.online (rowScore qi xq xk r) (colVal xv d) n
      ∧ rowv (chain qi xq xk xv p0 n) r d = Attn.online (rowScore qi xq xk r) (colVal xv d) (n + 1) := by
  induction n with
  | zero =>
    have h0 : rowv (start 0 (prev qi xq xk xv p0 0)) r d = Attn.online (rowScore qi xq xk r) (colVal xv d) 0 :=
      rowv_reset _ r d
    exact ⟨h0, by rw [chain_step_row qi xq xk xv p0 hq r d 0 hn, h0]; exact (online_succ_eq _ _ _).symm⟩
  | succ n ih =>
    have h0 : rowv (start (n + 1) (prev qi xq xk xv p0 (n + 1))) r d
        = Attn.online (rowScore qi xq xk r) (colVal xv d) (n + 1) :=
      (ih (Nat.le_of_succ_le hn)).2
    exact ⟨h0, by rw [chain_step_row qi xq xk xv p0 hq r d (n + 1) hn, h0]; exact (online_succ_eq _ _ _).symm⟩

theorem chain_m (n : ℕ) (hn : n ≤ qi) :
    (chain qi xq xk xv p0 n).m (ix2 r (0 : Fin 1)) = (Attn.online (rowScore qi xq xk r) (colVal xv d) (n + 1)).1 :=
  congrArg (·.1) (chain_row qi xq xk xv p0 hq r d n hn).2
theorem chain_l (n : ℕ) (hn : n ≤ qi) :
    (chain qi xq xk xv p0 n).l (ix2 r (0 : Fin 1)) = (Attn.online (rowScore qi xq xk r) (colVal xv d) (n + 1)).2.1 :=
  congrArg (·.2.1) (chain_row qi xq xk xv p0 hq r d n hn).2
theorem chain_a (n : ℕ) (hn : n ≤ qi) :
    (chain qi xq xk xv p0 n).a (ix2 r d) = (Attn.online (rowScore qi xq xk r) (colVal xv d) (n + 1)).2.2 :=
  congrArg (·.2.2) (chain_row qi xq xk xv p0 hq r d n hn).2

/-- (b) The output block after the diagonal tile is the recurrence's result after qi + 1 tiles. -/
theorem chain_out :
    (chain qi xq xk xv p0 qi).o (ix3 (0 : Fin 1) r d)
      = Attn.onlineOut (rowScore qi xq xk r) (colVal xv d) (qi + 1) := by
  have h := chain_row qi xq xk xv p0 hq r d qi (Nat.le_refl qi)
  have e1 : tileScore qi qi xq (xk qi) r = fun j : Fin 512 => rowScore qi xq xk r (qi * 512 + j.val) :=
    funext fun j => (rowScore_tile qi xq xk r qi j).symm
  have e2 : (fun j => xv qi (ix3 (0 : Fin 1) j d)) = fun j : Fin 512 => colVal xv d (qi * 512 + j.val) :=
    funext fun j => (colVal_tile xv d qi j).symm
  rw [chain_eq, stepP_out qi hq, h.1, e1, e2, ← online_succ_eq]
  rfl

omit hq in
/-- After the query tile a point changes nothing. -/
theorem chain_after (n : ℕ) (hn : qi ≤ n) : chain qi xq xk xv p0 n = chain qi xq xk xv p0 qi := by
  induction n, hn using Nat.le_induction with
  | base => rfl
  | succ n hn ih =>
    show stepP qi (n + 1) xq (xk (n + 1)) (xv (n + 1)) (chain qi xq xk xv p0 n) = _
    rw [stepP_after qi (n + 1) (Nat.lt_succ_of_le hn), ih]

omit hq in
/-- (c) The output block is kept through the key tiles after the query tile. -/
theorem chain_out_after (n : ℕ) (hn : qi ≤ n) : (chain qi xq xk xv p0 n).o = (chain qi xq xk xv p0 qi).o := by
  rw [chain_after qi xq xk xv p0 n hn]

end Chain

/-! ## The bridge to the specification -/

/-- The recurrence after n tiles only reads the first 512 n positions. -/
theorem online_congr (σ σ' u u' : ℕ → EReal) (n : ℕ) (h : ∀ s, s < n * 512 → σ s = σ' s ∧ u s = u' s) :
    Attn.online σ u n = Attn.online σ' u' n := by
  induction n with
  | zero => rfl
  | succ n ih =>
    have e1 : (fun j : Fin 512 => σ (n * 512 + j.val)) = fun j : Fin 512 => σ' (n * 512 + j.val) :=
      funext fun j => (h _ (by have := j.isLt; omega)).1
    have e2 : (fun j : Fin 512 => u (n * 512 + j.val)) = fun j : Fin 512 => u' (n * 512 + j.val) :=
      funext fun j => (h _ (by have := j.isLt; omega)).2
    rw [online_succ_eq, online_succ_eq, e1, e2, ih (fun s hs => h s (by omega))]

theorem onlineOut_congr (σ σ' u u' : ℕ → EReal) (n : ℕ) (h : ∀ s, s < n * 512 → σ s = σ' s ∧ u s = u' s) :
    Attn.onlineOut σ u n = Attn.onlineOut σ' u' n := by
  unfold Attn.onlineOut
  rw [online_congr σ σ' u u' n h]

section Bridge
variable (qi : ℕ) (hq : qi < 4) (xq : Vec Ideal S1x512x128 .bf16) (xk xv : ℕ → Vec Ideal S1x512x128 .bf16)
  (Q K Vv : Fin 8 → Fin 2048 → Fin 128 → EReal) (b : Fin 8)
  (hxq : ∀ (r : Fin 512) (d : Fin 128) (h : qi * 512 + r.val < 2048),
    xq (ix3 (0 : Fin 1) r d) = Q b ⟨qi * 512 + r.val, h⟩ d)
  (hxk : ∀ n, n ≤ qi → ∀ (j : Fin 512) (d : Fin 128) (h : n * 512 + j.val < 2048),
    xk n (ix3 (0 : Fin 1) j d) = K b ⟨n * 512 + j.val, h⟩ d)
  (hxv : ∀ n, n ≤ qi → ∀ (j : Fin 512) (d : Fin 128) (h : n * 512 + j.val < 2048),
    xv n (ix3 (0 : Fin 1) j d) = Vv b ⟨n * 512 + j.val, h⟩ d)
  (r : Fin 512) (d : Fin 128) (ht : qi * 512 + r.val < 2048)

include hq hxq hxk in
/-- On the key positions up to the end of the query tile the row's scores are the specification's causal row. -/
theorem rowScore_eq_row (s : ℕ) (hs : s < (qi + 1) * 512) :
    rowScore qi xq xk r s = Attn.row Q K b ⟨qi * 512 + r.val, ht⟩ s := by
  have hs2 : s < 2048 := by omega
  have hdm : s / 512 * 512 + s % 512 = s := Nat.div_add_mod' s 512
  have hlt : s / 512 * 512 + s % 512 < 2048 := by omega
  have hfin : (⟨s / 512 * 512 + s % 512, hlt⟩ : Fin 2048) = ⟨s, hs2⟩ := Fin.ext hdm
  unfold rowScore tileScore Attn.row
  rw [dif_pos hs2]
  by_cases hle : s ≤ qi * 512 + r.val
  · have hc : s / 512 * 512 + (⟨s % 512, Nat.mod_lt s (by norm_num)⟩ : Fin 512).val ≤ qi * 512 + r.val := by
      show s / 512 * 512 + s % 512 ≤ _
      omega
    rw [if_pos hc, if_pos hle]
    unfold Attn.score
    congr 1
    refine Finset.sum_congr rfl fun e _ => ?_
    rw [hxq r e ht, hxk (s / 512) (by omega) ⟨s % 512, Nat.mod_lt s (by norm_num)⟩ e hlt, hfin]
  · have hc : ¬ s / 512 * 512 + (⟨s % 512, Nat.mod_lt s (by norm_num)⟩ : Fin 512).val ≤ qi * 512 + r.val := by
      show ¬ s / 512 * 512 + s % 512 ≤ _
      omega
    rw [if_neg hc, if_neg hle]

include hq hxv in
/-- … and the value column is the specification's column. -/
theorem colVal_eq_col (s : ℕ) (hs : s < (qi + 1) * 512) : colVal xv d s = Attn.col Vv b d s := by
  have hs2 : s < 2048 := by omega
  have hdm : s / 512 * 512 + s % 512 = s := Nat.div_add_mod' s 512
  have hlt : s / 512 * 512 + s % 512 < 2048 := by omega
  have hfin : (⟨s / 512 * 512 + s % 512, hlt⟩ : Fin 2048) = ⟨s, hs2⟩ := Fin.ext hdm
  unfold colVal Attn.col
  rw [dif_pos hs2, hxv (s / 512) (by omega) ⟨s % 512, Nat.mod_lt s (by norm_num)⟩ d hlt, hfin]

include hq hxq hxk hxv in
/-- The stored output entry is the tiled recurrence on the specification's causal row and value column. -/
theorem chain_out_spec (p0 : R1.St Ideal) :
    (chain qi xq xk xv p0 qi).o (ix3 (0 : Fin 1) r d)
      = Attn.onlineOut (Attn.row Q K b ⟨qi * 512 + r.val, ht⟩) (Attn.col Vv b d) (qi + 1) := by
  rw [chain_out qi xq xk xv p0 hq r d]
  exact onlineOut_congr _ _ _ _ (qi + 1) fun s hs =>
    ⟨rowScore_eq_row qi hq xq xk Q K b hxq hxk r ht s hs, colVal_eq_col qi hq xv Vv b hxv d s hs⟩

end Bridge

/-! ## Real inputs: the plain softmax -/

theorem scale_real : ∃ x : ℝ, Attn.scale = (x : EReal) := by
  have hlt : Attn.scale ≠ ⊤ := by simp [Attn.scale, Ideal.ofBits, Ideal.ieee, -EReal.coe_mul]
  have hgt : Attn.scale ≠ ⊥ := by simp [Attn.scale, Ideal.ofBits, Ideal.ieee, -EReal.coe_mul]
  exact ⟨_, (EReal.coe_toReal hlt hgt).symm⟩

/-- A finite sum of reals is a real. -/
theorem real_sum {ι : Type*} [Fintype ι] (f : ι → EReal) (h : ∀ i, ∃ x : ℝ, f i = (x : EReal)) :
    ∃ x : ℝ, ∑ i, f i = (x : EReal) := by
  choose g hg using h
  refine ⟨∑ i, g i, ?_⟩
  rw [Attn.OS.coe_sum]
  exact Finset.sum_congr rfl fun i _ => hg i

theorem real_mul {a b : EReal} (ha : ∃ x : ℝ, a = (x : EReal)) (hb : ∃ x : ℝ, b = (x : EReal)) :
    ∃ x : ℝ, a * b = (x : EReal) := by
  obtain ⟨x, rfl⟩ := ha
  obtain ⟨y, rfl⟩ := hb
  exact ⟨x * y, (EReal.coe_mul x y).symm⟩

section Real
variable (Q K Vv : Fin 8 → Fin 2048 → Fin 128 → EReal)
  (hQ : ∀ b t d, ∃ x : ℝ, Q b t d = (x : EReal)) (hK : ∀ b t d, ∃ x : ℝ, K b t d = (x : EReal))
  (hV : ∀ b t d, ∃ x : ℝ, Vv b t d = (x : EReal))

include hQ hK in
theorem row_real (b : Fin 8) (t : Fin 2048) (s : ℕ) (hs : s ≤ t.val) :
    ∃ x : ℝ, Attn.row Q K b t s = (x : EReal) := by
  have hs2 : s < 2048 := Nat.lt_of_le_of_lt hs t.isLt
  unfold Attn.row
  rw [dif_pos hs2, if_pos hs]
  unfold Attn.score
  exact real_mul (real_sum _ fun e => real_mul (hQ b t e) (hK b ⟨s, hs2⟩ e)) scale_real

theorem row_mask (b : Fin 8) (t : Fin 2048) (s : ℕ) (hs : t.val < s) : Attn.row Q K b t s = ⊥ := by
  unfold Attn.row
  by_cases hs2 : s < 2048
  · rw [dif_pos hs2, if_neg (Nat.not_le_of_gt hs)]
  · rw [dif_neg hs2]

include hV in
theorem col_real (b : Fin 8) (d : Fin 128) (s : ℕ) : ∃ x : ℝ, Attn.col Vv b d s = (x : EReal) := by
  unfold Attn.col
  by_cases hs2 : s < 2048
  · rw [dif_pos hs2]; exact hV b ⟨s, hs2⟩ d
  · rw [dif_neg hs2]; exact ⟨0, EReal.coe_zero.symm⟩

include hQ hK hV in
/-- On real inputs the tiled recurrence run up to the row's own tile is the specification's softmax-weighted sum. -/
theorem onlineOut_spec (b : Fin 8) (qi : ℕ) (r : Fin 512) (d : Fin 128) (ht : qi * 512 + r.val < 2048) :
    Attn.onlineOut (Attn.row Q K b ⟨qi * 512 + r.val, ht⟩) (Attn.col Vv b d) (qi + 1)
      = Attn.softmaxSum (Attn.row Q K b ⟨qi * 512 + r.val, ht⟩) (Attn.col Vv b d) := by
  have hn : (qi * 512 + r.val) / 512 + 1 = qi + 1 := by have := r.isLt; omega
  have h := Attn.onlineOut_eq_softmaxSum (Attn.row Q K b ⟨qi * 512 + r.val, ht⟩) (Attn.col Vv b d)
    (qi * 512 + r.val) ht
    (fun s hs => row_real Q K hQ hK b ⟨qi * 512 + r.val, ht⟩ s hs)
    (fun s hs => row_mask Q K b ⟨qi * 512 + r.val, ht⟩ s hs)
    (fun s => col_real Vv hV b d s)
  rw [hn] at h
  exact h

end Real

/-- The stored output entry of query tile qi, on real inputs read off the whole arrays: the
    specification's softmax-weighted sum at row qi · 512 + r and lane d. -/
theorem chain_out_softmax (qi : ℕ) (hq : qi < 4) (xq : Vec Ideal S1x512x128 .bf16)
    (xk xv : ℕ → Vec Ideal S1x512x128 .bf16) (Q K Vv : Fin 8 → Fin 2048 → Fin 128 → EReal) (b : Fin 8)
    (hxq : ∀ (r : Fin 512) (d : Fin 128) (h : qi * 512 + r.val < 2048),
      xq (ix3 (0 : Fin 1) r d) = Q b ⟨qi * 512 + r.val, h⟩ d)
    (hxk : ∀ n, n ≤ qi → ∀ (j : Fin 512) (d : Fin 128) (h : n * 512 + j.val < 2048),
      xk n (ix3 (0 : Fin 1) j d) = K b ⟨n * 512 + j.val, h⟩ d)
    (hxv : ∀ n, n ≤ qi → ∀ (j : Fin 512) (d : Fin 128) (h : n * 512 + j.val < 2048),
      xv n (ix3 (0 : Fin 1) j d) = Vv b ⟨n * 512 + j.val, h⟩ d)
    (hQ : ∀ b t d, ∃ x : ℝ, Q b t d = (x : EReal)) (hK : ∀ b t d, ∃ x : ℝ, K b t d = (x : EReal))
    (hV : ∀ b t d, ∃ x : ℝ, Vv b t d = (x : EReal))
    (r : Fin 512) (d : Fin 128) (ht : qi * 512 + r.val < 2048) (p0 : R1.St Ideal) :
    (chain qi xq xk xv p0 qi).o (ix3 (0 : Fin 1) r d)
      = Attn.softmaxSum (Attn.row Q K b ⟨qi * 512 + r.val, ht⟩) (Attn.col Vv b d) := by
  rw [chain_out_spec qi hq xq xk xv Q K Vv b hxq hxk hxv r d ht p0]
  exact onlineOut_spec Q K Vv hQ hK hV b qi r d ht

end Cert.KernelIdeal.R1C

end
-- ==== Proof.R1Step.lean ====
/-
  The attention region at the exact instance: one grid point's effect on the carried contents, found by running the
  body, is the body's named arithmetic applied as the three conditions dictate — reset when the key tile is the first,
  update when it is not after the query tile, quotient when it is the query tile.
-/
import proofs.«165543_j62113817035141_2_alg».proof.Proof.R1Pay
import proofs.«165543_j62113817035141_2_alg».proof.Proof.R1Chain

set_option maxRecDepth 16384

noncomputable section

namespace Cert.KernelIdeal.R1

open Idealize.ShloMosaic Idealize.ShloMosaic.TcCoe
open Idealize.SL Idealize.SL.Sem
open Cert.KernelIdeal Cert.KernelIdeal.Gen

/-- The grid's second and third coordinates of a point: query tile and key tile. -/
theorem coords12 : ∀ t : Fin cfg1.N, ((grid1.coords t) 1).val = t.val / 4 % 4 ∧ ((grid1.coords t) 2).val = t.val % 4 :=
  (by decide +kernel : ∀ t : Fin grid1.N, ((grid1.coords t) 1).val = t.val / 4 % 4 ∧ ((grid1.coords t) 2).val = t.val % 4)

set_option maxHeartbeats 1600000 in
theorem stepAt_eq_stepP (V : (c : Dev nD) → (b : Ref sig .tc) → Buf (Elt Ideal) ((c : Thread nD τ).loc b)) (c : Dev nD)
    (t : Fin cfg1.N) (p : St Ideal) :
    stepAt V c t p = R1C.stepP (t.val / 4 % 4) (t.val % 4) (iblk V c 0 t) (iblk V c 1 t) (iblk V c 2 t) p := by
  obtain ⟨e1, e2⟩ := coords12 t
  by_cases h1 : c1 (grid1.coords t)
  · have k0 : t.val % 4 = 0 := (hc1 t).mp h1
    by_cases h3 : c3 (grid1.coords t)
    · have q0 : t.val / 4 % 4 = 0 := by have := (hc3 t).mp h3; omega
      rw [stepAt_A V c t p h1 h3, A_M V c t h1 h3, A_L V c t h1 h3, A_A V c t h1 h3, A_O V c t h1 h3, e1, e2, k0, q0, R1C.stepP_reset_last]
    · have q0 : 0 < t.val / 4 % 4 := by
        have : ¬ t.val % 4 = t.val / 4 % 4 := fun e => h3 ((hc3 t).mpr e)
        omega
      rw [stepAt_B V c t p h1 h3, B_M V c t h1 h3, B_L V c t h1 h3, B_A V c t h1 h3, e1, e2, k0, R1C.stepP_reset (t.val / 4 % 4) q0]
  · have k0 : 0 < t.val % 4 := by
      have : ¬ t.val % 4 = 0 := fun e => h1 ((hc1 t).mpr e)
      omega
    by_cases h2 : c2 (grid1.coords t)
    · by_cases h3 : c3 (grid1.coords t)
      · have hq : t.val % 4 = t.val / 4 % 4 := (hc3 t).mp h3
        rw [stepAt_D V c t p h1 h2 h3, D_M V c t h1 h2 h3 p, D_L V c t h1 h2 h3 p, D_A V c t h1 h2 h3 p, D_O V c t h1 h2 h3 p, e1, e2, hq, R1C.stepP_last (t.val / 4 % 4) (by omega)]
      · have hlt : t.val % 4 < t.val / 4 % 4 := by
          have a := (hc2 t).mp h2
          have b : ¬ t.val % 4 = t.val / 4 % 4 := fun e => h3 ((hc3 t).mpr e)
          omega
        rw [stepAt_C V c t p h1 h2 h3, C_M V c t h1 h2 h3 p, C_L V c t h1 h2 h3 p, C_A V c t h1 h2 h3 p, e1, e2, R1C.stepP_mid (t.val / 4 % 4) (t.val % 4) k0 hlt]
    · have hlt : t.val / 4 % 4 < t.val % 4 := by
        have : ¬ t.val % 4 ≤ t.val / 4 % 4 := fun e => h2 ((hc2 t).mpr e)
        omega
      rw [stepAt_E V c t p h1 h2, R1C.stepP_after (t.val / 4 % 4) (t.val % 4) hlt]

end Cert.KernelIdeal.R1

end
-- ==== Proof.R1Blocks.lean ====
/-
  The attention region's windows, read block by block.

  The region's grid has 8 × 4 × 4 points; point t stands for batch t / 16, query tile (t / 4) % 4 and key
  tile t % 4. Every window's block is one batch, 512 positions, all 128 features. The query window and
  the output window take the block (batch, query tile); the key and value windows take the block
  (batch, min (key tile) (query tile)). An element (0, r, d) of a block with block index (β, κ, 0) sits in
  the array at (β, κ · 512 + r, d): a block's coordinate is always index × size + the coordinate inside.
-/
import proofs.«165543_j62113817035141_2_alg».proof.Proof.Gen.KernelIdeal.Launch
import proofs.«165543_j62113817035141_2_alg».proof.Proof.Gen.KernelIdeal.Points
import Idealize.ShloMosaic.Lib.Pipeline.Value
import Idealize.ShloMosaic.Lib.ValueIdx

noncomputable section

namespace Cert.KernelIdeal.R1B

open Cert.KernelIdeal Cert.KernelIdeal.Gen Idealize.ShloMosaic Idealize.ShloMosaic.TcCoe Idealize.SL.Sem
  Idealize.ShloMosaic.ValueIdx

variable {F : FTy → Type} [FloatOps F] [Named F]

/-- The grid has 128 points. -/
theorem tlt (t : Fin cfg1.N) : t.val < 128 := lt_of_lt_of_eq t.isLt N_1

/-- The batch of point t. -/
def pb (t : Fin cfg1.N) : Fin 8 := ⟨t.val / 16, by have := tlt t; omega⟩
/-- The query tile of point t. -/
def pq (t : Fin cfg1.N) : Fin 4 := ⟨t.val / 4 % 4, by omega⟩
/-- The key tile of point t. -/
def pk (t : Fin cfg1.N) : Fin 4 := ⟨t.val % 4, by omega⟩
/-- The key tile the key and value windows fetch at point t: never beyond the query tile. -/
def pkv (t : Fin cfg1.N) : Fin 4 := ⟨min (t.val % 4) (t.val / 4 % 4), by omega⟩
/-- Position r of tile κ. -/
def pos (κ : Fin 4) (r : Fin 512) : Fin 2048 := ⟨κ.val * 512 + r.val, by omega⟩

/-- The printed index maps over the grid, decided once. -/
theorem idx0 : ∀ t : Fin cfg1.N, win1_0.index t 0 = t.val / 16 ∧ win1_0.index t 1 = t.val / 4 % 4 ∧ win1_0.index t 2 = 0 :=
  (by decide +kernel : ∀ t : Fin grid1.N, win1_0.index t 0 = t.val / 16 ∧ win1_0.index t 1 = t.val / 4 % 4 ∧ win1_0.index t 2 = 0)
theorem idx1 : ∀ t : Fin cfg1.N, win1_1.index t 0 = t.val / 16 ∧ win1_1.index t 1 = min (t.val % 4) (t.val / 4 % 4) ∧ win1_1.index t 2 = 0 :=
  (by decide +kernel : ∀ t : Fin grid1.N, win1_1.index t 0 = t.val / 16 ∧ win1_1.index t 1 = min (t.val % 4) (t.val / 4 % 4) ∧ win1_1.index t 2 = 0)
theorem idx2 : ∀ t : Fin cfg1.N, win1_2.index t 0 = t.val / 16 ∧ win1_2.index t 1 = min (t.val % 4) (t.val / 4 % 4) ∧ win1_2.index t 2 = 0 :=
  (by decide +kernel : ∀ t : Fin grid1.N, win1_2.index t 0 = t.val / 16 ∧ win1_2.index t 1 = min (t.val % 4) (t.val / 4 % 4) ∧ win1_2.index t 2 = 0)
theorem idx3 : ∀ t : Fin cfg1.N, win1_3.index t 0 = t.val / 16 ∧ win1_3.index t 1 = t.val / 4 % 4 ∧ win1_3.index t 2 = 0 :=
  (by decide +kernel : ∀ t : Fin grid1.N, win1_3.index t 0 = t.val / 16 ∧ win1_3.index t 1 = t.val / 4 % 4 ∧ win1_3.index t 2 = 0)

/-- The query window's block at point t: batch of t, query tile of t. -/
theorem read0 (A : FVec F S8x2048x128 .bf16) (t : Fin cfg1.N) (r : Fin 512) (d : Fin 128) :
    (((cfg1.win 0).blk t).view.read (Elt F) A : FVec F S1x512x128 .bf16) (ix3 (0 : Fin 1) r d)
      = A (ix3 (pb t) (pos (pq t) r) d) := by
  obtain ⟨h0, h1, h2⟩ := idx0 t
  rw [View.read_apply]
  show A _ = A _
  congr 1
  funext a
  apply Fin.ext
  match a with
  | ⟨0, _⟩ => show win1_0.index t 0 * 1 + 1 * 0 = t.val / 16; rw [h0]; omega
  | ⟨1, _⟩ => show win1_0.index t 1 * 512 + 1 * r.val = t.val / 4 % 4 * 512 + r.val; rw [h1]; omega
  | ⟨2, _⟩ => show win1_0.index t 2 * 128 + 1 * d.val = d.val; rw [h2]; omega

/-- The key window's block at point t: batch of t, the smaller of key tile and query tile. -/
theorem read1 (A : FVec F S8x2048x128 .bf16) (t : Fin cfg1.N) (r : Fin 512) (d : Fin 128) :
    (((cfg1.win 1).blk t).view.read (Elt F) A : FVec F S1x512x128 .bf16) (ix3 (0 : Fin 1) r d)
      = A (ix3 (pb t) (pos (pkv t) r) d) := by
  obtain ⟨h0, h1, h2⟩ := idx1 t
  rw [View.read_apply]
  show A _ = A _
  congr 1
  funext a
  apply Fin.ext
  match a with
  | ⟨0, _⟩ => show win1_1.index t 0 * 1 + 1 * 0 = t.val / 16; rw [h0]; omega
  | ⟨1, _⟩ => show win1_1.index t 1 * 512 + 1 * r.val = min (t.val % 4) (t.val / 4 % 4) * 512 + r.val; rw [h1]; omega
  | ⟨2, _⟩ => show win1_1.index t 2 * 128 + 1 * d.val = d.val; rw [h2]; omega

/-- The value window's block at point t: batch of t, the smaller of key tile and query tile. -/
theorem read2 (A : FVec F S8x2048x128 .bf16) (t : Fin cfg1.N) (r : Fin 512) (d : Fin 128) :
    (((cfg1.win 2).blk t).view.read (Elt F) A : FVec F S1x512x128 .bf16) (ix3 (0 : Fin 1) r d)
      = A (ix3 (pb t) (pos (pkv t) r) d) := by
  obtain ⟨h0, h1, h2⟩ := idx2 t
  rw [View.read_apply]
  show A _ = A _
  congr 1
  funext a
  apply Fin.ext
  match a with
  | ⟨0, _⟩ => show win1_2.index t 0 * 1 + 1 * 0 = t.val / 16; rw [h0]; omega
  | ⟨1, _⟩ => show win1_2.index t 1 * 512 + 1 * r.val = min (t.val % 4) (t.val / 4 % 4) * 512 + r.val; rw [h1]; omega
  | ⟨2, _⟩ => show win1_2.index t 2 * 128 + 1 * d.val = d.val; rw [h2]; omega

/-- The output window's block at point t: batch of t, query tile of t. -/
theorem read3 (A : FVec F S8x2048x128 .f32) (t : Fin cfg1.N) (r : Fin 512) (d : Fin 128) :
    (((cfg1.win 3).blk t).view.read (Elt F) A : FVec F S1x512x128 .f32) (ix3 (0 : Fin 1) r d)
      = A (ix3 (pb t) (pos (pq t) r) d) := by
  obtain ⟨h0, h1, h2⟩ := idx3 t
  rw [View.read_apply]
  show A _ = A _
  congr 1
  funext a
  apply Fin.ext
  match a with
  | ⟨0, _⟩ => show win1_3.index t 0 * 1 + 1 * 0 = t.val / 16; rw [h0]; omega
  | ⟨1, _⟩ => show win1_3.index t 1 * 512 + 1 * r.val = t.val / 4 % 4 * 512 + r.val; rw [h1]; omega
  | ⟨2, _⟩ => show win1_3.index t 2 * 128 + 1 * d.val = d.val; rw [h2]; omega

end Cert.KernelIdeal.R1B

end
-- ==== Proof.R1Array.lean ====
/-
  The attention region's output array, from its blocks.

  The output window's block — one batch, 512 query positions, all 128 features — is written back at
  the last key tile of every (batch, query tile) pair, that is at the grid points t with t % 4 = 3,
  and those 32 blocks tile the 8 × 2048 × 128 array. So if, at each such point, the block the body
  leaves is the block of one function G of the array's index, the array ends holding G.
-/
import proofs.«165543_j62113817035141_2_alg».proof.Proof.R1Dat
import proofs.«165543_j62113817035141_2_alg».proof.Proof.R1Blocks
import Idealize.ShloMosaic.Lib.Pipeline.Value
import Idealize.ShloMosaic.Lib.ValueIdx

set_option maxRecDepth 16384

noncomputable section

namespace Cert.KernelIdeal.R1Arr

open Cert.KernelIdeal Cert.KernelIdeal.Gen
open Idealize.ShloMosaic Idealize.ShloMosaic.TcCoe Idealize.SL.Sem
open Idealize.ShloMosaic.ValueIdx
open Idealize.ShloMosaic.Pipeline (Dat)

variable {F : FTy → Type} [FloatOps F] [Named F]

-- the buffer contents of each core when the region is entered
variable (V : (c : Dev nD) → (b : Ref sig .tc) → Buf (Elt F) ((c : Thread nD τ).loc b))

/-- What a write-back point writes back is its block of G, when the output block the body leaves
    there is G at the block's batch and positions. -/
theorem flushed3_eq (c : Dev nD) (G : FVec F S8x2048x128 .f32)
    (hG : ∀ t : Fin cfg1.N, t.val % 4 = 3 → ∀ (r : Fin 512) (d : Fin 128),
      (R1.st V c t.val t.isLt).o (ix3 (0 : Fin 1) r d) = G (ix3 (R1B.pb t) (R1B.pos (R1B.pq t) r) d))
    (t : Fin cfg1.N) (hf : (cfg1.win 3).flush t = true) :
    (R1.dat1 V c).flushed 3 t = ((cfg1.win 3).blk t).view.read (Elt F) G := by
  have h3 : t.val % 4 = 3 := (R1.flush3 t).mp hf
  show (cfg1.win 3).cut (grid1.coords t) ((R1.dat1 V c).after 3 t) = _
  rw [R1.after1_3]
  funext j
  obtain ⟨z, r, d, rfl⟩ : ∃ (z : Fin 1) (r : Fin 512) (d : Fin 128), j = ix3 z r d :=
    ⟨j 0, j 1, j 2, eq_ix3 j⟩
  obtain rfl : z = 0 := Subsingleton.elim _ _
  show (R1.st V c t.val t.isLt).o (ix3 (0 : Fin 1) r d) = _
  rw [hG t h3 r d]
  exact (R1B.read3 G t r d).symm

/-- An index of the output array is in point t's block iff each coordinate is in the block's range. -/
theorem mem_blk3 (t : Fin cfg1.N) (i : S8x2048x128.Idx) :
    i ∈ ((cfg1.win 3).blk t).view.set ↔ ∀ a : Fin 3, win1_3.index t a * S1x512x128.size a ≤ (i a).val
      ∧ (i a).val < win1_3.index t a * S1x512x128.size a + S1x512x128.size a := by
  show i ∈ ((View.whole main_v8).slice (win1_3.rect t)).set ↔ _
  rw [View.set_slice_whole, Rect.mem_set_unit]
  exact Iff.rfl

/-- Every index (b, s, d) of the output array is in the block written back at the last key tile of
    batch b and query tile s / 512: the point b · 16 + (s / 512) · 4 + 3. -/
theorem cover3 (i : S8x2048x128.Idx) :
    ∃ t : Fin cfg1.N, (cfg1.win 3).flush t = true ∧ i ∈ ((cfg1.win 3).blk t).view.set := by
  have h0 : (i 0).val < 8 := (i 0).isLt
  have h1 : (i 1).val < 2048 := (i 1).isLt
  have h2 : (i 2).val < 128 := (i 2).isLt
  have hN : grid1.N = 128 := N_1
  obtain ⟨t, ht⟩ : ∃ t : Fin cfg1.N, t.val = (i 0).val * 16 + (i 1).val / 512 * 4 + 3 :=
    ⟨⟨(i 0).val * 16 + (i 1).val / 512 * 4 + 3, by show _ < grid1.N; rw [hN]; omega⟩, rfl⟩
  obtain ⟨e0, e1, e2⟩ := R1B.idx3 t
  refine ⟨t, (R1.flush3 t).mpr (by omega), ?_⟩
  rw [mem_blk3]
  intro a
  match a with
  | ⟨0, _⟩ =>
    show win1_3.index t 0 * 1 ≤ (i 0).val ∧ (i 0).val < win1_3.index t 0 * 1 + 1
    rw [e0, ht]; omega
  | ⟨1, _⟩ =>
    show win1_3.index t 1 * 512 ≤ (i 1).val ∧ (i 1).val < win1_3.index t 1 * 512 + 512
    rw [e1, ht]; omega
  | ⟨2, _⟩ =>
    show win1_3.index t 2 * 128 ≤ (i 2).val ∧ (i 2).val < win1_3.index t 2 * 128 + 128
    rw [e2]; omega

/-- The output array after the region is G, when at every write-back point the output block the
    body leaves is G at the block's batch and positions. -/
theorem arrAt3_of (c : Dev nD) (G : FVec F S8x2048x128 .f32)
    (hG : ∀ t : Fin cfg1.N, t.val % 4 = 3 → ∀ (r : Fin 512) (d : Fin 128),
      (R1.st V c t.val t.isLt).o (ix3 (0 : Fin 1) r d) = G (ix3 (R1B.pb t) (R1B.pos (R1B.pq t) r) d)) :
    (R1.dat1 V c).arrAt 3 cfg1.N = G :=
  (R1.dat1 V c).arrAt_eq_of_cover 3 G (flushed3_eq V c G hG) cover3

end Cert.KernelIdeal.R1Arr

end
-- ==== Proof.R1Group.lean ====
/-
  From the per-point recursion to the attention region's output array.

  The region's 128 grid points come in groups of four: one batch and one query tile, the key tile
  running 0 … 3. Along a group the carried contents are the chain of per-point steps over the key
  tiles, whose output block after the query tile's own key tile is the softmax-weighted sum of the
  value column along the causal row; the block is kept to the group's last point, where it is written
  back, and the 32 blocks written back tile the output array.
-/
import proofs.«165543_j62113817035141_2_alg».proof.Proof.R1Chain
import proofs.«165543_j62113817035141_2_alg».proof.Proof.R1Array
import proofs.«165543_j62113817035141_2_alg».proof.Proof.R1Blocks

set_option maxRecDepth 16384

noncomputable section

namespace Cert.KernelIdeal.R1G

open Cert.KernelIdeal Cert.KernelIdeal.Gen
open Idealize.ShloMosaic Idealize.ShloMosaic.TcCoe Idealize.SL.Sem
open Idealize.ShloMosaic.ValueIdx
open Cert.KernelIdeal.R1C

-- the buffer contents of each core when the region is entered
variable (V : (c : Dev nD) → (b : Ref sig .tc) → Buf (Elt Ideal) ((c : Thread nD τ).loc b)) (c : Dev nD)

/-! ## The recursion over all points, as total functions of the point's number -/

theorem N128 : cfg1.N = 128 := N_1
theorem Npos : 0 < cfg1.N := by rw [N128]; norm_num

/-- The carried contents after point k (anything past the grid). -/
def stN (k : ℕ) : R1.St Ideal := if h : k < cfg1.N then R1.st V c k h else R1.st0

/-- The contents point k starts from. -/
def prevN (k : ℕ) : R1.St Ideal := if k = 0 then R1.st0 else stN V c (k - 1)

/-- The query, key and value blocks at point k. -/
def bq (k : ℕ) : Vec Ideal S1x512x128 .bf16 :=
  if h : k < cfg1.N then R1.iblk V c 0 ⟨k, h⟩ else R1.iblk V c 0 ⟨0, Npos⟩
def bk (k : ℕ) : Vec Ideal S1x512x128 .bf16 :=
  if h : k < cfg1.N then R1.iblk V c 1 ⟨k, h⟩ else R1.iblk V c 1 ⟨0, Npos⟩
def bv (k : ℕ) : Vec Ideal S1x512x128 .bf16 :=
  if h : k < cfg1.N then R1.iblk V c 2 ⟨k, h⟩ else R1.iblk V c 2 ⟨0, Npos⟩

theorem stN_step (k : ℕ) (h : k < cfg1.N) : stN V c k = R1.stepAt V c ⟨k, h⟩ (prevN V c k) := by
  cases k with
  | zero =>
    unfold stN prevN
    rw [dif_pos h, if_pos rfl]
    rfl
  | succ k =>
    unfold prevN
    rw [if_neg (Nat.succ_ne_zero k), Nat.add_sub_cancel]
    unfold stN
    rw [dif_pos h, dif_pos (Nat.lt_of_succ_lt h)]
    rfl

section
variable (hstep : ∀ (t : Fin cfg1.N) (p : R1.St Ideal), R1.stepAt V c t p
  = stepP (t.val / 4 % 4) (t.val % 4) (R1.iblk V c 0 t) (R1.iblk V c 1 t) (R1.iblk V c 2 t) p)
include hstep

/-- Every point is one payload step on the point's blocks. -/
theorem stN_stepP (k : ℕ) (h : k < cfg1.N) :
    stN V c k = stepP (k / 4 % 4) (k % 4) (bq V c k) (bk V c k) (bv V c k) (prevN V c k) := by
  rw [stN_step V c k h, hstep ⟨k, h⟩]
  unfold bq bk bv
  rw [dif_pos h, dif_pos h, dif_pos h]

end

/-! ## The blocks at an index -/

theorem bq_apply (k : ℕ) (h : k < cfg1.N) (r : Fin 512) (d : Fin 128) :
    bq V c k (ix3 (0 : Fin 1) r d)
      = (V c main_v5 : FVec Ideal S8x2048x128 .bf16) (ix3 (R1B.pb ⟨k, h⟩) (R1B.pos (R1B.pq ⟨k, h⟩) r) d) := by
  unfold bq
  rw [dif_pos h]
  exact R1B.read0 (F := Ideal) (V c main_v5) ⟨k, h⟩ r d

theorem bk_apply (k : ℕ) (h : k < cfg1.N) (r : Fin 512) (d : Fin 128) :
    bk V c k (ix3 (0 : Fin 1) r d)
      = (V c main_v6 : FVec Ideal S8x2048x128 .bf16) (ix3 (R1B.pb ⟨k, h⟩) (R1B.pos (R1B.pkv ⟨k, h⟩) r) d) := by
  unfold bk
  rw [dif_pos h]
  exact R1B.read1 (F := Ideal) (V c main_v6) ⟨k, h⟩ r d

theorem bv_apply (k : ℕ) (h : k < cfg1.N) (r : Fin 512) (d : Fin 128) :
    bv V c k (ix3 (0 : Fin 1) r d)
      = (V c main_v7 : FVec Ideal S8x2048x128 .bf16) (ix3 (R1B.pb ⟨k, h⟩) (R1B.pos (R1B.pkv ⟨k, h⟩) r) d) := by
  unfold bv
  rw [dif_pos h]
  exact R1B.read2 (F := Ideal) (V c main_v7) ⟨k, h⟩ r d

/-- The query block is the same at the four points of a group. -/
theorem bq_group (g n : ℕ) (hn : n < 4) (h : 4 * g + n < cfg1.N) : bq V c (4 * g + n) = bq V c (4 * g) := by
  have h0 : 4 * g < cfg1.N := by omega
  funext j
  obtain ⟨z, r, d, rfl⟩ : ∃ (z : Fin 1) (r : Fin 512) (d : Fin 128), j = ix3 z r d := ⟨j 0, j 1, j 2, eq_ix3 j⟩
  obtain rfl : z = 0 := Subsingleton.elim _ _
  rw [bq_apply V c (4 * g + n) h, bq_apply V c (4 * g) h0]
  have e1 : R1B.pb ⟨4 * g + n, h⟩ = R1B.pb ⟨4 * g, h0⟩ := Fin.ext (by show (4 * g + n) / 16 = 4 * g / 16; omega)
  have e2 : R1B.pq ⟨4 * g + n, h⟩ = R1B.pq ⟨4 * g, h0⟩ :=
    Fin.ext (by show (4 * g + n) / 4 % 4 = 4 * g / 4 % 4; omega)
  rw [e1, e2]

/-! ## A group of four points is the chain over its key tiles -/

section
variable (hstep : ∀ (t : Fin cfg1.N) (p : R1.St Ideal), R1.stepAt V c t p
  = stepP (t.val / 4 % 4) (t.val % 4) (R1.iblk V c 0 t) (R1.iblk V c 1 t) (R1.iblk V c 2 t) p)
include hstep

/-- (A) Along the group of batch and query tile number g, the carried contents after key tile n are
    the chain over the group's key and value blocks, started from the contents before the group. -/
theorem stN_group (g n : ℕ) (hn : n < 4) (h : 4 * g + n < cfg1.N) :
    stN V c (4 * g + n)
      = chain (g % 4) (bq V c (4 * g)) (fun n => bk V c (4 * g + n)) (fun n => bv V c (4 * g + n))
          (prevN V c (4 * g)) n := by
  induction n with
  | zero =>
    have e1 : 4 * g / 4 % 4 = g % 4 := by omega
    have e2 : 4 * g % 4 = 0 := by omega
    show stN V c (4 * g)
      = stepP (g % 4) 0 (bq V c (4 * g)) (bk V c (4 * g)) (bv V c (4 * g)) (prevN V c (4 * g))
    rw [stN_stepP V c hstep (4 * g) h, e1, e2]
  | succ n ih =>
    have h' : 4 * g + n < cfg1.N := by omega
    have e1 : (4 * g + (n + 1)) / 4 % 4 = g % 4 := by omega
    have e2 : (4 * g + (n + 1)) % 4 = n + 1 := by omega
    have e3 : prevN V c (4 * g + (n + 1)) = stN V c (4 * g + n) := by
      unfold prevN
      rw [if_neg (by omega)]
      rfl
    show stN V c (4 * g + (n + 1))
      = stepP (g % 4) (n + 1) (bq V c (4 * g)) (bk V c (4 * g + (n + 1))) (bv V c (4 * g + (n + 1)))
          (chain (g % 4) (bq V c (4 * g)) (fun n => bk V c (4 * g + n)) (fun n => bv V c (4 * g + n))
            (prevN V c (4 * g)) n)
    rw [stN_stepP V c hstep _ h, e1, e2, e3, ih (by omega) h', bq_group V c g (n + 1) hn h]

/-- (A), on the recursion itself. -/
theorem st_group (g n : ℕ) (hn : n < 4) (h : 4 * g + n < cfg1.N) :
    R1.st V c (4 * g + n) h
      = chain (g % 4) (bq V c (4 * g)) (fun n => bk V c (4 * g + n)) (fun n => bv V c (4 * g + n))
          (prevN V c (4 * g)) n := by
  rw [← stN_group V c hstep g n hn h]
  unfold stN
  rw [dif_pos h]

variable (Q K Vv : Fin 8 → Fin 2048 → Fin 128 → EReal)
  (hQ : ∀ b t d, ∃ x : ℝ, Q b t d = (x : EReal)) (hK : ∀ b t d, ∃ x : ℝ, K b t d = (x : EReal))
  (hV : ∀ b t d, ∃ x : ℝ, Vv b t d = (x : EReal))
  (hq : ∀ (b : Fin 8) (s : Fin 2048) (d : Fin 128), (V c main_v5 : FVec Ideal S8x2048x128 .bf16) (ix3 b s d) = Q b s d)
  (hk : ∀ (b : Fin 8) (s : Fin 2048) (d : Fin 128), (V c main_v6 : FVec Ideal S8x2048x128 .bf16) (ix3 b s d) = K b s d)
  (hv : ∀ (b : Fin 8) (s : Fin 2048) (d : Fin 128), (V c main_v7 : FVec Ideal S8x2048x128 .bf16) (ix3 b s d) = Vv b s d)
include hQ hK hV hq hk hv

/-- (B) At the last point of a group the output block holds the softmax-weighted sums of the group's
    batch and query rows. -/
theorem out_block (t : Fin cfg1.N) (h3 : t.val % 4 = 3) (r : Fin 512) (d : Fin 128) :
    (R1.st V c t.val t.isLt).o (ix3 (0 : Fin 1) r d)
      = Attn.softmaxSum (Attn.row Q K (R1B.pb t) (R1B.pos (R1B.pq t) r)) (Attn.col Vv (R1B.pb t) d) := by
  obtain ⟨tv, htv⟩ := t
  have h3' : tv % 4 = 3 := h3
  obtain ⟨g, rfl⟩ : ∃ g, tv = 4 * g + 3 := ⟨tv / 4, by omega⟩
  have hN := N128
  have hqi : g % 4 < 4 := Nat.mod_lt _ (by norm_num)
  have hr := r.isLt
  have ht : g % 4 * 512 + r.val < 2048 := by omega
  have hpos : R1B.pos (R1B.pq ⟨4 * g + 3, htv⟩) r = ⟨g % 4 * 512 + r.val, ht⟩ :=
    Fin.ext (by show (4 * g + 3) / 4 % 4 * 512 + r.val = g % 4 * 512 + r.val; omega)
  show (R1.st V c (4 * g + 3) htv).o (ix3 (0 : Fin 1) r d) = _
  rw [st_group V c hstep g 3 (by norm_num) htv, chain_out_after (g % 4) _ _ _ _ 3 (by omega), hpos]
  refine chain_out_softmax (g % 4) hqi _ _ _ Q K Vv (R1B.pb ⟨4 * g + 3, htv⟩) ?_ ?_ ?_ hQ hK hV r d ht _
  · intro r' d' h'
    have h0 : 4 * g < cfg1.N := by omega
    have e1 : R1B.pb ⟨4 * g, h0⟩ = R1B.pb ⟨4 * g + 3, htv⟩ :=
      Fin.ext (by show 4 * g / 16 = (4 * g + 3) / 16; omega)
    have e2 : R1B.pos (R1B.pq ⟨4 * g, h0⟩) r' = ⟨g % 4 * 512 + r'.val, h'⟩ :=
      Fin.ext (by show 4 * g / 4 % 4 * 512 + r'.val = g % 4 * 512 + r'.val; omega)
    rw [bq_apply V c (4 * g) h0, hq, e1, e2]
  · intro n hn j d' h'
    have hn4 : 4 * g + n < cfg1.N := by omega
    have e1 : R1B.pb ⟨4 * g + n, hn4⟩ = R1B.pb ⟨4 * g + 3, htv⟩ :=
      Fin.ext (by show (4 * g + n) / 16 = (4 * g + 3) / 16; omega)
    have e2 : R1B.pos (R1B.pkv ⟨4 * g + n, hn4⟩) j = ⟨n * 512 + j.val, h'⟩ :=
      Fin.ext (by
        show min ((4 * g + n) % 4) ((4 * g + n) / 4 % 4) * 512 + j.val = n * 512 + j.val
        rw [Nat.min_eq_left (by omega)]; omega)
    show bk V c (4 * g + n) (ix3 (0 : Fin 1) j d') = _
    rw [bk_apply V c (4 * g + n) hn4, hk, e1, e2]
  · intro n hn j d' h'
    have hn4 : 4 * g + n < cfg1.N := by omega
    have e1 : R1B.pb ⟨4 * g + n, hn4⟩ = R1B.pb ⟨4 * g + 3, htv⟩ :=
      Fin.ext (by show (4 * g + n) / 16 = (4 * g + 3) / 16; omega)
    have e2 : R1B.pos (R1B.pkv ⟨4 * g + n, hn4⟩) j = ⟨n * 512 + j.val, h'⟩ :=
      Fin.ext (by
        show min ((4 * g + n) % 4) ((4 * g + n) / 4 % 4) * 512 + j.val = n * 512 + j.val
        rw [Nat.min_eq_left (by omega)]; omega)
    show bv V c (4 * g + n) (ix3 (0 : Fin 1) j d') = _
    rw [bv_apply V c (4 * g + n) hn4, hv, e1, e2]

omit hstep hQ hK hV hq hk hv in
/-- The function the output array ends holding: causal attention, entry by entry. -/
def G : FVec Ideal S8x2048x128 .f32 := fun i =>
  Attn.softmaxSum (Attn.row Q K ⟨(i 0).val, (i 0).isLt⟩ ⟨(i 1).val, (i 1).isLt⟩)
    (Attn.col Vv ⟨(i 0).val, (i 0).isLt⟩ ⟨(i 2).val, (i 2).isLt⟩)

omit hstep hQ hK hV hq hk hv in
theorem G_apply (b : Fin 8) (s : Fin 2048) (d : Fin 128) :
    G Q K Vv (ix3 b s d) = Attn.softmaxSum (Attn.row Q K b s) (Attn.col Vv b d) := rfl

/-- (C) The attention region's output array, entry by entry. -/
theorem out_apply (b : Fin 8) (s : Fin 2048) (d : Fin 128) :
    ((R1.dat1 V c).arrAt 3 cfg1.N : FVec Ideal S8x2048x128 .f32) (ix3 b s d)
      = Attn.softmaxSum (Attn.row Q K b s) (Attn.col Vv b d) := by
  rw [R1Arr.arrAt3_of V c (G Q K Vv) fun t h3 r d =>
    (out_block V c hstep Q K Vv hQ hK hV hq hk hv t h3 r d).trans (G_apply Q K Vv _ _ _).symm]
  rfl

end

end Cert.KernelIdeal.R1G

end
-- ==== Proof.KernelValue.lean ====
/-
  The kernel's result array is the reference's term.

  Under the precondition every entry of the four arguments is a real, hence so is every entry of the three
  projections the attention region reads. On real queries, keys and values the region's tiled run leaves,
  at entry (b, s, d) of its output array, the softmax-weighted sum of the value column d along the causal
  row of scores of query s — which is causal attention of the arguments at (b, s, d), and that is what the
  reference's term is at every index.
-/
import proofs.«165543_j62113817035141_2_alg».proof.Proof.QKV
import proofs.«165543_j62113817035141_2_alg».proof.Proof.Finite
import proofs.«165543_j62113817035141_2_alg».proof.Proof.RefAttn
import proofs.«165543_j62113817035141_2_alg».proof.Proof.R1Step
import proofs.«165543_j62113817035141_2_alg».proof.Proof.R1Group

noncomputable section

namespace Cert.KernelIdeal.KV

open Cert.KernelIdeal Cert.KernelIdeal.Gen Idealize.ShloMosaic Idealize.ShloMosaic.TcCoe Idealize.SL.Sem
  Idealize.ShloMosaic.ValueIdx

/-- An array that is causal attention of the launched arguments at every entry is the reference's term. -/
theorem eq_refTerm_of_entries (m : (ℓ : Loc nD τ sig) → Buf (Elt Ideal) ℓ) (c : Dev nD)
    (A : FVec Ideal S8x2048x128 .f32)
    (hA : ∀ (b : Fin 8) (s : Fin 2048) (d : Fin 128), A (ix3 b s d)
      = Attn.softmaxSum (Attn.row (Attn.proj (QKV.X m c) (QKV.Wq m c)) (Attn.proj (QKV.X m c) (QKV.Wk m c)) b s)
          (Attn.col (Attn.proj (QKV.X m c) (QKV.Wv m c)) b d)) :
    A = Cert.ReferenceIdeal.RefAttn.refTerm (m ((c.tc : Thread nD τ).loc main_arg0))
      (m ((c.tc : Thread nD τ).loc main_arg1)) (m ((c.tc : Thread nD τ).loc main_arg2))
      (m ((c.tc : Thread nD τ).loc main_arg3)) := by
  funext i
  obtain ⟨b, s, d, rfl⟩ : ∃ (b : Fin 8) (s : Fin 2048) (d : Fin 128), i = ix3 b s d := ⟨i 0, i 1, i 2, eq_ix3 i⟩
  rw [hA b s d]
  exact (Cert.ReferenceIdeal.RefAttn.refTerm_apply _ _ _ _ b s d).symm

/-- Under the precondition the attention region's output array, after its last write-back, is the
    reference's term of the launched arguments. -/
theorem kernel_value [Cert.Pre_finite_inputs.Facts] (m : (ℓ : Loc nD τ sig) → Buf (Elt Ideal) ℓ) (ρ : Dev nD → PrngReg)
    (h : Cert.Pre_KernelIdeal m) (c : Dev nD) :
    (R1.dat1 (Run.V3 (F := Ideal) m ρ) c).arrAt 3 cfg1.N
      = Cert.ReferenceIdeal.RefAttn.refTerm (m ((c.tc : Thread nD τ).loc main_arg0))
          (m ((c.tc : Thread nD τ).loc main_arg1)) (m ((c.tc : Thread nD τ).loc main_arg2))
          (m ((c.tc : Thread nD τ).loc main_arg3)) := by
  obtain ⟨hQ, hK, hV⟩ := QKV.qkv_real m c (Fin.finite_of_pre m h c)
  exact eq_refTerm_of_entries m c _ fun b s d =>
    R1G.out_apply (Run.V3 (F := Ideal) m ρ) c (R1.stepAt_eq_stepP (Run.V3 (F := Ideal) m ρ) c)
      (Attn.proj (QKV.X m c) (QKV.Wq m c)) (Attn.proj (QKV.X m c) (QKV.Wk m c)) (Attn.proj (QKV.X m c) (QKV.Wv m c))
      hQ hK hV (QKV.q_eq m ρ c) (QKV.k_eq m ρ c) (QKV.v_eq m ρ c) b s d

end Cert.KernelIdeal.KV

end
-- ==== Proof.lean ====
/-
  Causal single-head attention: a tiled kernel against the plain formulation, equal on the extended reals.

  The kernel runs in two launches. The first multiplies each block of 1024 activation rows by the three projection
  matrices, giving queries, keys and values. The second visits, for each batch and each tile of 512 query rows, the
  key/value tiles in order; it keeps a running row maximum m, a running total l and a running weighted sum a, rescaling
  l and a by exp (m - m') whenever the maximum moves, skips the key tiles after the query tile, masks the keys after
  each query inside the diagonal tile with -∞, and writes a / l when the key tile is the query tile. The reference
  forms all scores, masks them with -∞ above the diagonal, takes a softmax along each row and multiplies by the values.

  At the exact instance both are the same function of the inputs: with M the row maximum over the unmasked keys, the
  running quantities after the tiles up to the query tile are M, Σ exp (score - M) and Σ exp (score - M) · value (the
  rescaling is exp (m - m') · exp (s - m) = exp (s - m')); masked keys contribute exp (-∞) = 0; the quotient is the
  softmax-weighted sum. The law needs every input finite (a difference and a product of reals), which the
  precondition gives. The named constant: the kernel's large negative fill stands for -∞.

  Both kernel programs run (terminate, fault nowhere, leave their arguments unchanged): each launch's body obligation
  is proved point by point, the attention launch's by the five ways its three guards can fall.
-/
import proofs.«165543_j62113817035141_2_alg».proof.Defs
import proofs.«165543_j62113817035141_2_alg».proof.Proof.Gen.Kernel
import proofs.«165543_j62113817035141_2_alg».proof.Proof.Gen.KernelIdeal
import proofs.«165543_j62113817035141_2_alg».proof.Proof.Gen.ReferenceIdeal
import proofs.«165543_j62113817035141_2_alg».proof.Proof.Gen.Pre_finite_inputs
import proofs.«165543_j62113817035141_2_alg».proof.Proof.KRun
import proofs.«165543_j62113817035141_2_alg».proof.Proof.Run
import proofs.«165543_j62113817035141_2_alg».proof.Proof.RefAttn
import proofs.«165543_j62113817035141_2_alg».proof.Proof.KernelValue

noncomputable section

namespace Cert.Proof

open Idealize.ShloMosaic Idealize.SL.Sem

theorem frame_k : Cert.frame_Kernel := fun m ρ _ => Cert.Kernel.Run.frame (F := Bits) m ρ

theorem frame_ki : Cert.frame_KernelIdeal := fun m ρ _ => Cert.KernelIdeal.Run.frame (F := Ideal) m ρ

theorem frame_ri : Cert.frame_ReferenceIdeal := fun m ρ _ =>
  (θ_run Cert.ReferenceIdeal.defs _ _).mono (fun _ h c => (h c).2) (Cert.ReferenceIdeal.RefAttn.ref_run m ρ)

/-- The two sites of the named constant: the table gives the fill the value -∞. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

/-- Both programs end with the result at the softmax-weighted sums of the projected values. -/
theorem algebraic : Cert.algebraic_KernelIdeal_ReferenceIdeal := by
  intro m ρ m' ρ' hpre hagree
  refine ⟨fun c => Cert.ReferenceIdeal.RefAttn.refTerm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.KV.kernel_value m ρ hpre c), (h c).2⟩)
      (Cert.KernelIdeal.Run.run_value (F := Ideal) m ρ)
  · refine (θ_run Cert.ReferenceIdeal.defs _ _).mono (fun _ h c => ⟨(h c).1.trans ?_, (h c).2⟩)
      (Cert.ReferenceIdeal.RefAttn.ref_run m' ρ')
    rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
